-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v61)) (v1 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_v62) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x160000 : Shape := ⟨2, ![2, 160000]⟩
abbrev S256x256 : Shape := ⟨2, ![256, 256]⟩
abbrev S256 : Shape := ⟨1, ![256]⟩
abbrev S1x256 : Shape := ⟨2, ![1, 256]⟩
abbrev S1 : Shape := ⟨1, ![1]⟩
abbrev S64x256x256 : Shape := ⟨3, ![64, 256, 256]⟩
abbrev S64 : Shape := ⟨1, ![64]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_
  bcast_S_S64x256x256 : S_.BroadcastsInDim S64x256x256 (![] : Fin 0 → Fin S64x256x256.rank)
  reducesTo_S64x256x256_S_d0_1_2 : S64x256x256.ReducesTo [0, 1, 2] S_
  bcast_S_S64 : S_.BroadcastsInDim S64 (![] : Fin 0 → Fin S64.rank)
  reducesTo_S64_S_d0 : S64.ReducesTo [0] S_

variable [Facts]

def fn_part3 {F : FTy → Type} [FloatOps F] (main_arg12 : FVec F S64x256x256 .f32) (main_arg13 : FVec F S64 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S64x256x256 .f32 := Host.absf main_arg12
  let main_cst_20 : FVec F S_ .f32 := constant S_ .f32 0x7F800000#32
  let main_v55 : FVec F S64x256x256 .f32 := broadcastInDim S64x256x256 ![] bcast_S_S64x256x256 main_cst_20
  let main_v56 : IVec S64x256x256 1 := cmpf .olt main_v54 main_v55
  let main_c_21 : IVec S_ 1 := constantI S_ 1 1#1
  let main_v57 : IVec S_ 1 := (fun x v => Host.reduce IntOp.andi x v reducesTo_S64x256x256_S_d0_1_2 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg8 : FVec F S1x256 .f32) (main_arg9 : FVec F S1 .f32) (main_arg10 : FVec F S256x256 .f32) (main_arg11 : FVec F S256 .f32) (main_arg12 : FVec F S64x256x256 .f32) (main_arg13 : FVec F S64 .f32) (main_v33 : IVec S_ 1) : IVec S_ 1 :=
  let main_v34 : FVec F S1x256 .f32 := Host.absf main_arg8
  let main_cst_12 : FVec F S_ .f32 := constant S_ .f32 0x7F800000#32
  let main_v35 : FVec F S1x256 .f32 := broadcastInDim S1x256 ![] bcast_S_S1x256 main_cst_12
  let main_v36 : IVec S1x256 1 := cmpf .olt main_v34 main_v35
  let main_c_13 : IVec S_ 1 := constantI S_ 1 1#1
  let main_v37 : IVec S_ 1 := (fun x v => Host.reduce IntOp.andi x v reducesTo_S1x256_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S256x256 .f32 := Host.absf main_arg10
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_arg13 main_v48 main_v49 main_v50

def fn_part1 {F : FTy → Type} [FloatOps F] (main_arg5 : FVec F S256 .f32) (main_arg6 : FVec F S256x256 .f32) (main_arg7 : FVec F S256 .f32) (main_arg8 : FVec F S1x256 .f32) (main_arg9 : FVec F S1 .f32) (main_arg10 : FVec F S256x256 .f32) (main_arg11 : FVec F S256 .f32) (main_arg12 : FVec F S64x256x256 .f32) (main_arg13 : FVec F S64 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S10000x256 .f32) (main_arg1 : IVec S2x160000 32) (main_arg2 : FVec F S256x256 .f32) (main_arg3 : FVec F S256 .f32) (main_arg4 : FVec F S256x256 .f32) (main_arg5 : FVec F S256 .f32) (main_arg6 : FVec F S256x256 .f32) (main_arg7 : FVec F S256 .f32) (main_arg8 : FVec F S1x256 .f32) (main_arg9 : FVec F S1 .f32) (main_arg10 : FVec F S256x256 .f32) (main_arg11 : FVec F S256 .f32) (main_arg12 : FVec F S64x256x256 .f32) (main_arg13 : FVec F S64 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_arg10 main_arg11 main_arg12 main_arg13 main_v13 main_v16
-- ==== Kernel.lean ====
abbrev S10000x256 : Shape := ⟨2, ![10000, 256]⟩
abbrev S2x160000 : Shape := ⟨2, ![2, 160000]⟩
abbrev S256x256 : Shape := ⟨2, ![256, 256]⟩
abbrev S256 : Shape := ⟨1, ![256]⟩
abbrev S1x256 : Shape := ⟨2, ![1, 256]⟩
abbrev S1 : Shape := ⟨1, ![1]⟩
abbrev S64x256x256 : Shape := ⟨3, ![64, 256, 256]⟩
abbrev S64 : Shape := ⟨1, ![64]⟩
abbrev S2000x256 : Shape := ⟨2, ![2000, 256]⟩
abbrev S1x160000 : Shape := ⟨2, ![1, 160000]⟩
abbrev S160000 : Shape := ⟨1, ![160000]⟩
abbrev S_ : Shape := ⟨0, ![]⟩
abbrev S10000 : Shape := ⟨1, ![10000]⟩
abbrev S160000x1 : Shape := ⟨2, ![160000, 1]⟩
abbrev S10000x1 : Shape := ⟨2, ![10000, 1]⟩
abbrev S160000x256 : Shape := ⟨2, ![160000, 256]⟩
abbrev S256x1 : Shape := ⟨2, ![256, 1]⟩
abbrev S16384x256 : Shape := ⟨2, ![16384, 256]⟩
abbrev S256x16384 : Shape := ⟨2, ![256, 16384]⟩
abbrev S1x1 : Shape := ⟨2, ![1, 1]⟩
abbrev S1x64 : Shape := ⟨2, ![1, 64]⟩
abbrev S10000x128 : Shape := ⟨2, ![10000, 128]⟩
abbrev S1000x256 : Shape := ⟨2, ![1000, 256]⟩
abbrev S1000x128 : Shape := ⟨2, ![1000, 128]⟩
abbrev S1000x1 : Shape := ⟨2, ![1000, 1]⟩
abbrev S1000x64 : Shape := ⟨2, ![1000, 64]⟩
abbrev S1000 : Shape := ⟨1, ![1000]⟩
abbrev S1000x63 : Shape := ⟨2, ![1000, 63]⟩
abbrev S10000x64 : Shape := ⟨2, ![10000, 64]⟩

abbrev nBuf : Space → Nat
  | .hbm => 88
  | .vmem => 19
  | .smem => 0
  | _ => 0

abbrev bufTy : (tb : Table) → Fin (tcTables nBuf tb) → BufTy
  | .hbm, ⟨0, _⟩ => ⟨S10000x256, .f32⟩
  | .hbm, ⟨1, _⟩ => ⟨S2x160000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S1x256, .f32⟩
  | .hbm, ⟨9, _⟩ => ⟨S1, .f32⟩
  | .hbm, ⟨10, _⟩ => ⟨S256x256, .f32⟩
  | .hbm, ⟨11, _⟩ => ⟨S256, .f32⟩
  | .hbm, ⟨12, _⟩ => ⟨S64x256x256, .f32⟩
  | .hbm, ⟨13, _⟩ => ⟨S64, .f32⟩
  | .hbm, ⟨14, _⟩ => ⟨S256x256, .f32⟩
  | .hbm, ⟨15, _⟩ => ⟨S256x256, .bf16⟩
  | .hbm, ⟨16, _⟩ => ⟨S10000x256, .f32⟩
  | .hbm, ⟨17, _⟩ => ⟨S1x160000, .i32⟩
  | .hbm, ⟨18, _⟩ => ⟨S160000, .i32⟩
  | .hbm, ⟨19, _⟩ => ⟨S1x160000, .i32⟩
  | .hbm, ⟨20, _⟩ => ⟨S160000, .i32⟩
  | .hbm, ⟨21, _⟩ => ⟨S_, .f32⟩
  | .hbm, ⟨22, _⟩ => ⟨S160000, .f32⟩
  | .hbm, ⟨23, _⟩ => ⟨S_, .f32⟩
  | .hbm, ⟨24, _⟩ => ⟨S10000, .f32⟩
  | .hbm, ⟨25, _⟩ => ⟨S_, .i32⟩
  | .hbm, ⟨26, _⟩ => ⟨S160000, .i32⟩
  | .hbm, ⟨27, _⟩ => ⟨S160000, .i1⟩
  | .hbm, ⟨28, _⟩ => ⟨S_, .i32⟩
  | .hbm, ⟨29, _⟩ => ⟨S160000, .i32⟩
  | .hbm, ⟨30, _⟩ => ⟨S160000, .i32⟩
  | .hbm, ⟨31, _⟩ => ⟨S160000, .i32⟩
  | .hbm, ⟨32, _⟩ => ⟨S160000x1, .i32⟩
  | .hbm, ⟨33, _⟩ => ⟨S10000, .f32⟩
  | .hbm, ⟨34, _⟩ => ⟨S10000, .f32⟩
  | .hbm, ⟨35, _⟩ => ⟨S10000x1, .f32⟩
  | .hbm, ⟨36, _⟩ => ⟨S10000x256, .f32⟩
  | .hbm, ⟨37, _⟩ => ⟨S10000x256, .f32⟩
  | .hbm, ⟨38, _⟩ => ⟨S_, .f32⟩
  | .hbm, ⟨39, _⟩ => ⟨S10000x256, .f32⟩
  | .hbm, ⟨40, _⟩ => ⟨S_, .i32⟩
  | .hbm, ⟨41, _⟩ => ⟨S160000, .i32⟩
  | .hbm, ⟨42, _⟩ => ⟨S160000, .i1⟩
  | .hbm, ⟨43, _⟩ => ⟨S_, .i32⟩
  | .hbm, ⟨44, _⟩ => ⟨S160000, .i32⟩
  | .hbm, ⟨45, _⟩ => ⟨S160000, .i32⟩
  | .hbm, ⟨46, _⟩ => ⟨S160000, .i32⟩
  | .hbm, ⟨47, _⟩ => ⟨S160000x1, .i32⟩
  | .hbm, ⟨48, _⟩ => ⟨S160000x256, .f32⟩
  | .hbm, ⟨49, _⟩ => ⟨S_, .i32⟩
  | .hbm, ⟨50, _⟩ => ⟨S160000, .i32⟩
  | .hbm, ⟨51, _⟩ => ⟨S160000, .i1⟩
  | .hbm, ⟨52, _⟩ => ⟨S_, .i32⟩
  | .hbm, ⟨53, _⟩ => ⟨S160000, .i32⟩
  | .hbm, ⟨54, _⟩ => ⟨S160000, .i32⟩
  | .hbm, ⟨55, _⟩ => ⟨S160000, .i32⟩
  | .hbm, ⟨56, _⟩ => ⟨S160000x1, .i32⟩
  | .hbm, ⟨57, _⟩ => ⟨S10000x256, .f32⟩
  | .hbm, ⟨58, _⟩ => ⟨S10000x1, .f32⟩
  | .hbm, ⟨59, _⟩ => ⟨S10000x256, .f32⟩
  | .hbm, ⟨60, _⟩ => ⟨S10000x256, .f32⟩
  | .hbm, ⟨61, _⟩ => ⟨S10000x256, .f32⟩
  | .hbm, ⟨62, _⟩ => ⟨S1x256, .f32⟩
  | .hbm, ⟨63, _⟩ => ⟨S10000x256, .f32⟩
  | .hbm, ⟨64, _⟩ => ⟨S10000x256, .f32⟩
  | .hbm, ⟨65, _⟩ => ⟨S_, .f32⟩
  | .hbm, ⟨66, _⟩ => ⟨S10000x256, .f32⟩
  | .hbm, ⟨67, _⟩ => ⟨S10000x256, .f32⟩
  | .hbm, ⟨68, _⟩ => ⟨S10000x256, .f32⟩
  | .hbm, ⟨69, _⟩ => ⟨S256x256, .f32⟩
  | .hbm, ⟨70, _⟩ => ⟨S256x256, .bf16⟩
  | .hbm, ⟨71, _⟩ => ⟨S256x256, .f32⟩
  | .hbm, ⟨72, _⟩ => ⟨S256x256, .bf16⟩
  | .hbm, ⟨73, _⟩ => ⟨S256x1, .f32⟩
  | .hbm, ⟨74, _⟩ => ⟨S256x1, .bf16⟩
  | .hbm, ⟨75, _⟩ => ⟨S256x256, .f32⟩
  | .hbm, ⟨76, _⟩ => ⟨S256x256, .bf16⟩
  | .hbm, ⟨77, _⟩ => ⟨S16384x256, .f32⟩
  | .hbm, ⟨78, _⟩ => ⟨S256x16384, .f32⟩
  | .hbm, ⟨79, _⟩ => ⟨S256x16384, .bf16⟩
  | .hbm, ⟨80, _⟩ => ⟨S1x256, .f32⟩
  | .hbm, ⟨81, _⟩ => ⟨S1x256, .f32⟩
  | .hbm, ⟨82, _⟩ => ⟨S1x1, .f32⟩
  | .hbm, ⟨83, _⟩ => ⟨S1x256, .f32⟩
  | .hbm, ⟨84, _⟩ => ⟨S1x64, .f32⟩
  | .hbm, ⟨85, _⟩ => ⟨S10000x128, .f32⟩
  | .hbm, ⟨86, _⟩ => ⟨S10000x1, .f32⟩
  | .hbm, ⟨87, _⟩ => ⟨S10000x64, .f32⟩
  | .local _ .vmem, ⟨0, _⟩ => ⟨S2000x256, .f32⟩
  | .local _ .vmem, ⟨1, _⟩ => ⟨S2000x256, .f32⟩
  | .local _ .vmem, ⟨2, _⟩ => ⟨S256x256, .bf16⟩
  | .local _ .vmem, ⟨3, _⟩ => ⟨S2000x256, .f32⟩
  | .local _ .vmem, ⟨4, _⟩ => ⟨S2000x256, .f32⟩
  | .local _ .vmem, ⟨5, _⟩ => ⟨S1000x256, .f32⟩
  | .local _ .vmem, ⟨6, _⟩ => ⟨S1000x256, .f32⟩
  | .local _ .vmem, ⟨7, _⟩ => ⟨S256x256, .bf16⟩
  | .local _ .vmem, ⟨8, _⟩ => ⟨S1x256, .f32⟩
  | .local _ .vmem, ⟨9, _⟩ => ⟨S256x256, .bf16⟩
  | .local _ .vmem, ⟨10, _⟩ => ⟨S1x256, .f32⟩
  | .local _ .vmem, ⟨11, _⟩ => ⟨S256x1, .bf16⟩
  | .local _ .vmem, ⟨12, _⟩ => ⟨S1x1, .f32⟩
  | .local _ .vmem, ⟨13, _⟩ => ⟨S256x256, .bf16⟩
  | .local _ .vmem, ⟨14, _⟩ => ⟨S1x256, .f32⟩
  | .local _ .vmem, ⟨15, _⟩ => ⟨S256x16384, .bf16⟩
  | .local _ .vmem, ⟨16, _⟩ => ⟨S1x64, .f32⟩
  | .local _ .vmem, ⟨17, _⟩ => ⟨S1000x128, .f32⟩
  | .local _ .vmem, ⟨18, _⟩ => ⟨S1000x128, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_c_3 : Ref sig .tc := ⟨.hbm, 40, rfl⟩
abbrev main_v21 : Ref sig .tc := ⟨.hbm, 41, rfl⟩
abbrev main_v22 : Ref sig .tc := ⟨.hbm, 42, rfl⟩
abbrev main_c_4 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_call0_cst : Ref sig .tc := ⟨.hbm, 65, rfl⟩
abbrev main_call0_v0 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg8_0 : Ref sig .tc := ⟨.vmem, 14, rfl⟩
abbrev cc1_stg9_0 : Ref sig .tc := ⟨.vmem, 15, rfl⟩
abbrev cc1_stg10_0 : Ref sig .tc := ⟨.vmem, 16, rfl⟩
abbrev cc1_stg11_0 : Ref sig .tc := ⟨.vmem, 17, rfl⟩
abbrev cc1_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem9_0 : DmaSem sig := 15
abbrev cc1_sem10_0 : DmaSem sig := 16
abbrev cc1_sem11_0 : DmaSem sig := 17
abbrev cc1_sem11_1 : DmaSem sig := 18

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x1 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x256 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S256x16384 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S1000x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  transposes_S256x256_S256x256_1_0 : S256x256.Transposes [1, 0] S256x256
  bitsLt_bf16_f32 : FTy.bits .bf16 < FTy.bits .f32
  inb_S2000x256_S2000x256_0_0 : ∀ a, (![0, 0] : Fin 2 → Nat) a + S2000x256.size a ≤ S2000x256.size a
  h_S2000x256 : 0 < S2000x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S_S10000 : S_.BroadcastsInDim S10000 (![] : Fin 0 → Fin S10000.rank)
  bcast_S160000_S160000x1_0 : S160000.BroadcastsInDim S160000x1 (![0] : Fin 1 → Fin S160000x1.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  bcast_S_S10000x256 : S_.BroadcastsInDim S10000x256 (![] : Fin 0 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  transposes_S1x256_S256x1_1_0 : S1x256.Transposes [1, 0] S256x1
  shapeCasts_S64x256x256_S16384x256 : S64x256x256.ShapeCasts S16384x256
  transposes_S16384x256_S256x16384_1_0 : S16384x256.Transposes [1, 0] S256x16384
  shapeCasts_S256_S1x256 : S256.ShapeCasts S1x256
  shapeCasts_S1_S1x1 : S1.ShapeCasts S1x1
  shapeCasts_S64_S1x64 : S64.ShapeCasts S1x64
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1000x1 : S1x1.Broadcasts S1000x1
  iota_S1x64_d1_w32 : S1x64.Iotas .tc 32 [1]
  inb_S256x16384_S256x256_0_0 : ∀ a, (![0, 0] : Fin 2 → Nat) a + S256x256.size a ≤ S256x16384.size a
  reduces_S1000x256_S1000 : S1000x256.Reduces [1] S1000
  shapeCasts_S1000_S1000x1 : S1000.ShapeCasts S1000x1
  natLt_1_32 : 1 < 32
  broadcasts_S1000x1_S1000x64 : S1000x1.Broadcasts S1000x64
  broadcasts_S1x64_S1000x64 : S1x64.Broadcasts S1000x64
  inb_S256x16384_S256x256_0_256 : ∀ a, (![0, 256] : Fin 2 → Nat) a + S256x256.size a ≤ S256x16384.size a
  inb_S256x16384_S256x256_0_512 : ∀ a, (![0, 512] : Fin 2 → Nat) a + S256x256.size a ≤ S256x16384.size a
  inb_S256x16384_S256x256_0_768 : ∀ a, (![0, 768] : Fin 2 → Nat) a + S256x256.size a ≤ S256x16384.size a
  inb_S256x16384_S256x256_0_1024 : ∀ a, (![0, 1024] : Fin 2 → Nat) a + S256x256.size a ≤ S256x16384.size a
  inb_S256x16384_S256x256_0_1280 : ∀ a, (![0, 1280] : Fin 2 → Nat) a + S256x256.size a ≤ S256x16384.size a
  inb_S256x16384_S256x256_0_1536 : ∀ a, (![0, 1536] : Fin 2 → Nat) a + S256x256.size a ≤ S256x16384.size a
  inb_S256x16384_S256x256_0_1792 : ∀ a, (![0, 1792] : Fin 2 → Nat) a + S256x256.size a ≤ S256x16384.size a
  inb_S256x16384_S256x256_0_2048 : ∀ a, (![0, 2048] : Fin 2 → Nat) a + S256x256.size a ≤ S256x16384.size a
  inb_S256x16384_S256x256_0_2304 : ∀ a, (![0, 2304] : Fin 2 → Nat) a + S256x256.size a ≤ S256x16384.size a
  inb_S256x16384_S256x256_0_2560 : ∀ a, (![0, 2560] : Fin 2 → Nat) a + S256x256.size a ≤ S256x16384.size a
  inb_S256x16384_S256x256_0_2816 : ∀ a, (![0, 2816] : Fin 2 → Nat) a + S256x256.size a ≤ S256x16384.size a
  inb_S256x16384_S256x256_0_3072 : ∀ a, (![0, 3072] : Fin 2 → Nat) a + S256x256.size a ≤ S256x16384.size a
  inb_S256x16384_S256x256_0_3328 : ∀ a, (![0, 3328] : Fin 2 → Nat) a + S256x256.size a ≤ S256x16384.size a
  inb_S256x16384_S256x256_0_3584 : ∀ a, (![0, 3584] : Fin 2 → Nat) a + S256x256.size a ≤ S256x16384.size a
  inb_S256x16384_S256x256_0_3840 : ∀ a, (![0, 3840] : Fin 2 → Nat) a + S256x256.size a ≤ S256x16384.size a
  inb_S256x16384_S256x256_0_4096 : ∀ a, (![0, 4096] : Fin 2 → Nat) a + S256x256.size a ≤ S256x16384.size a
  inb_S256x16384_S256x256_0_4352 : ∀ a, (![0, 4352] : Fin 2 → Nat) a + S256x256.size a ≤ S256x16384.size a
  inb_S256x16384_S256x256_0_4608 : ∀ a, (![0, 4608] : Fin 2 → Nat) a + S256x256.size a ≤ S256x16384.size a
  inb_S256x16384_S256x256_0_4864 : ∀ a, (![0, 4864] : Fin 2 → Nat) a + S256x256.size a ≤ S256x16384.size a
  inb_S256x16384_S256x256_0_5120 : ∀ a, (![0, 5120] : Fin 2 → Nat) a + S256x256.size a ≤ S256x16384.size a
  inb_S256x16384_S256x256_0_5376 : ∀ a, (![0, 5376] : Fin 2 → Nat) a + S256x256.size a ≤ S256x16384.size a
  inb_S256x16384_S256x256_0_5632 : ∀ a, (![0, 5632] : Fin 2 → Nat) a + S256x256.size a ≤ S256x16384.size a
  inb_S256x16384_S256x256_0_5888 : ∀ a, (![0, 5888] : Fin 2 → Nat) a + S256x256.size a ≤ S256x16384.size a
  inb_S256x16384_S256x256_0_6144 : ∀ a, (![0, 6144] : Fin 2 → Nat) a + S256x256.size a ≤ S256x16384.size a
  inb_S256x16384_S256x256_0_6400 : ∀ a, (![0, 6400] : Fin 2 → Nat) a + S256x256.size a ≤ S256x16384.size a
  inb_S256x16384_S256x256_0_6656 : ∀ a, (![0, 6656] : Fin 2 → Nat) a + S256x256.size a ≤ S256x16384.size a
  inb_S256x16384_S256x256_0_6912 : ∀ a, (![0, 6912] : Fin 2 → Nat) a + S256x256.size a ≤ S256x16384.size a
  inb_S256x16384_S256x256_0_7168 : ∀ a, (![0, 7168] : Fin 2 → Nat) a + S256x256.size a ≤ S256x16384.size a
  inb_S256x16384_S256x256_0_7424 : ∀ a, (![0, 7424] : Fin 2 → Nat) a + S256x256.size a ≤ S256x16384.size a
  inb_S256x16384_S256x256_0_7680 : ∀ a, (![0, 7680] : Fin 2 → Nat) a + S256x256.size a ≤ S256x16384.size a
  inb_S256x16384_S256x256_0_7936 : ∀ a, (![0, 7936] : Fin 2 → Nat) a + S256x256.size a ≤ S256x16384.size a
  inb_S256x16384_S256x256_0_8192 : ∀ a, (![0, 8192] : Fin 2 → Nat) a + S256x256.size a ≤ S256x16384.size a
  inb_S256x16384_S256x256_0_8448 : ∀ a, (![0, 8448] : Fin 2 → Nat) a + S256x256.size a ≤ S256x16384.size a
  inb_S256x16384_S256x256_0_8704 : ∀ a, (![0, 8704] : Fin 2 → Nat) a + S256x256.size a ≤ S256x16384.size a
  inb_S256x16384_S256x256_0_8960 : ∀ a, (![0, 8960] : Fin 2 → Nat) a + S256x256.size a ≤ S256x16384.size a
  inb_S256x16384_S256x256_0_9216 : ∀ a, (![0, 9216] : Fin 2 → Nat) a + S256x256.size a ≤ S256x16384.size a
  inb_S256x16384_S256x256_0_9472 : ∀ a, (![0, 9472] : Fin 2 → Nat) a + S256x256.size a ≤ S256x16384.size a
  inb_S256x16384_S256x256_0_9728 : ∀ a, (![0, 9728] : Fin 2 → Nat) a + S256x256.size a ≤ S256x16384.size a
  inb_S256x16384_S256x256_0_9984 : ∀ a, (![0, 9984] : Fin 2 → Nat) a + S256x256.size a ≤ S256x16384.size a
  inb_S256x16384_S256x256_0_10240 : ∀ a, (![0, 10240] : Fin 2 → Nat) a + S256x256.size a ≤ S256x16384.size a
  inb_S256x16384_S256x256_0_10496 : ∀ a, (![0, 10496] : Fin 2 → Nat) a + S256x256.size a ≤ S256x16384.size a
  inb_S256x16384_S256x256_0_10752 : ∀ a, (![0, 10752] : Fin 2 → Nat) a + S256x256.size a ≤ S256x16384.size a
  inb_S256x16384_S256x256_0_11008 : ∀ a, (![0, 11008] : Fin 2 → Nat) a + S256x256.size a ≤ S256x16384.size a
  inb_S256x16384_S256x256_0_11264 : ∀ a, (![0, 11264] : Fin 2 → Nat) a + S256x256.size a ≤ S256x16384.size a
  inb_S256x16384_S256x256_0_11520 : ∀ a, (![0, 11520] : Fin 2 → Nat) a + S256x256.size a ≤ S256x16384.size a
  inb_S256x16384_S256x256_0_11776 : ∀ a, (![0, 11776] : Fin 2 → Nat) a + S256x256.size a ≤ S256x16384.size a
  inb_S256x16384_S256x256_0_12032 : ∀ a, (![0, 12032] : Fin 2 → Nat) a + S256x256.size a ≤ S256x16384.size a
  inb_S256x16384_S256x256_0_12288 : ∀ a, (![0, 12288] : Fin 2 → Nat) a + S256x256.size a ≤ S256x16384.size a
  inb_S256x16384_S256x256_0_12544 : ∀ a, (![0, 12544] : Fin 2 → Nat) a + S256x256.size a ≤ S256x16384.size a
  inb_S256x16384_S256x256_0_12800 : ∀ a, (![0, 12800] : Fin 2 → Nat) a + S256x256.size a ≤ S256x16384.size a
  inb_S256x16384_S256x256_0_13056 : ∀ a, (![0, 13056] : Fin 2 → Nat) a + S256x256.size a ≤ S256x16384.size a
  inb_S256x16384_S256x256_0_13312 : ∀ a, (![0, 13312] : Fin 2 → Nat) a + S256x256.size a ≤ S256x16384.size a
  inb_S256x16384_S256x256_0_13568 : ∀ a, (![0, 13568] : Fin 2 → Nat) a + S256x256.size a ≤ S256x16384.size a
  inb_S256x16384_S256x256_0_13824 : ∀ a, (![0, 13824] : Fin 2 → Nat) a + S256x256.size a ≤ S256x16384.size a
  inb_S256x16384_S256x256_0_14080 : ∀ a, (![0, 14080] : Fin 2 → Nat) a + S256x256.size a ≤ S256x16384.size a
  inb_S256x16384_S256x256_0_14336 : ∀ a, (![0, 14336] : Fin 2 → Nat) a + S256x256.size a ≤ S256x16384.size a
  inb_S256x16384_S256x256_0_14592 : ∀ a, (![0, 14592] : Fin 2 → Nat) a + S256x256.size a ≤ S256x16384.size a
  inb_S256x16384_S256x256_0_14848 : ∀ a, (![0, 14848] : Fin 2 → Nat) a + S256x256.size a ≤ S256x16384.size a
  inb_S256x16384_S256x256_0_15104 : ∀ a, (![0, 15104] : Fin 2 → Nat) a + S256x256.size a ≤ S256x16384.size a
  inb_S256x16384_S256x256_0_15360 : ∀ a, (![0, 15360] : Fin 2 → Nat) a + S256x256.size a ≤ S256x16384.size a
  inb_S256x16384_S256x256_0_15616 : ∀ a, (![0, 15616] : Fin 2 → Nat) a + S256x256.size a ≤ S256x16384.size a
  inb_S256x16384_S256x256_0_15872 : ∀ a, (![0, 15872] : Fin 2 → Nat) a + S256x256.size a ≤ S256x16384.size a
  inb_S256x16384_S256x256_0_16128 : ∀ a, (![0, 16128] : Fin 2 → Nat) a + S256x256.size a ≤ S256x16384.size a
  inb_S1x64_S1x64_0_0 : ∀ a, (![0, 0] : Fin 2 → Nat) a + S1x64.size a ≤ S1x64.size a
  h_S1x64 : 0 < S1x64.numel
  shapeCasts_S1x64_S1x64 : S1x64.ShapeCasts S1x64
  concatenates_S1000x1_S1000x63_S1000x64_S1000x128_d1 : Shape.Concatenates [S1000x1, S1000x63, S1000x64] S1000x128 1
  inb_S1000x128_S1000x128_0_0 : ∀ a, (![0, 0] : Fin 2 → Nat) a + S1000x128.size a ≤ S1000x128.size a
  h_S1000x128 : 0 < S1000x128.numel
  slices_S10000x128_S10000x1_0_0 : S10000x128.Slices ![0, 0] S10000x1
  slices_S10000x128_S10000x64_0_64 : S10000x128.Slices ![0, 64] S10000x64
  dot_S2000x256_S256x256_S2000x256_1_0_0_1_n_n_wf : DotDims.WF S2000x256 S256x256 S2000x256 [1] [0] [0] [1] [] []
  scatter_S10000_S160000x1_S160000_n_0_0_1_wf : ScatterDims.WF S10000 S160000x1 S160000 [] [0] [0] 1
  gather_S10000x256_S160000x1_S160000x256_1_0_n_n_0_1_1256_wf : GatherDims.WF S10000x256 S160000x1 S160000x256 [1] [0] [] [0] [] 1 ![1, 256]
  scatter_S10000x256_S160000x1_S160000x256_1_0_0_1_wf : ScatterDims.WF S10000x256 S160000x1 S160000x256 [1] [0] [0] 1
  dot_S1000x256_S256x256_S1000x256_1_0_0_1_n_n_wf : DotDims.WF S1000x256 S256x256 S1000x256 [1] [0] [0] [1] [] []
  dot_S1000x256_S256x1_S1000x1_1_0_0_1_n_n_wf : DotDims.WF S1000x256 S256x1 S1000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S10000x256.size a
  hwx0_0 : ∀ i : grid0.Coords, EltTy.bits .f32 = 32 ∨ (Rect.block (s := S10000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S10000x256.size a
  hwx0_2 : ∀ i : grid0.Coords, EltTy.bits .f32 = 32 ∨ (Rect.block (s := S10000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S10000x256.size a
  hwx1_0 : ∀ i : grid1.Coords, EltTy.bits .f32 = 32 ∨ (Rect.block (s := S10000x256) S1000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .bf16 = 32 ∨ (Rect.block (s := S256x256) S256x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x1.size a ≤ S256x1.size a
  hwx1_5 : ∀ i : grid1.Coords, EltTy.bits .bf16 = 32 ∨ (Rect.block (s := S256x1) S256x1.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x256.size a ≤ S256x256.size a
  hwx1_7 : ∀ i : grid1.Coords, EltTy.bits .bf16 = 32 ∨ (Rect.block (s := S256x256) S256x256.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S256x16384.size a ≤ S256x16384.size a
  hwx1_9 : ∀ i : grid1.Coords, EltTy.bits .bf16 = 32 ∨ (Rect.block (s := S256x16384) S256x16384.size (cc1_transform_9 i) (hinb1_9 i)).WholeWords (EltTy.packing .bf16)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x64.size a ≤ S1x64.size a
  hwx1_10 : ∀ i : grid1.Coords, EltTy.bits .f32 = 32 ∨ (Rect.block (s := S1x64) S1x64.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S1000x128.size a ≤ S10000x128.size a
  hwx1_11 : ∀ i : grid1.Coords, EltTy.bits .f32 = 32 ∨ (Rect.block (s := S10000x128) S1000x128.size (cc1_transform_11 i) (hinb1_11 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def gather_S10000x256_S160000x1_S160000x256_1_0_n_n_0_1_1256 : GatherDims S10000x256 S160000x1 S160000x256 where
  offsetDims := [1]
  collapsedSliceDims := [0]
  operandBatchingDims := []
  startIndicesBatchingDims := []
  startIndexMap := [0]
  indexVectorDim := 1
  sliceSizes := ![1, 256]
  wf := gather_S10000x256_S160000x1_S160000x256_1_0_n_n_0_1_1256_wf
def scatter_S10000x256_S160000x1_S160000x256_1_0_0_1 : ScatterDims S10000x256 S160000x1 S160000x256 where
  updateWindowDims := [1]
  insertedWindowDims := [0]
  scatterDimsToOperandDims := [0]
  indexVectorDim := 1
  wf := scatter_S10000x256_S160000x1_S160000x256_1_0_0_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def dot_S1000x256_S256x1_S1000x1_1_0_0_1_n_n : DotDims S1000x256 S256x1 S1000x1 where
  lhsContracting := [1]
  rhsContracting := [0]
  lhsNonContracting := [0]
  rhsNonContracting := [1]
  lhsBatch := []
  rhsBatch := []
  wf := dot_S1000x256_S256x1_S1000x1_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v55) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v56) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S256x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v57) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v51) S256x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v58) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v54) S256x16384.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v59) S1x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v60) S1000x128.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S10000x256 : Shape := ⟨2, ![10000, 256]⟩
abbrev S2x160000 : Shape := ⟨2, ![2, 160000]⟩
abbrev S256x256 : Shape := ⟨2, ![256, 256]⟩
abbrev S256 : Shape := ⟨1, ![256]⟩
abbrev S1x256 : Shape := ⟨2, ![1, 256]⟩
abbrev S1 : Shape := ⟨1, ![1]⟩
abbrev S64x256x256 : Shape := ⟨3, ![64, 256, 256]⟩
abbrev S64 : Shape := ⟨1, ![64]⟩
abbrev S1x160000 : Shape := ⟨2, ![1, 160000]⟩
abbrev S160000 : Shape := ⟨1, ![160000]⟩
abbrev S_ : Shape := ⟨0, ![]⟩
abbrev S10000 : Shape := ⟨1, ![10000]⟩
abbrev S160000x1 : Shape := ⟨2, ![160000, 1]⟩
abbrev S160000x256 : Shape := ⟨2, ![160000, 256]⟩
abbrev S10000x1 : Shape := ⟨2, ![10000, 1]⟩
abbrev S256x1 : Shape := ⟨2, ![256, 1]⟩
abbrev S1x1 : Shape := ⟨2, ![1, 1]⟩
abbrev S16384x256 : Shape := ⟨2, ![16384, 256]⟩
abbrev S256x16384 : Shape := ⟨2, ![256, 16384]⟩
abbrev S10000x16384 : Shape := ⟨2, ![10000, 16384]⟩
abbrev S10000x64x256 : Shape := ⟨3, ![10000, 64, 256]⟩
abbrev S10000x1x256 : Shape := ⟨3, ![10000, 1, 256]⟩
abbrev S10000x64 : Shape := ⟨2, ![10000, 64]⟩
abbrev S1x64 : Shape := ⟨2, ![1, 64]⟩

abbrev nBuf : Space → Nat
  | .hbm => 129
  | .vmem => 0
  | .smem => 0
  | _ => 0

abbrev hbmTy0_0 (i : Nat) : BufTy := match i % 128 with
  | 0 => ⟨S10000x256, .f32⟩
  | 1 => ⟨S2x160000, .i32⟩
  | 2 => ⟨S256x256, .f32⟩
  | 3 => ⟨S256, .f32⟩
  | 4 => ⟨S256x256, .f32⟩
  | 5 => ⟨S256, .f32⟩
  | 6 => ⟨S256x256, .f32⟩
  | 7 => ⟨S256, .f32⟩
  | 8 => ⟨S1x256, .f32⟩
  | 9 => ⟨S1, .f32⟩
  | 10 => ⟨S256x256, .f32⟩
  | 11 => ⟨S256, .f32⟩
  | 12 => ⟨S64x256x256, .f32⟩
  | 13 => ⟨S64, .f32⟩
  | 14 => ⟨S1x160000, .i32⟩
  | 15 => ⟨S160000, .i32⟩
  | 16 => ⟨S1x160000, .i32⟩
  | 17 => ⟨S160000, .i32⟩
  | 18 => ⟨S256x256, .f32⟩
  | 19 => ⟨S10000x256, .f32⟩
  | 20 => ⟨S_, .f32⟩
  | 21 => ⟨S10000, .f32⟩
  | 22 => ⟨S_, .f32⟩
  | 23 => ⟨S160000, .f32⟩
  | 24 => ⟨S_, .i32⟩
  | 25 => ⟨S160000, .i32⟩
  | 26 => ⟨S160000, .i1⟩
  | 27 => ⟨S_, .i32⟩
  | 28 => ⟨S160000, .i32⟩
  | 29 => ⟨S160000, .i32⟩
  | 30 => ⟨S160000, .i32⟩
  | 31 => ⟨S160000x1, .i32⟩
  | 32 => ⟨S10000, .f32⟩
  | 33 => ⟨S10000, .f32⟩
  | 34 => ⟨S_, .i32⟩
  | 35 => ⟨S160000, .i32⟩
  | 36 => ⟨S160000, .i1⟩
  | 37 => ⟨S_, .i32⟩
  | 38 => ⟨S160000, .i32⟩
  | 39 => ⟨S160000, .i32⟩
  | 40 => ⟨S160000, .i32⟩
  | 41 => ⟨S160000x1, .i32⟩
  | 42 => ⟨S160000, .f32⟩
  | 43 => ⟨S_, .i32⟩
  | 44 => ⟨S160000, .i32⟩
  | 45 => ⟨S160000, .i1⟩
  | 46 => ⟨S_, .i32⟩
  | 47 => ⟨S160000, .i32⟩
  | 48 => ⟨S160000, .i32⟩
  | 49 => ⟨S160000, .i32⟩
  | 50 => ⟨S160000x1, .i32⟩
  | 51 => ⟨S160000, .f32⟩
  | 52 => ⟨S160000, .f32⟩
  | 53 => ⟨S_, .f32⟩
  | 54 => ⟨S10000x256, .f32⟩
  | 55 => ⟨S160000x1, .f32⟩
  | 56 => ⟨S_, .i32⟩
  | 57 => ⟨S160000, .i32⟩
  | 58 => ⟨S160000, .i1⟩
  | 59 => ⟨S_, .i32⟩
  | 60 => ⟨S160000, .i32⟩
  | 61 => ⟨S160000, .i32⟩
  | 62 => ⟨S160000, .i32⟩
  | 63 => ⟨S160000x1, .i32⟩
  | 64 => ⟨S160000x256, .f32⟩
  | 65 => ⟨S160000x256, .f32⟩
  | 66 => ⟨S160000x256, .f32⟩
  | 67 => ⟨S_, .i32⟩
  | 68 => ⟨S160000, .i32⟩
  | 69 => ⟨S160000, .i1⟩
  | 70 => ⟨S_, .i32⟩
  | 71 => ⟨S160000, .i32⟩
  | 72 => ⟨S160000, .i32⟩
  | 73 => ⟨S160000, .i32⟩
  | 74 => ⟨S160000x1, .i32⟩
  | 75 => ⟨S10000x256, .f32⟩
  | 76 => ⟨S10000, .f32⟩
  | 77 => ⟨S10000x1, .f32⟩
  | 78 => ⟨S10000x256, .f32⟩
  | 79 => ⟨S10000x256, .f32⟩
  | 80 => ⟨S10000x256, .f32⟩
  | 81 => ⟨S1x256, .f32⟩
  | 82 => ⟨S10000x256, .f32⟩
  | 83 => ⟨S10000x256, .f32⟩
  | 84 => ⟨S_, .f32⟩
  | 85 => ⟨S10000x256, .f32⟩
  | 86 => ⟨S10000x256, .f32⟩
  | 87 => ⟨S10000x256, .f32⟩
  | 88 => ⟨S256x256, .f32⟩
  | 89 => ⟨S10000x256, .f32⟩
  | 90 => ⟨S1x256, .f32⟩
  | 91 => ⟨S10000x256, .f32⟩
  | 92 => ⟨S10000x256, .f32⟩
  | 93 => ⟨S_, .f32⟩
  | 94 => ⟨S10000x256, .f32⟩
  | 95 => ⟨S10000x256, .f32⟩
  | 96 => ⟨S256x256, .f32⟩
  | 97 => ⟨S10000x256, .f32⟩
  | 98 => ⟨S1x256, .f32⟩
  | 99 => ⟨S10000x256, .f32⟩
  | 100 => ⟨S10000x256, .f32⟩
  | 101 => ⟨S_, .f32⟩
  | 102 => ⟨S10000x256, .f32⟩
  | 103 => ⟨S10000x256, .f32⟩
  | 104 => ⟨S256x1, .f32⟩
  | 105 => ⟨S10000x1, .f32⟩
  | 106 => ⟨S1x1, .f32⟩
  | 107 => ⟨S10000x1, .f32⟩
  | 108 => ⟨S10000x1, .f32⟩
  | 109 => ⟨S256x256, .f32⟩
  | 110 => ⟨S10000x256, .f32⟩
  | 111 => ⟨S1x256, .f32⟩
  | 112 => ⟨S10000x256, .f32⟩
  | 113 => ⟨S10000x256, .f32⟩
  | 114 => ⟨S_, .f32⟩
  | 115 => ⟨S10000x256, .f32⟩
  | 116 => ⟨S10000x256, .f32⟩
  | 117 => ⟨S16384x256, .f32⟩
  | 118 => ⟨S256x16384, .f32⟩
  | 119 => ⟨S10000x16384, .f32⟩
  | 120 => ⟨S10000x64x256, .f32⟩
  | 121 => ⟨S10000x1x256, .f32⟩
  | 122 => ⟨S10000x64x256, .f32⟩
  | 123 => ⟨S10000x64x256, .f32⟩
  | 124 => ⟨S_, .f32⟩
  | 125 => ⟨S10000x64, .f32⟩
  | 126 => ⟨S1x64, .f32⟩
  | 127 => ⟨S10000x64, .f32⟩
  | _ => ⟨S10000x256, .f32⟩

abbrev hbmTy0_1 (i : Nat) : BufTy := match i % 128 with
  | 0 => ⟨S10000x64, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_2 : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_4 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_c_8 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_9 : Ref sig .tc := ⟨.hbm, 67, rfl⟩
abbrev main_v42 : Ref sig .tc := ⟨.hbm, 68, rfl⟩
abbrev main_v43 : Ref sig .tc := ⟨.hbm, 69, rfl⟩
abbrev main_c_10 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_call0_cst : Ref sig .tc := ⟨.hbm, 84, rfl⟩
abbrev main_call0_v0 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_call1_cst : Ref sig .tc := ⟨.hbm, 93, rfl⟩
abbrev main_call1_v0 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_call2_cst : Ref sig .tc := ⟨.hbm, 101, rfl⟩
abbrev main_call2_v0 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_call3_cst : Ref sig .tc := ⟨.hbm, 114, rfl⟩
abbrev main_call3_v0 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_11 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  transposes_S256x256_S256x256_1_0 : S256x256.Transposes [1, 0] S256x256
  bcast_S_S10000 : S_.BroadcastsInDim S10000 (![] : Fin 0 → Fin S10000.rank)
  bcast_S_S160000 : S_.BroadcastsInDim S160000 (![] : Fin 0 → Fin S160000.rank)
  bcast_S160000_S160000x1_0 : S160000.BroadcastsInDim S160000x1 (![0] : Fin 1 → Fin S160000x1.rank)
  bcast_S_S10000x256 : S_.BroadcastsInDim S10000x256 (![] : Fin 0 → Fin S10000x256.rank)
  bcast_S160000x1_S160000x256_0_1 : S160000x1.BroadcastsInDim S160000x256 (![0, 1] : Fin 2 → Fin S160000x256.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  transposes_S1x256_S256x1_1_0 : S1x256.Transposes [1, 0] S256x1
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  shapeCasts_S64x256x256_S16384x256 : S64x256x256.ShapeCasts S16384x256
  transposes_S16384x256_S256x16384_1_0 : S16384x256.Transposes [1, 0] S256x16384
  shapeCasts_S10000x16384_S10000x64x256 : S10000x16384.ShapeCasts S10000x64x256
  bcast_S10000x256_S10000x1x256_0_2 : S10000x256.BroadcastsInDim S10000x1x256 (![0, 2] : Fin 2 → Fin S10000x1x256.rank)
  bcast_S10000x1x256_S10000x64x256_0_1_2 : S10000x1x256.BroadcastsInDim S10000x64x256 (![0, 1, 2] : Fin 3 → Fin S10000x64x256.rank)
  reducesTo_S10000x64x256_S10000x64_d2 : S10000x64x256.ReducesTo [2] S10000x64
  h_S_ : 0 < S_.numel
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  dot_S10000x256_S256x256_S10000x256_1_0_0_1_n_n_wf : DotDims.WF S10000x256 S256x256 S10000x256 [1] [0] [0] [1] [] []
  scatter_S10000_S160000x1_S160000_n_0_0_1_wf : ScatterDims.WF S10000 S160000x1 S160000 [] [0] [0] 1
  gather_S10000_S160000x1_S160000_n_0_n_n_0_1_1_wf : GatherDims.WF S10000 S160000x1 S160000 [] [0] [] [0] [] 1 ![1]
  gather_S10000x256_S160000x1_S160000x256_1_0_n_n_0_1_1256_wf : GatherDims.WF S10000x256 S160000x1 S160000x256 [1] [0] [] [0] [] 1 ![1, 256]
  scatter_S10000x256_S160000x1_S160000x256_1_0_0_1_wf : ScatterDims.WF S10000x256 S160000x1 S160000x256 [1] [0] [0] 1
  dot_S10000x256_S256x1_S10000x1_1_0_0_1_n_n_wf : DotDims.WF S10000x256 S256x1 S10000x1 [1] [0] [0] [1] [] []
  dot_S10000x256_S256x16384_S10000x16384_1_0_0_1_n_n_wf : DotDims.WF S10000x256 S256x16384 S10000x16384 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def gather_S10000_S160000x1_S160000_n_0_n_n_0_1_1 : GatherDims S10000 S160000x1 S160000 where
  offsetDims := []
  collapsedSliceDims := [0]
  operandBatchingDims := []
  startIndicesBatchingDims := []
  startIndexMap := [0]
  indexVectorDim := 1
  sliceSizes := ![1]
  wf := gather_S10000_S160000x1_S160000_n_0_n_n_0_1_1_wf
def gather_S10000x256_S160000x1_S160000x256_1_0_n_n_0_1_1256 : GatherDims S10000x256 S160000x1 S160000x256 where
  offsetDims := [1]
  collapsedSliceDims := [0]
  operandBatchingDims := []
  startIndicesBatchingDims := []
  startIndexMap := [0]
  indexVectorDim := 1
  sliceSizes := ![1, 256]
  wf := gather_S10000x256_S160000x1_S160000x256_1_0_n_n_0_1_1256_wf
def scatter_S10000x256_S160000x1_S160000x256_1_0_0_1 : ScatterDims S10000x256 S160000x1 S160000x256 where
  updateWindowDims := [1]
  insertedWindowDims := [0]
  scatterDimsToOperandDims := [0]
  indexVectorDim := 1
  wf := scatter_S10000x256_S160000x1_S160000x256_1_0_0_1_wf
def dot_S10000x256_S256x1_S10000x1_1_0_0_1_n_n : DotDims S10000x256 S256x1 S10000x1 where
  lhsContracting := [1]
  rhsContracting := [0]
  lhsNonContracting := [0]
  rhsNonContracting := [1]
  lhsBatch := []
  rhsBatch := []
  wf := dot_S10000x256_S256x1_S10000x1_1_0_0_1_n_n_wf
def dot_S10000x256_S256x16384_S10000x16384_1_0_0_1_n_n : DotDims S10000x256 S256x16384 S10000x16384 where
  lhsContracting := [1]
  rhsContracting := [0]
  lhsNonContracting := [0]
  rhsNonContracting := [1]
  lhsBatch := []
  rhsBatch := []
  wf := dot_S10000x256_S256x16384_S10000x16384_1_0_0_1_n_n_wf

class Facts : Prop extends Facts₀ where

variable [Facts]
-- ==== Proof.KRun.lean ====
/-
  The idealized kernel program's run with its two results NAMED: every weakly fair execution of @main terminates,
  nothing faulting, the argument arrays end as launched, and the two result buffers end at the contents the last
  host stretch leaves them (the fold of @main's host stretches and the two pallas_calls' write-backs from the launch
  memory).  The argument is the one that gives the frame: @main is the run of its seven segments, and the final
  thread state holds every unscoped buffer at the last boundary's contents; here two more buffers are read off it.
-/
import proofs.«108546_j24326694764553_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the two results at the last boundary's contents and the arguments as launched. -/
theorem run_results : θ_run defs (onTc (τ := τ) (main (F := F))) ⟨m, fun _ => 0, ρ⟩ (fun r => ∀ c : Dev nD,
      r.2.mem ((c.tc : Thread nD τ).loc main_v61) = W7 m ρ c (Proc.devRef .tc main_v61)
      ∧ r.2.mem ((c.tc : Thread nD τ).loc main_v62) = W7 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v61 (by decide)),
       h c _ (mem_uc main_v62 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c)⟩)

end Cert.KernelIdeal.KRun

end
-- ==== Proof.GlueArgs.lean ====
/-
  The contents of the buffers between the segments of the idealized kernel program's @main, read back to the
  launch memory: an argument buffer is written by no host operation and by no pallas_call, so it holds its launch
  contents at every boundary.
-/
import proofs.«108546_j24326694764553_2_alg».proof.Proof.Gen.KernelIdeal.Frame
import Idealize.ShloMosaic.Lib.StableHlo.Run

set_option maxRecDepth 16384

noncomputable section

namespace Cert.KernelIdeal.Glue

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- Argument 0 at the first pallas_call's exit is as launched. -/
theorem W2_arg0 (c : Dev nD) : W2 m ρ c (Proc.devRef .tc main_arg0) = m ((c : Thread nD τ).loc main_arg0) :=
  calc W2 m ρ c (Proc.devRef .tc main_arg0)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
/-- Argument 0 when the second pallas_call's last host stretch begins is as launched. -/
theorem W4_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := W2_arg0 m ρ c
/-- Argument 1 at the first pallas_call's exit is as launched. -/
theorem W2_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
/-- Argument 1 when the second pallas_call's last host stretch begins is as launched. -/
theorem W4_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := W2_arg1 m ρ c
/-- Argument 2 at the first pallas_call's exit is as launched. -/
theorem W2_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
/-- Argument 2 when the second pallas_call's last host stretch begins is as launched. -/
theorem W4_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_forall_not_mem (b := Proc.devRef .tc main_arg2) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := W2_arg2 m ρ c
/-- Argument 3 at the first pallas_call's exit is as launched. -/
theorem W2_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
/-- Argument 3 when the second pallas_call's last host stretch begins is as launched. -/
theorem W4_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_forall_not_mem (b := Proc.devRef .tc main_arg3) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := W2_arg3 m ρ c
/-- Argument 4 at the first pallas_call's exit is as launched. -/
theorem W2_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
/-- Argument 4 when the second pallas_call's last host stretch begins is as launched. -/
theorem W4_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_forall_not_mem (b := Proc.devRef .tc main_arg4) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := W2_arg4 m ρ c
/-- Argument 5 at the first pallas_call's exit is as launched. -/
theorem W2_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl
/-- Argument 5 when the second pallas_call's last host stretch begins is as launched. -/
theorem W4_arg5 (c : Dev nD) : W4 m ρ c (Proc.devRef .tc main_arg5) = m ((c : Thread nD τ).loc main_arg5) :=
  calc W4 m ρ c (Proc.devRef .tc main_arg5)
    _ = W3 m ρ c (Proc.devRef .tc main_arg5) := StableHlo.after_of_forall_not_mem (b := Proc.devRef .tc main_arg5) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := W2_arg5 m ρ c
/-- Argument 6 at the first pallas_call's exit is as launched. -/
theorem W2_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl
/-- Argument 6 when the second pallas_call's last host stretch begins is as launched. -/
theorem W4_arg6 (c : Dev nD) : W4 m ρ c (Proc.devRef .tc main_arg6) = m ((c : Thread nD τ).loc main_arg6) :=
  calc W4 m ρ c (Proc.devRef .tc main_arg6)
    _ = W3 m ρ c (Proc.devRef .tc main_arg6) := StableHlo.after_of_forall_not_mem (b := Proc.devRef .tc main_arg6) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := W2_arg6 m ρ c
/-- Argument 7 at the first pallas_call's exit is as launched. -/
theorem W2_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl
/-- Argument 7 when the second pallas_call's last host stretch begins is as launched. -/
theorem W4_arg7 (c : Dev nD) : W4 m ρ c (Proc.devRef .tc main_arg7) = m ((c : Thread nD τ).loc main_arg7) :=
  calc W4 m ρ c (Proc.devRef .tc main_arg7)
    _ = W3 m ρ c (Proc.devRef .tc main_arg7) := StableHlo.after_of_forall_not_mem (b := Proc.devRef .tc main_arg7) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := W2_arg7 m ρ c
/-- Argument 8 at the first pallas_call's exit is as launched. -/
theorem W2_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl
/-- Argument 8 when the second pallas_call's last host stretch begins is as launched. -/
theorem W4_arg8 (c : Dev nD) : W4 m ρ c (Proc.devRef .tc main_arg8) = m ((c : Thread nD τ).loc main_arg8) :=
  calc W4 m ρ c (Proc.devRef .tc main_arg8)
    _ = W3 m ρ c (Proc.devRef .tc main_arg8) := StableHlo.after_of_forall_not_mem (b := Proc.devRef .tc main_arg8) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := W2_arg8 m ρ c
/-- Argument 9 at the first pallas_call's exit is as launched. -/
theorem W2_arg9 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl
/-- Argument 9 when the second pallas_call's last host stretch begins is as launched. -/
theorem W4_arg9 (c : Dev nD) : W4 m ρ c (Proc.devRef .tc main_arg9) = m ((c : Thread nD τ).loc main_arg9) :=
  calc W4 m ρ c (Proc.devRef .tc main_arg9)
    _ = W3 m ρ c (Proc.devRef .tc main_arg9) := StableHlo.after_of_forall_not_mem (b := Proc.devRef .tc main_arg9) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := W2_arg9 m ρ c
/-- Argument 10 at the first pallas_call's exit is as launched. -/
theorem W2_arg10 (c : Dev nD) : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl
/-- Argument 10 when the second pallas_call's last host stretch begins is as launched. -/
theorem W4_arg10 (c : Dev nD) : W4 m ρ c (Proc.devRef .tc main_arg10) = m ((c : Thread nD τ).loc main_arg10) :=
  calc W4 m ρ c (Proc.devRef .tc main_arg10)
    _ = W3 m ρ c (Proc.devRef .tc main_arg10) := StableHlo.after_of_forall_not_mem (b := Proc.devRef .tc main_arg10) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := W2_arg10 m ρ c
/-- Argument 11 at the first pallas_call's exit is as launched. -/
theorem W2_arg11 (c : Dev nD) : W2 m ρ c (Proc.devRef .tc main_arg11) = m ((c : Thread nD τ).loc main_arg11) :=
  calc W2 m ρ c (Proc.devRef .tc main_arg11)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl
/-- Argument 11 when the second pallas_call's last host stretch begins is as launched. -/
theorem W4_arg11 (c : Dev nD) : W4 m ρ c (Proc.devRef .tc main_arg11) = m ((c : Thread nD τ).loc main_arg11) :=
  calc W4 m ρ c (Proc.devRef .tc main_arg11)
    _ = W3 m ρ c (Proc.devRef .tc main_arg11) := StableHlo.after_of_forall_not_mem (b := Proc.devRef .tc main_arg11) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := W2_arg11 m ρ c
/-- Argument 12 at the first pallas_call's exit is as launched. -/
theorem W2_arg12 (c : Dev nD) : W2 m ρ c (Proc.devRef .tc main_arg12) = m ((c : Thread nD τ).loc main_arg12) :=
  calc W2 m ρ c (Proc.devRef .tc main_arg12)
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl
/-- Argument 12 when the second pallas_call's last host stretch begins is as launched. -/
theorem W4_arg12 (c : Dev nD) : W4 m ρ c (Proc.devRef .tc main_arg12) = m ((c : Thread nD τ).loc main_arg12) :=
  calc W4 m ρ c (Proc.devRef .tc main_arg12)
    _ = W3 m ρ c (Proc.devRef .tc main_arg12) := StableHlo.after_of_forall_not_mem (b := Proc.devRef .tc main_arg12) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := W2_arg12 m ρ c
/-- Argument 13 at the first pallas_call's exit is as launched. -/
theorem W2_arg13 (c : Dev nD) : W2 m ρ c (Proc.devRef .tc main_arg13) = m ((c : Thread nD τ).loc main_arg13) :=
  calc W2 m ρ c (Proc.devRef .tc main_arg13)
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl
/-- Argument 13 when the second pallas_call's last host stretch begins is as launched. -/
theorem W4_arg13 (c : Dev nD) : W4 m ρ c (Proc.devRef .tc main_arg13) = m ((c : Thread nD τ).loc main_arg13) :=
  calc W4 m ρ c (Proc.devRef .tc main_arg13)
    _ = W3 m ρ c (Proc.devRef .tc main_arg13) := StableHlo.after_of_forall_not_mem (b := Proc.devRef .tc main_arg13) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := W2_arg13 m ρ c

end Cert.KernelIdeal.Glue

end
-- ==== Proof.Glue2.lean ====
/-
  What the second pallas_call finds in its weight and bias windows, and what the two results are: each weight window
  holds the transposed argument (a change of float format in between, the identity on extended reals), each bias
  window the argument reshaped to a row, and the results are the two column ranges of the packed output array.
-/
import proofs.«108546_j24326694764553_2_alg».proof.Proof.GlueArgs

set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

set_option maxHeartbeats 4000000 in
/-- The first pallas_call's weight window: the transposed convolution weight. -/
theorem V1_v1 (c : Dev nD) : V1 m ρ c main_v1 = truncf .bf16 (transpose S256x256 [1, 0] (m ((c : Thread nD τ).loc main_arg2)) transposes_S256x256_S256x256_1_0) bitsLt_bf16_f32 := by
  show StableHlo.after hostOps0 (W0 m ρ c) (Proc.devRef .tc main_v1) = _
  after_results_simp
  all_goals rfl

/-- The first pallas_call's rows window: the argument x. -/
theorem V1_arg0 (c : Dev nD) : V1 m ρ c main_arg0 = m ((c : Thread nD τ).loc main_arg0) :=
  StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

set_option maxHeartbeats 4000000 in
theorem V5_v45 (c : Dev nD) : V5 m ρ c main_v45 = truncf .bf16 (transpose S256x256 [1, 0] (m ((c : Thread nD τ).loc main_arg4)) transposes_S256x256_S256x256_1_0) bitsLt_bf16_f32 := by
  show StableHlo.after hostOps1_2 (W4 m ρ c) (Proc.devRef .tc main_v45) = _
  after_results_simp
  all_goals (try rw [W4_arg4])
  all_goals rfl

set_option maxHeartbeats 4000000 in
theorem V5_v47 (c : Dev nD) : V5 m ρ c main_v47 = truncf .bf16 (transpose S256x256 [1, 0] (m ((c : Thread nD τ).loc main_arg6)) transposes_S256x256_S256x256_1_0) bitsLt_bf16_f32 := by
  show StableHlo.after hostOps1_2 (W4 m ρ c) (Proc.devRef .tc main_v47) = _
  after_results_simp
  all_goals (try rw [W4_arg6])
  all_goals rfl

set_option maxHeartbeats 4000000 in
theorem V5_v49 (c : Dev nD) : V5 m ρ c main_v49 = truncf .bf16 (transpose S256x1 [1, 0] (m ((c : Thread nD τ).loc main_arg8)) transposes_S1x256_S256x1_1_0) bitsLt_bf16_f32 := by
  show StableHlo.after hostOps1_2 (W4 m ρ c) (Proc.devRef .tc main_v49) = _
  after_results_simp
  all_goals (try rw [W4_arg8])
  all_goals rfl

set_option maxHeartbeats 4000000 in
theorem V5_v51 (c : Dev nD) : V5 m ρ c main_v51 = truncf .bf16 (transpose S256x256 [1, 0] (m ((c : Thread nD τ).loc main_arg10)) transposes_S256x256_S256x256_1_0) bitsLt_bf16_f32 := by
  show StableHlo.after hostOps1_2 (W4 m ρ c) (Proc.devRef .tc main_v51) = _
  after_results_simp
  all_goals (try rw [W4_arg10])
  all_goals rfl

set_option maxHeartbeats 4000000 in
theorem V5_v54 (c : Dev nD) : V5 m ρ c main_v54 = truncf .bf16 (transpose S256x16384 [1, 0] (shapeCast S16384x256 (m ((c : Thread nD τ).loc main_arg12)) shapeCasts_S64x256x256_S16384x256) transposes_S16384x256_S256x16384_1_0) bitsLt_bf16_f32 := by
  show StableHlo.after hostOps1_2 (W4 m ρ c) (Proc.devRef .tc main_v54) = _
  after_results_simp
  all_goals (try rw [W4_arg12])
  all_goals rfl

set_option maxHeartbeats 4000000 in
theorem V5_v55 (c : Dev nD) : V5 m ρ c main_v55 = shapeCast S1x256 (m ((c : Thread nD τ).loc main_arg5)) shapeCasts_S256_S1x256 := by
  show StableHlo.after hostOps1_2 (W4 m ρ c) (Proc.devRef .tc main_v55) = _
  after_results_simp
  all_goals (try rw [W4_arg5])
  all_goals rfl

set_option maxHeartbeats 4000000 in
theorem V5_v56 (c : Dev nD) : V5 m ρ c main_v56 = shapeCast S1x256 (m ((c : Thread nD τ).loc main_arg7)) shapeCasts_S256_S1x256 := by
  show StableHlo.after hostOps1_2 (W4 m ρ c) (Proc.devRef .tc main_v56) = _
  after_results_simp
  all_goals (try rw [W4_arg7])
  all_goals rfl

set_option maxHeartbeats 4000000 in
theorem V5_v57 (c : Dev nD) : V5 m ρ c main_v57 = shapeCast S1x1 (m ((c : Thread nD τ).loc main_arg9)) shapeCasts_S1_S1x1 := by
  show StableHlo.after hostOps1_2 (W4 m ρ c) (Proc.devRef .tc main_v57) = _
  after_results_simp
  all_goals (try rw [W4_arg9])
  all_goals rfl

set_option maxHeartbeats 4000000 in
theorem V5_v58 (c : Dev nD) : V5 m ρ c main_v58 = shapeCast S1x256 (m ((c : Thread nD τ).loc main_arg11)) shapeCasts_S256_S1x256 := by
  show StableHlo.after hostOps1_2 (W4 m ρ c) (Proc.devRef .tc main_v58) = _
  after_results_simp
  all_goals (try rw [W4_arg11])
  all_goals rfl

set_option maxHeartbeats 4000000 in
theorem V5_v59 (c : Dev nD) : V5 m ρ c main_v59 = shapeCast S1x64 (m ((c : Thread nD τ).loc main_arg13)) shapeCasts_S64_S1x64 := by
  show StableHlo.after hostOps1_2 (W4 m ρ c) (Proc.devRef .tc main_v59) = _
  after_results_simp
  all_goals (try rw [W4_arg13])
  all_goals rfl

set_option maxHeartbeats 4000000 in
/-- The first result: column 0 of the packed output array. -/
theorem W7_v61 (c : Dev nD) : W7 m ρ c (Proc.devRef .tc main_v61) = extractStridedSlice S10000x1 ![0, 0] (W6 m ρ c (Proc.devRef .tc main_v60)) slices_S10000x128_S10000x1_0_0 := by
  show StableHlo.after hostOps2 (W6 m ρ c) (Proc.devRef .tc main_v61) = _
  after_results_simp
  all_goals rfl

set_option maxHeartbeats 4000000 in
/-- The second result: columns 64..127 of the packed output array. -/
theorem W7_v62 (c : Dev nD) : W7 m ρ c (Proc.devRef .tc main_v62) = extractStridedSlice S10000x64 ![0, 64] (W6 m ρ c (Proc.devRef .tc main_v60)) slices_S10000x128_S10000x64_0_64 := by
  show StableHlo.after hostOps2 (W6 m ρ c) (Proc.devRef .tc main_v62) = _
  after_results_simp
  all_goals rfl

end Cert.KernelIdeal.Glue

end
-- ==== Proof.Spec.lean ====
/-
  The mathematics both programs compute after the graph-convolution stage, written once as plain functions of
  extended-real arrays over literal extents: a matrix product, "add a row vector and take the positive part",
  the three dense layers, the scalar head and the bilinear head  out[n, r] = sum_j (sum_k h[n,k] * W[k, 256 r + j]) * h[n,j].
  No program is imported here; each side of the certificate proves that what it computes is one of these functions.
-/
import Idealize.ShloMosaic.PureOps.Ideal
import Idealize.ShloMosaic.Lib.ValueIdx

noncomputable section

open scoped BigOperators

namespace Cert.Spec

open Idealize.ShloMosaic Idealize.ShloMosaic.ValueIdx

/-- Extended-real arrays of rank one, two and three over literal extents. -/
abbrev A1 (n : Nat) : Type := (⟨1, ![n]⟩ : Shape).Idx → EReal
abbrev A2 (n m : Nat) : Type := (⟨2, ![n, m]⟩ : Shape).Idx → EReal
abbrev A3 (a b c : Nat) : Type := (⟨3, ![a, b, c]⟩ : Shape).Idx → EReal

/-- The matrix product: entry (a, c) is the sum over j of x[a, j] * w[j, c]. -/
def mm {n k m : Nat} (x : A2 n k) (w : A2 k m) : A2 n m :=
  fun i => ∑ j : Fin k, x (ix2 (i 0) j) * w (ix2 j (i 1))

/-- Add the row vector b (a [1, m] array) to every row of y, then take the positive part. -/
def reluRow {n m : Nat} (y : A2 n m) (b : A2 1 m) : A2 n m :=
  fun i => max (y i + b (ix2 0 (i 1))) 0

/-- First hidden layer: positive part of x0 · w1 + b1. -/
def hid1 {n : Nat} (x0 : A2 n 256) (w1 : A2 256 256) (b1 : A2 1 256) : A2 n 256 :=
  reluRow (mm x0 w1) b1

/-- Second hidden layer, on top of the first. -/
def hid2 {n : Nat} (x0 : A2 n 256) (w1 : A2 256 256) (b1 : A2 1 256) (w2 : A2 256 256) (b2 : A2 1 256) : A2 n 256 :=
  reluRow (mm (hid1 x0 w1 b1) w2) b2

/-- The scalar head: second hidden layer times the column w3, plus the scalar b3. -/
def head1 {n : Nat} (x0 : A2 n 256) (w1 : A2 256 256) (b1 : A2 1 256) (w2 : A2 256 256) (b2 : A2 1 256)
    (w3 : A2 256 1) (b3 : A2 1 1) : A2 n 1 :=
  fun i => mm (hid2 x0 w1 b1 w2 b2) w3 i + b3 (ix2 0 0)

/-- Third hidden layer, on top of the FIRST. -/
def hid3 {n : Nat} (x0 : A2 n 256) (w1 : A2 256 256) (b1 : A2 1 256) (w4 : A2 256 256) (b4 : A2 1 256) : A2 n 256 :=
  reluRow (mm (hid1 x0 w1 b1) w4) b4

/-- The bilinear form of row p of h against the r-th 256-column slab of W: sum_j (sum_k h[p,k] W[k, 256 r + j]) h[p,j]. -/
def bilin {n : Nat} (h : A2 n 256) (W : A2 256 16384) (r : Fin 64) (p : Fin n) : EReal :=
  ∑ j : Fin 256, (∑ k : Fin 256, h (ix2 p k) * W (ix2 k ⟨256 * r.val + j.val, by omega⟩)) * h (ix2 p j)

/-- The bilinear head: the bilinear form of the third hidden layer plus the bias bb[r]. -/
def head2 {n : Nat} (x0 : A2 n 256) (w1 : A2 256 256) (b1 : A2 1 256) (w4 : A2 256 256) (b4 : A2 1 256)
    (W : A2 256 16384) (bb : A2 1 64) : A2 n 64 :=
  fun i => bilin (hid3 x0 w1 b1 w4 b4) W (i 1) (i 0) + bb (ix2 0 (i 1))

/-- The packed [n, 128] array: column 0 the scalar head, columns 1..63 zero, columns 64..127 the bilinear head. -/
def packed {n : Nat} (x0 : A2 n 256) (w1 : A2 256 256) (b1 : A2 1 256) (w2 : A2 256 256) (b2 : A2 1 256)
    (w3 : A2 256 1) (b3 : A2 1 1) (w4 : A2 256 256) (b4 : A2 1 256) (W : A2 256 16384) (bb : A2 1 64) : A2 n 128 :=
  fun i =>
    if (i 1).val = 0 then head1 x0 w1 b1 w2 b2 w3 b3 (ix2 (i 0) 0)
    else if h : (i 1).val < 64 then 0
    else head2 x0 w1 b1 w4 b4 W bb (ix2 (i 0) ⟨(i 1).val - 64, by have := idx2_lt1 i; omega⟩)

end Cert.Spec

end
-- ==== Proof.Reg0.lean ====
/-
  The first pallas_call (five grid points, 2000 rows each): its output array after the run is the matrix product of
  the two arrays it reads, index by index — entry (n, c) is the sum over k of x[n, k] * w[k, c].  A block of the
  output is the product of the same rows of x with the whole of w; the five blocks tile the array.
-/
import proofs.«108546_j24326694764553_2_alg».proof.Proof.Gen.KernelIdeal.Frame
import proofs.«108546_j24326694764553_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Reg0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem lhs_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhs_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The body's product of a [2000,256] block with the [256,256] weight, at an index: the sum over the contracted axis. -/
theorem pay_apply (x0 : Vec Ideal S2000x256 .f32) (x1 : Vec Ideal S256x256 .bf16) (i : S2000x256.Idx) :
    k0_pay1 (F := Ideal) x0 x1 i = ∑ k : Fin 256, x0 (ix2 (i 0) k) * x1 (ix2 k (i 1)) := by
  unfold k0_pay1
  simp only [matmul]
  rw [Ideal.matmul_constant_zero_apply,
    ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx i
      ((contrEquiv1 dot_S2000x256_S256x256_S2000x256_1_0_0_1_n_n 256 rfl rfl).symm k) = ix2 (i 0) k :=
    funext fun a => Fin.ext (by
      match a with
      | ⟨0, _⟩ => exact lhs_0 _ _
      | ⟨1, _⟩ => exact (lhs_1 _ _).trans hk)
  have er : dot_S2000x256_S256x256_S2000x256_1_0_0_1_n_n.rhsIdx i
      ((contrEquiv1 dot_S2000x256_S256x256_S2000x256_1_0_0_1_n_n 256 rfl rfl).symm k) = ix2 k (i 1) :=
    funext fun a => Fin.ext (by
      match a with
      | ⟨0, _⟩ => exact (rhs_0 _ _).trans hk
      | ⟨1, _⟩ => exact rhs_1 _ _)
  rw [el, er, shapeCast_self]
  rfl

/-- The relations between the printed index maps, decided over the grid: the row window moves with the output's, the
    weight window stays at block (0, 0). -/
theorem idx_facts : ∀ t : Fin cfg0.N, win0_0.index t (0 : Fin 2) = win0_2.index t (0 : Fin 2)
    ∧ win0_0.index t (1 : Fin 2) = 0 ∧ win0_2.index t (1 : Fin 2) = 0
    ∧ win0_1.index t (0 : Fin 2) = 0 ∧ win0_1.index t (1 : Fin 2) = 0
    ∧ win0_2.index t (0 : Fin 2) = t.val :=
  (by decide +kernel : ∀ t : Fin grid0.N, _)

/-- What point t writes back is block t of the matrix product of the two arrays the region finds. -/
theorem flushed_eq (c : Dev nD) (t : Fin cfg0.N) :
    (dat0 V c).flushed 2 t = ((cfg0.win 2).blk t).view.read (Elt Ideal)
      (Cert.Spec.mm (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S2000x256) hz, View.ld_unit_zero (S := S256x256) hz]
  obtain ⟨e0, e1, e2, e3, e4, e5⟩ := idx_facts t
  funext j
  show k0_pay1 (F := Ideal) (iblk0 V c 0 t) (iblk0 V c 1 t) j = Cert.Spec.mm _ _ (((cfg0.win 2).blk t).view.emb j)
  rw [pay_apply]
  unfold Cert.Spec.mm
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 256 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 256 + 1 * k.val = k.val; omega
    | ⟨1, _⟩ => show win0_1.index t (1 : Fin 2) * 256 + 1 * (j 1).val = win0_2.index t (1 : Fin 2) * 256 + 1 * (j 1).val; omega
  exact congrArg₂ (fun a b : EReal => a * b) (congrArg (V c (Pipeline.arrRef spec0 0)) h0) (congrArg (V c (Pipeline.arrRef spec0 1)) h1)

/-- An index of the array is in point t's block iff each coordinate is in the block's range on its axis. -/
theorem mem_blk (t : Fin cfg0.N) (i : S10000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v2).slice (win0_2.rect t)).set ↔ _
  rw [View.set_slice_whole, Rect.mem_set_unit]
  exact Iff.rfl

/-- Every index of the output array is in the block of the point that holds its row: row r is in block r / 2000. -/
theorem cover (i : S10000x256.Idx) : ∃ t : Fin cfg0.N, (cfg0.win 2).flush t = true ∧ i ∈ ((cfg0.win 2).blk t).view.set := by
  have hi0 : (i 0).val < 10000 := (i 0).isLt
  have hi1 : (i 1).val < 256 := (i 1).isLt
  have hN : grid0.N = 5 := N_0
  let t : Fin cfg0.N := ⟨(i 0).val / 2000, by show (i 0).val / 2000 < grid0.N; rw [hN]; omega⟩
  refine ⟨t, flush0_2 t, ?_⟩
  rw [mem_blk]
  obtain ⟨e0, e1, e2, e3, e4, e5⟩ := idx_facts t
  have e5' : win0_2.index t (0 : Fin 2) = (i 0).val / 2000 := e5
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- The output array after the region: the matrix product of the two arrays it reads. -/
theorem final (c : Dev nD) :
    (dat0 V c).arrAt 2 cfg0.N = Cert.Spec.mm (V c (Pipeline.arrRef spec0 0)) (V c (Pipeline.arrRef spec0 1)) :=
  (dat0 V c).arrAt_eq_of_cover 2 _ (fun t _ => flushed_eq V c t) cover

end Cert.KernelIdeal.Reg0

end
-- ==== Proof.SpecRows.lean ====
/-
  Row locality of the specification: every function of Spec.lean computes row p of its result from row p of its
  first argument alone.  So if row p of one array is row r of another, the results agree on those rows — which is how
  a block of rows of the big array stands for the same rows of the whole.
-/
import proofs.«108546_j24326694764553_2_alg».proof.Proof.Spec

noncomputable section

open scoped BigOperators

namespace Cert.Spec

open Idealize.ShloMosaic Idealize.ShloMosaic.ValueIdx

variable {n n' : Nat}

theorem mm_row {k m : Nat} (x' : A2 n' k) (x : A2 n k) (w : A2 k m) (p : Fin n') (r : Fin n)
    (h : ∀ j, x' (ix2 p j) = x (ix2 r j)) (c : Fin m) : mm x' w (ix2 p c) = mm x w (ix2 r c) := by
  unfold mm
  exact Finset.sum_congr rfl fun j _ => by rw [show (ix2 p c) 0 = p from rfl, show (ix2 r c) 0 = r from rfl, h j]; rfl

theorem reluRow_row {m : Nat} (y' : A2 n' m) (y : A2 n m) (b : A2 1 m) (p : Fin n') (r : Fin n) (c : Fin m)
    (h : y' (ix2 p c) = y (ix2 r c)) : reluRow y' b (ix2 p c) = reluRow y b (ix2 r c) := by
  unfold reluRow
  rw [h]; rfl

theorem hid1_row (x' : A2 n' 256) (x : A2 n 256) (w1 : A2 256 256) (b1 : A2 1 256) (p : Fin n') (r : Fin n)
    (h : ∀ j, x' (ix2 p j) = x (ix2 r j)) (c : Fin 256) : hid1 x' w1 b1 (ix2 p c) = hid1 x w1 b1 (ix2 r c) :=
  reluRow_row _ _ _ _ _ _ (mm_row x' x w1 p r h c)

theorem hid2_row (x' : A2 n' 256) (x : A2 n 256) (w1 : A2 256 256) (b1 : A2 1 256) (w2 : A2 256 256) (b2 : A2 1 256)
    (p : Fin n') (r : Fin n) (h : ∀ j, x' (ix2 p j) = x (ix2 r j)) (c : Fin 256) :
    hid2 x' w1 b1 w2 b2 (ix2 p c) = hid2 x w1 b1 w2 b2 (ix2 r c) :=
  reluRow_row _ _ _ _ _ _ (mm_row _ _ w2 p r (fun j => hid1_row x' x w1 b1 p r h j) c)

theorem hid3_row (x' : A2 n' 256) (x : A2 n 256) (w1 : A2 256 256) (b1 : A2 1 256) (w4 : A2 256 256) (b4 : A2 1 256)
    (p : Fin n') (r : Fin n) (h : ∀ j, x' (ix2 p j) = x (ix2 r j)) (c : Fin 256) :
    hid3 x' w1 b1 w4 b4 (ix2 p c) = hid3 x w1 b1 w4 b4 (ix2 r c) :=
  reluRow_row _ _ _ _ _ _ (mm_row _ _ w4 p r (fun j => hid1_row x' x w1 b1 p r h j) c)

theorem head1_row (x' : A2 n' 256) (x : A2 n 256) (w1 : A2 256 256) (b1 : A2 1 256) (w2 : A2 256 256) (b2 : A2 1 256)
    (w3 : A2 256 1) (b3 : A2 1 1) (p : Fin n') (r : Fin n) (h : ∀ j, x' (ix2 p j) = x (ix2 r j)) (c : Fin 1) :
    head1 x' w1 b1 w2 b2 w3 b3 (ix2 p c) = head1 x w1 b1 w2 b2 w3 b3 (ix2 r c) := by
  unfold head1
  rw [mm_row _ _ w3 p r (fun j => hid2_row x' x w1 b1 w2 b2 p r h j) c]

theorem bilin_row (h' : A2 n' 256) (h : A2 n 256) (W : A2 256 16384) (s : Fin 64) (p : Fin n') (r : Fin n)
    (e : ∀ j, h' (ix2 p j) = h (ix2 r j)) : bilin h' W s p = bilin h W s r := by
  unfold bilin
  refine Finset.sum_congr rfl fun j _ => ?_
  rw [e j]
  congr 1
  exact Finset.sum_congr rfl fun k _ => by rw [e k]

theorem head2_row (x' : A2 n' 256) (x : A2 n 256) (w1 : A2 256 256) (b1 : A2 1 256) (w4 : A2 256 256) (b4 : A2 1 256)
    (W : A2 256 16384) (bb : A2 1 64) (p : Fin n') (r : Fin n) (h : ∀ j, x' (ix2 p j) = x (ix2 r j)) (s : Fin 64) :
    head2 x' w1 b1 w4 b4 W bb (ix2 p s) = head2 x w1 b1 w4 b4 W bb (ix2 r s) := by
  unfold head2
  show bilin _ W s p + _ = bilin _ W s r + _
  rw [bilin_row _ _ W s p r (fun j => hid3_row x' x w1 b1 w4 b4 p r h j)]
  rfl

theorem packed_row (x' : A2 n' 256) (x : A2 n 256) (w1 : A2 256 256) (b1 : A2 1 256) (w2 : A2 256 256) (b2 : A2 1 256)
    (w3 : A2 256 1) (b3 : A2 1 1) (w4 : A2 256 256) (b4 : A2 1 256) (W : A2 256 16384) (bb : A2 1 64)
    (p : Fin n') (r : Fin n) (h : ∀ j, x' (ix2 p j) = x (ix2 r j)) (q : Fin 128) :
    packed x' w1 b1 w2 b2 w3 b3 w4 b4 W bb (ix2 p q) = packed x w1 b1 w2 b2 w3 b3 w4 b4 W bb (ix2 r q) := by
  unfold packed
  show (if q.val = 0 then _ else if hq : q.val < 64 then _ else _) = (if q.val = 0 then _ else if hq : q.val < 64 then _ else _)
  by_cases h0 : q.val = 0
  · rw [if_pos h0, if_pos h0]
    exact head1_row x' x w1 b1 w2 b2 w3 b3 p r h 0
  · rw [if_neg h0, if_neg h0]
    by_cases h1 : q.val < 64
    · rw [dif_pos h1, dif_pos h1]
    · rw [dif_neg h1, dif_neg h1]
      exact head2_row x' x w1 b1 w4 b4 W bb p r h _

end Cert.Spec

end
-- ==== Proof.Reg1.lean ====
/-
  The second pallas_call (ten grid points, 1000 rows each): its [10000,128] output array after the run is the packed
  array of the specification — column 0 the scalar head, columns 64..127 the bilinear head — of the eleven arrays it
  reads.  The weights and biases are each one block, read whole at every point; the rows window and the output window
  move together, point t holding rows 1000 t .. 1000 t + 999; every function of the specification computes a row of
  its result from the same row of its first argument, so a block of the output is the same rows of the whole.
  What the body leaves in the output block is taken as a hypothesis here (hbody) and supplied where the pieces are joined.
-/
import proofs.«108546_j24326694764553_2_alg».proof.Proof.Gen.KernelIdeal.Frame
import proofs.«108546_j24326694764553_2_alg».proof.Proof.SpecRows
import Idealize.ShloMosaic.Lib.Pipeline.Value
import Idealize.ShloMosaic.Lib.ValueIdx

set_option maxRecDepth 16384

noncomputable section

open scoped BigOperators

namespace Cert.KernelIdeal.Reg1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- What the body leaves in the output block, as a function of the eleven input blocks: the packed array of the
    specification over 1000 rows. -/
def BodyIs : Prop :=
  ∀ (x0 : Vec Ideal S1000x256 .f32) (x1 : Vec Ideal S256x256 .bf16) (x2 : Vec Ideal S1x256 .f32) (x3 : Vec Ideal S256x256 .bf16)
    (x4 : Vec Ideal S1x256 .f32) (x5 : Vec Ideal S256x1 .bf16) (x6 : Vec Ideal S1x1 .f32) (x7 : Vec Ideal S256x256 .bf16)
    (x8 : Vec Ideal S1x256 .f32) (x9 : Vec Ideal S256x16384 .bf16) (x10 : Vec Ideal S1x64 .f32),
    out1_11 (F := Ideal) x0 x1 x2 x3 x4 x5 x6 x7 x8 x9 x10 = Cert.Spec.packed x0 x1 x2 x3 x4 x5 x6 x7 x8 x9 x10

/-- The printed index maps of the ten whole-array windows, decided over the grid: always block (0, 0). -/
theorem idx_whole : ∀ t : Fin cfg1.N, (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0) :=
  (by decide +kernel : ∀ t : Fin grid1.N, _)

/-- The rows window and the output window: point t is block row t, block column 0. -/
theorem idx_rows : ∀ t : Fin cfg1.N, win1_0.index t (0 : Fin 2) = t.val ∧ win1_0.index t (1 : Fin 2) = 0
    ∧ win1_11.index t (0 : Fin 2) = t.val ∧ win1_11.index t (1 : Fin 2) = 0 :=
  (by decide +kernel : ∀ t : Fin grid1.N, _)

/-- Window 1 is one block, the whole of its array: its block at every point is the array. -/
theorem blk_whole1 (c : Dev nD) (t : Fin cfg1.N) : (iblk1 V c 1 t : S256x256.Idx → EReal) = V c (Pipeline.arrRef spec1 1) := by
  have f := (idx_whole t).1
  funext y
  show V c (Pipeline.arrRef spec1 1) (((cfg1.win 1).blk t).view.emb y) = V c (Pipeline.arrRef spec1 1) y
  refine congrArg (V c (Pipeline.arrRef spec1 1)) (funext fun a => Fin.ext ?_)
  obtain ⟨f0, f1⟩ := f
  match a with
  | ⟨0, _⟩ => show win1_1.index t (0 : Fin 2) * 256 + 1 * (y 0).val = (y 0).val; omega
  | ⟨1, _⟩ => show win1_1.index t (1 : Fin 2) * 256 + 1 * (y 1).val = (y 1).val; omega
/-- Window 2 is one block, the whole of its array: its block at every point is the array. -/
theorem blk_whole2 (c : Dev nD) (t : Fin cfg1.N) : (iblk1 V c 2 t : S1x256.Idx → EReal) = V c (Pipeline.arrRef spec1 2) := by
  have f := (idx_whole t).2.1
  funext y
  show V c (Pipeline.arrRef spec1 2) (((cfg1.win 2).blk t).view.emb y) = V c (Pipeline.arrRef spec1 2) y
  refine congrArg (V c (Pipeline.arrRef spec1 2)) (funext fun a => Fin.ext ?_)
  obtain ⟨f0, f1⟩ := f
  match a with
  | ⟨0, _⟩ => show win1_2.index t (0 : Fin 2) * 1 + 1 * (y 0).val = (y 0).val; omega
  | ⟨1, _⟩ => show win1_2.index t (1 : Fin 2) * 256 + 1 * (y 1).val = (y 1).val; omega
/-- Window 3 is one block, the whole of its array: its block at every point is the array. -/
theorem blk_whole3 (c : Dev nD) (t : Fin cfg1.N) : (iblk1 V c 3 t : S256x256.Idx → EReal) = V c (Pipeline.arrRef spec1 3) := by
  have f := (idx_whole t).2.2.1
  funext y
  show V c (Pipeline.arrRef spec1 3) (((cfg1.win 3).blk t).view.emb y) = V c (Pipeline.arrRef spec1 3) y
  refine congrArg (V c (Pipeline.arrRef spec1 3)) (funext fun a => Fin.ext ?_)
  obtain ⟨f0, f1⟩ := f
  match a with
  | ⟨0, _⟩ => show win1_3.index t (0 : Fin 2) * 256 + 1 * (y 0).val = (y 0).val; omega
  | ⟨1, _⟩ => show win1_3.index t (1 : Fin 2) * 256 + 1 * (y 1).val = (y 1).val; omega
/-- Window 4 is one block, the whole of its array: its block at every point is the array. -/
theorem blk_whole4 (c : Dev nD) (t : Fin cfg1.N) : (iblk1 V c 4 t : S1x256.Idx → EReal) = V c (Pipeline.arrRef spec1 4) := by
  have f := (idx_whole t).2.2.2.1
  funext y
  show V c (Pipeline.arrRef spec1 4) (((cfg1.win 4).blk t).view.emb y) = V c (Pipeline.arrRef spec1 4) y
  refine congrArg (V c (Pipeline.arrRef spec1 4)) (funext fun a => Fin.ext ?_)
  obtain ⟨f0, f1⟩ := f
  match a with
  | ⟨0, _⟩ => show win1_4.index t (0 : Fin 2) * 1 + 1 * (y 0).val = (y 0).val; omega
  | ⟨1, _⟩ => show win1_4.index t (1 : Fin 2) * 256 + 1 * (y 1).val = (y 1).val; omega
/-- Window 5 is one block, the whole of its array: its block at every point is the array. -/
theorem blk_whole5 (c : Dev nD) (t : Fin cfg1.N) : (iblk1 V c 5 t : S256x1.Idx → EReal) = V c (Pipeline.arrRef spec1 5) := by
  have f := (idx_whole t).2.2.2.2.1
  funext y
  show V c (Pipeline.arrRef spec1 5) (((cfg1.win 5).blk t).view.emb y) = V c (Pipeline.arrRef spec1 5) y
  refine congrArg (V c (Pipeline.arrRef spec1 5)) (funext fun a => Fin.ext ?_)
  obtain ⟨f0, f1⟩ := f
  match a with
  | ⟨0, _⟩ => show win1_5.index t (0 : Fin 2) * 256 + 1 * (y 0).val = (y 0).val; omega
  | ⟨1, _⟩ => show win1_5.index t (1 : Fin 2) * 1 + 1 * (y 1).val = (y 1).val; omega
/-- Window 6 is one block, the whole of its array: its block at every point is the array. -/
theorem blk_whole6 (c : Dev nD) (t : Fin cfg1.N) : (iblk1 V c 6 t : S1x1.Idx → EReal) = V c (Pipeline.arrRef spec1 6) := by
  have f := (idx_whole t).2.2.2.2.2.1
  funext y
  show V c (Pipeline.arrRef spec1 6) (((cfg1.win 6).blk t).view.emb y) = V c (Pipeline.arrRef spec1 6) y
  refine congrArg (V c (Pipeline.arrRef spec1 6)) (funext fun a => Fin.ext ?_)
  obtain ⟨f0, f1⟩ := f
  match a with
  | ⟨0, _⟩ => show win1_6.index t (0 : Fin 2) * 1 + 1 * (y 0).val = (y 0).val; omega
  | ⟨1, _⟩ => show win1_6.index t (1 : Fin 2) * 1 + 1 * (y 1).val = (y 1).val; omega
/-- Window 7 is one block, the whole of its array: its block at every point is the array. -/
theorem blk_whole7 (c : Dev nD) (t : Fin cfg1.N) : (iblk1 V c 7 t : S256x256.Idx → EReal) = V c (Pipeline.arrRef spec1 7) := by
  have f := (idx_whole t).2.2.2.2.2.2.1
  funext y
  show V c (Pipeline.arrRef spec1 7) (((cfg1.win 7).blk t).view.emb y) = V c (Pipeline.arrRef spec1 7) y
  refine congrArg (V c (Pipeline.arrRef spec1 7)) (funext fun a => Fin.ext ?_)
  obtain ⟨f0, f1⟩ := f
  match a with
  | ⟨0, _⟩ => show win1_7.index t (0 : Fin 2) * 256 + 1 * (y 0).val = (y 0).val; omega
  | ⟨1, _⟩ => show win1_7.index t (1 : Fin 2) * 256 + 1 * (y 1).val = (y 1).val; omega
/-- Window 8 is one block, the whole of its array: its block at every point is the array. -/
theorem blk_whole8 (c : Dev nD) (t : Fin cfg1.N) : (iblk1 V c 8 t : S1x256.Idx → EReal) = V c (Pipeline.arrRef spec1 8) := by
  have f := (idx_whole t).2.2.2.2.2.2.2.1
  funext y
  show V c (Pipeline.arrRef spec1 8) (((cfg1.win 8).blk t).view.emb y) = V c (Pipeline.arrRef spec1 8) y
  refine congrArg (V c (Pipeline.arrRef spec1 8)) (funext fun a => Fin.ext ?_)
  obtain ⟨f0, f1⟩ := f
  match a with
  | ⟨0, _⟩ => show win1_8.index t (0 : Fin 2) * 1 + 1 * (y 0).val = (y 0).val; omega
  | ⟨1, _⟩ => show win1_8.index t (1 : Fin 2) * 256 + 1 * (y 1).val = (y 1).val; omega
/-- Window 9 is one block, the whole of its array: its block at every point is the array. -/
theorem blk_whole9 (c : Dev nD) (t : Fin cfg1.N) : (iblk1 V c 9 t : S256x16384.Idx → EReal) = V c (Pipeline.arrRef spec1 9) := by
  have f := (idx_whole t).2.2.2.2.2.2.2.2.1
  funext y
  show V c (Pipeline.arrRef spec1 9) (((cfg1.win 9).blk t).view.emb y) = V c (Pipeline.arrRef spec1 9) y
  refine congrArg (V c (Pipeline.arrRef spec1 9)) (funext fun a => Fin.ext ?_)
  obtain ⟨f0, f1⟩ := f
  match a with
  | ⟨0, _⟩ => show win1_9.index t (0 : Fin 2) * 256 + 1 * (y 0).val = (y 0).val; omega
  | ⟨1, _⟩ => show win1_9.index t (1 : Fin 2) * 16384 + 1 * (y 1).val = (y 1).val; omega
/-- Window 10 is one block, the whole of its array: its block at every point is the array. -/
theorem blk_whole10 (c : Dev nD) (t : Fin cfg1.N) : (iblk1 V c 10 t : S1x64.Idx → EReal) = V c (Pipeline.arrRef spec1 10) := by
  have f := (idx_whole t).2.2.2.2.2.2.2.2.2
  funext y
  show V c (Pipeline.arrRef spec1 10) (((cfg1.win 10).blk t).view.emb y) = V c (Pipeline.arrRef spec1 10) y
  refine congrArg (V c (Pipeline.arrRef spec1 10)) (funext fun a => Fin.ext ?_)
  obtain ⟨f0, f1⟩ := f
  match a with
  | ⟨0, _⟩ => show win1_10.index t (0 : Fin 2) * 1 + 1 * (y 0).val = (y 0).val; omega
  | ⟨1, _⟩ => show win1_10.index t (1 : Fin 2) * 64 + 1 * (y 1).val = (y 1).val; omega

set_option maxHeartbeats 4000000 in
/-- What point t writes back is block t of the packed array of the eleven arrays the region finds. -/
theorem flushed_eq (hbody : BodyIs) (c : Dev nD) (t : Fin cfg1.N) :
    (dat1 V c).flushed 11 t = ((cfg1.win 11).blk t).view.read (Elt Ideal)
      (Cert.Spec.packed (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)) (V c (Pipeline.arrRef spec1 10))) := by
  show (cfg1.win 11).cut (grid1.coords t) ((dat1 V c).after 11 t) = _
  rw [after1_11, hbody]
  obtain ⟨r0, r1, r2, r3⟩ := idx_rows t
  funext j
  obtain ⟨p, q, rfl⟩ : ∃ (p : Fin 1000) (q : Fin 128), j = ix2 p q := ⟨j 0, j 1, eq_ix2 j⟩
  have hN : grid1.N = 10 := N_1
  have ht : t.val < 10 := by have := t.isLt; show t.val < 10; rw [← hN]; exact this
  have hemb : ((cfg1.win 11).blk t).view.emb (ix2 p q) = (ix2 (⟨t.val * 1000 + p.val, by omega⟩ : Fin 10000) q : S10000x128.Idx) := by
    funext a; apply Fin.ext
    match a with
    | ⟨0, _⟩ => show win1_11.index t (0 : Fin 2) * 1000 + 1 * p.val = t.val * 1000 + p.val; omega
    | ⟨1, _⟩ => show win1_11.index t (1 : Fin 2) * 128 + 1 * q.val = q.val; omega
  show Cert.Spec.packed (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (ix2 p q) = Cert.Spec.packed (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)) (V c (Pipeline.arrRef spec1 10)) (((cfg1.win 11).blk t).view.emb (ix2 p q))
  rw [hemb, blk_whole1 V c t, blk_whole2 V c t, blk_whole3 V c t, blk_whole4 V c t, blk_whole5 V c t, blk_whole6 V c t, blk_whole7 V c t, blk_whole8 V c t, blk_whole9 V c t, blk_whole10 V c t]
  refine Cert.Spec.packed_row _ _ _ _ _ _ _ _ _ _ _ _ p ⟨t.val * 1000 + p.val, by omega⟩ (fun k => ?_) q
  show V c (Pipeline.arrRef spec1 0) (((cfg1.win 0).blk t).view.emb (ix2 p k)) = V c (Pipeline.arrRef spec1 0) (ix2 (⟨t.val * 1000 + p.val, by omega⟩ : Fin 10000) k)
  refine congrArg (V c (Pipeline.arrRef spec1 0)) (funext fun a => Fin.ext ?_)
  match a with
  | ⟨0, _⟩ => show win1_0.index t (0 : Fin 2) * 1000 + 1 * p.val = t.val * 1000 + p.val; omega
  | ⟨1, _⟩ => show win1_0.index t (1 : Fin 2) * 256 + 1 * k.val = k.val; omega

/-- An index of the array is in point t's block iff each coordinate is in the block's range on its axis. -/
theorem mem_blk (t : Fin cfg1.N) (i : S10000x128.Idx) :
    i ∈ ((cfg1.win 11).blk t).view.set ↔ ∀ a : Fin 2, win1_11.index t a * S1000x128.size a ≤ (i a).val ∧ (i a).val < win1_11.index t a * S1000x128.size a + S1000x128.size a := by
  show i ∈ ((View.whole main_v60).slice (win1_11.rect t)).set ↔ _
  rw [View.set_slice_whole, Rect.mem_set_unit]
  exact Iff.rfl

/-- Every index of the output array is in the block of the point that holds its row: row r is in block r / 1000. -/
theorem cover (i : S10000x128.Idx) : ∃ t : Fin cfg1.N, (cfg1.win 11).flush t = true ∧ i ∈ ((cfg1.win 11).blk t).view.set := by
  have hi0 : (i 0).val < 10000 := (i 0).isLt
  have hi1 : (i 1).val < 128 := (i 1).isLt
  have hN : grid1.N = 10 := N_1
  let t : Fin cfg1.N := ⟨(i 0).val / 1000, by show (i 0).val / 1000 < grid1.N; rw [hN]; omega⟩
  refine ⟨t, flush1_11 t, ?_⟩
  rw [mem_blk]
  obtain ⟨r0, r1, r2, r3⟩ := idx_rows t
  have r2' : win1_11.index t (0 : Fin 2) = (i 0).val / 1000 := r2
  intro a
  match a with
  | ⟨0, _⟩ => show win1_11.index t (0 : Fin 2) * 1000 ≤ (i 0).val ∧ (i 0).val < win1_11.index t (0 : Fin 2) * 1000 + 1000; omega
  | ⟨1, _⟩ => show win1_11.index t (1 : Fin 2) * 128 ≤ (i 1).val ∧ (i 1).val < win1_11.index t (1 : Fin 2) * 128 + 128; omega

/-- The output array after the region: the packed array of the eleven arrays it reads. -/
theorem final (hbody : BodyIs) (c : Dev nD) :
    (dat1 V c).arrAt 11 cfg1.N = Cert.Spec.packed (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)) (V c (Pipeline.arrRef spec1 10)) :=
  (dat1 V c).arrAt_eq_of_cover 11 _ (fun t _ => flushed_eq V hbody c t) cover

end Cert.KernelIdeal.Reg1

end
-- ==== Proof.Slices.lean ====
/-
  The two results are column ranges of the packed [10000,128] array: column 0 is the scalar head, columns 64..127 the
  bilinear head.
-/
import proofs.«108546_j24326694764553_2_alg».proof.KernelIdeal
import proofs.«108546_j24326694764553_2_alg».proof.Proof.Spec
import Idealize.ShloMosaic.Lib.Pipeline.Value
import Idealize.ShloMosaic.Lib.ValueIdx

noncomputable section

namespace Cert.KernelIdeal.Slices

open Cert.KernelIdeal Cert.Spec
open Idealize.ShloMosaic Idealize.ShloMosaic.ValueIdx

/-- Column 0 of the packed array is the scalar head. -/
theorem col0 (x0 : A2 10000 256) (w1 : A2 256 256) (b1 : A2 1 256) (w2 : A2 256 256) (b2 : A2 1 256)
    (w3 : A2 256 1) (b3 : A2 1 1) (w4 : A2 256 256) (b4 : A2 1 256) (W : A2 256 16384) (bb : A2 1 64)
    (hs : S10000x128.Slices ![0, 0] S10000x1) :
    extractStridedSlice S10000x1 ![0, 0] (packed x0 w1 b1 w2 b2 w3 b3 w4 b4 W bb) hs
      = head1 x0 w1 b1 w2 b2 w3 b3 := by
  funext i
  obtain ⟨n, z, rfl⟩ : ∃ (n : Fin 10000) (z : Fin 1), i = ix2 n z := ⟨i 0, i 1, eq_ix2 i⟩
  have hz : z = 0 := Subsingleton.elim _ _
  subst hz
  rw [extractStridedSlice_apply ![0, 0] _ hs (ix2 n 0) (ix2 n (0 : Fin 128)) (fun a => by
    match a with
    | ⟨0, _⟩ => show n.val = 0 + n.val; omega
    | ⟨1, _⟩ => show (0 : Nat) = 0 + 0; rfl)]
  unfold packed
  exact if_pos rfl

/-- Columns 64..127 of the packed array are the bilinear head. -/
theorem col64 (x0 : A2 10000 256) (w1 : A2 256 256) (b1 : A2 1 256) (w2 : A2 256 256) (b2 : A2 1 256)
    (w3 : A2 256 1) (b3 : A2 1 1) (w4 : A2 256 256) (b4 : A2 1 256) (W : A2 256 16384) (bb : A2 1 64)
    (hs : S10000x128.Slices ![0, 64] S10000x64) :
    extractStridedSlice S10000x64 ![0, 64] (packed x0 w1 b1 w2 b2 w3 b3 w4 b4 W bb) hs
      = head2 x0 w1 b1 w4 b4 W bb := by
  funext i
  obtain ⟨n, s, rfl⟩ : ∃ (n : Fin 10000) (s : Fin 64), i = ix2 n s := ⟨i 0, i 1, eq_ix2 i⟩
  rw [extractStridedSlice_apply ![0, 64] _ hs (ix2 n s) (ix2 n (⟨64 + s.val, by omega⟩ : Fin 128)) (fun a => by
    match a with
    | ⟨0, _⟩ => show n.val = 0 + n.val; omega
    | ⟨1, _⟩ => show 64 + s.val = 64 + s.val; rfl)]
  unfold packed
  show (if 64 + s.val = 0 then _ else if h : 64 + s.val < 64 then _ else _) = _
  rw [if_neg (by omega), dif_neg (by omega)]
  show head2 x0 w1 b1 w4 b4 W bb (ix2 n ⟨64 + s.val - 64, _⟩) = head2 x0 w1 b1 w4 b4 W bb (ix2 n s)
  congr 2
  exact Fin.ext (by show 64 + s.val - 64 = s.val; omega)

end Cert.KernelIdeal.Slices

end
-- ==== Proof.KValue.lean ====
/-
  The idealized kernel program's two results as functions of the launch memory: the two heads of the specification
  applied to what the second pallas_call finds in its rows window (the residual graph-convolution output), with the
  transposed weights and the row-shaped biases.  Also the first pallas_call's output: the matrix product of x with the
  transposed convolution weight.
-/
import proofs.«108546_j24326694764553_2_alg».proof.Proof.Glue2
import proofs.«108546_j24326694764553_2_alg».proof.Proof.Reg0
import proofs.«108546_j24326694764553_2_alg».proof.Proof.Reg1
import proofs.«108546_j24326694764553_2_alg».proof.Proof.Slices

set_option maxRecDepth 16384

noncomputable section

namespace Cert.KernelIdeal.KValue

open Cert.KernelIdeal Cert.KernelIdeal.Gen Cert.KernelIdeal.Glue
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The first pallas_call's output array: x times the transposed convolution weight. -/
theorem W2_v2 (c : Dev nD) : W2 m ρ c (Proc.devRef .tc main_v2)
    = Cert.Spec.mm (m ((c : Thread nD τ).loc main_arg0))
        (truncf .bf16 (transpose S256x256 [1, 0] (m ((c : Thread nD τ).loc main_arg2)) transposes_S256x256_S256x256_1_0) bitsLt_bf16_f32 : FVec Ideal S256x256 .bf16) :=
  (W2_arr m ρ c 2).trans ((Cert.KernelIdeal.Reg0.final (V1 m ρ) c).trans
    (congrArg₂ Cert.Spec.mm (V1_arg0 m ρ c) (V1_v1 m ρ c)))

/-- The second pallas_call's output array: the packed array of the eleven arrays in its windows. -/
theorem W6_v60 (hbody : Cert.KernelIdeal.Reg1.BodyIs) (c : Dev nD) : W6 m ρ c (Proc.devRef .tc main_v60)
    = Cert.Spec.packed (V5 m ρ c main_v43) (V5 m ρ c main_v45) (V5 m ρ c main_v55) (V5 m ρ c main_v47) (V5 m ρ c main_v56)
        (V5 m ρ c main_v49) (V5 m ρ c main_v57) (V5 m ρ c main_v51) (V5 m ρ c main_v58) (V5 m ρ c main_v54) (V5 m ρ c main_v59) :=
  (W6_arr m ρ c 11).trans (Cert.KernelIdeal.Reg1.final (V5 m ρ) hbody c)

/-- The first result: the scalar head. -/
theorem res_v61 (hbody : Cert.KernelIdeal.Reg1.BodyIs) (c : Dev nD) : W7 m ρ c (Proc.devRef .tc main_v61)
    = Cert.Spec.head1 (V5 m ρ c main_v43) (V5 m ρ c main_v45) (V5 m ρ c main_v55) (V5 m ρ c main_v47) (V5 m ρ c main_v56)
        (V5 m ρ c main_v49) (V5 m ρ c main_v57) := by
  rw [W7_v61, W6_v60 m ρ hbody c]
  exact Cert.KernelIdeal.Slices.col0 _ _ _ _ _ _ _ _ _ _ _ _

/-- The second result: the bilinear head. -/
theorem res_v62 (hbody : Cert.KernelIdeal.Reg1.BodyIs) (c : Dev nD) : W7 m ρ c (Proc.devRef .tc main_v62)
    = Cert.Spec.head2 (V5 m ρ c main_v43) (V5 m ρ c main_v45) (V5 m ρ c main_v55) (V5 m ρ c main_v51) (V5 m ρ c main_v58)
        (V5 m ρ c main_v54) (V5 m ρ c main_v59) := by
  rw [W7_v62, W6_v60 m ρ hbody c]
  exact Cert.KernelIdeal.Slices.col64 _ _ _ _ _ _ _ _ _ _ _ _

end Cert.KernelIdeal.KValue

end
-- ==== Proof.Gcn.lean ====
/-
  The graph-convolution stage of the two programs, and the proof that they agree on real features.

  With xw the feature product, src/dst the two rows of the edge list (a negative entry wrapped once by the node
  count), deg = 1 + (number of edges into a node) and dinv = deg^(-1/2):
    one program computes   dinv[d] * ( Σ_{e : dst e = d} dinv[src e] * xw[src e] + dinv[d] * xw[d] ),
    the other              Σ_{e : dst e = d} (dinv[src e] * dinv[dst e]) * xw[src e] + (dinv[d] * dinv[d]) * xw[d].
  Over the extended reals multiplication does not distribute over addition at the infinities, so the two are equal
  only where the entries are real: deg is one plus a count, a positive real, so dinv is real; xw is real by
  hypothesis; the rest is distributivity in ℝ and two facts about indices: a gather clamps its start index into the
  node range while a scatter drops an update whose start index is outside it, and inside the range the two agree;
  a row gather of a matrix reads the row the flat gather of a vector reads.
-/
import proofs.«108546_j24326694764553_2_alg».proof.KernelIdeal
import proofs.«108546_j24326694764553_2_alg».proof.ReferenceIdeal
import Idealize.ShloMosaic.PureOps.Ideal
import Idealize.ShloMosaic.PureOps.Ideal.Laws
import Idealize.ShloMosaic.Lib.ValueIdx
import Idealize.ShloMosaic.Lib.IdealHost

noncomputable section

open scoped BigOperators

namespace Cert.Gcn

open Idealize.ShloMosaic Idealize.ShloMosaic.ValueIdx

abbrev SN : Shape := ⟨1, ![10000]⟩
abbrev SE : Shape := ⟨1, ![160000]⟩
abbrev SE1 : Shape := ⟨2, ![160000, 1]⟩
abbrev SNC : Shape := ⟨2, ![10000, 256]⟩
abbrev SEC : Shape := ⟨2, ![160000, 256]⟩

/-- The rank-1 gather's dimension numbers over any proof of their side conditions. -/
abbrev g1 (wf : GatherDims.WF SN SE1 SE [] [0] [] [0] [] 1 ![1]) : GatherDims SN SE1 SE where
  offsetDims := []
  collapsedSliceDims := [0]
  operandBatchingDims := []
  startIndicesBatchingDims := []
  startIndexMap := [0]
  indexVectorDim := 1
  sliceSizes := ![1]
  wf := wf

abbrev g2 (wf : GatherDims.WF SNC SE1 SEC [1] [0] [] [0] [] 1 ![1, 256]) : GatherDims SNC SE1 SEC where
  offsetDims := [1]
  collapsedSliceDims := [0]
  operandBatchingDims := []
  startIndicesBatchingDims := []
  startIndexMap := [0]
  indexVectorDim := 1
  sliceSizes := ![1, 256]
  wf := wf

abbrev s2 (wf : ScatterDims.WF SNC SE1 SEC [1] [0] [0] 1) : ScatterDims SNC SE1 SEC where
  updateWindowDims := [1]
  insertedWindowDims := [0]
  scatterDimsToOperandDims := [0]
  indexVectorDim := 1
  wf := wf

/-- The node a start index names once clamped into the node range. -/
def clampNode (z : Int) : Fin 10000 := ⟨min z.toNat 9999, by omega⟩

/-- The edge (row) and the feature (column) of an index of the per-edge feature array. -/
def erow (j : SEC.Idx) : Fin 160000 := j 0
def ecol (j : SEC.Idx) : Fin 256 := j 1
theorem eq_erow_ecol (j : SEC.Idx) : j = ix2 (erow j) (ecol j) := eq_ix2 j

theorem g1_operandIdx (wf : GatherDims.WF SN SE1 SE [] [0] [] [0] [] 1 ![1]) (idx : IVec SE1 32) (e : Fin 160000) :
    (g1 wf).operandIdx (ix1 e) idx = ix1 (clampNode (idx (ix2 e 0)).toInt) := by
  funext a
  obtain rfl : a = 0 := Subsingleton.elim _ _
  refine Fin.ext ?_
  show (g1 wf).start (ix1 e) idx 0 + (g1 wf).batchCoord (ix1 e) 0 + (g1 wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (g1 wf).startIndexMap from List.mem_singleton.mpr rfl)]
  have hsi : (g1 wf).siIdx (ix1 e) ⟨List.idxOf (0 : Fin 1) (g1 wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

theorem g2_operandIdx (wf : GatherDims.WF SNC SE1 SEC [1] [0] [] [0] [] 1 ![1, 256]) (idx : IVec SE1 32)
    (e : Fin 160000) (c : Fin 256) :
    (g2 wf).operandIdx (ix2 e c) idx = ix2 (clampNode (idx (ix2 e 0)).toInt) c := by
  funext a
  match a with
  | ⟨0, _⟩ =>
    refine Fin.ext ?_
    show (g2 wf).start (ix2 e c) idx 0 + (g2 wf).batchCoord (ix2 e c) 0 + (g2 wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (g2 wf).startIndexMap from List.mem_singleton.mpr rfl)]
    have hsi : (g2 wf).siIdx (ix2 e c) ⟨List.idxOf (0 : Fin 2) (g2 wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    refine Fin.ext ?_
    show (g2 wf).start (ix2 e c) idx 1 + (g2 wf).batchCoord (ix2 e c) 1 + (g2 wf).offCoord (ix2 e c) 1 = c.val
    rw [GatherDims.batchCoord_eq_zero _ _ _ List.not_mem_nil]
    have hs : (g2 wf).start (ix2 e c) idx 1 = 0 := by
      unfold GatherDims.start
      rw [dif_neg (show (1 : Fin 2) ∉ ([0] : List (Fin 2)) by decide)]
    rw [hs]
    simp only [Nat.add_zero, Nat.zero_add]
    unfold GatherDims.offCoord
    rw [dif_pos (show (1 : Fin 2) ∈ SNC.kept ([0] ++ [] : List (Fin 2)) by decide)]
    rfl

/-- A scatter update lands at `i` exactly when, on every axis, start plus window coordinate is `i`'s coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    rw [Option.some.injEq]
    constructor
    · intro hh a
      have h1 := congrArg Fin.val (congrFun hh a)
      simp only at h1
      have := h a
      omega
    · intro hh
      funext a
      refine Fin.ext ?_
      have := hh a
      simp only
      omega
  · rename_i h
    constructor
    · intro hh; cases hh
    · intro hh
      exact absurd (fun a => by have := hh a; have := (i a).isLt; constructor <;> omega) h

theorem s2_mem (wf : ScatterDims.WF SNC SE1 SEC [1] [0] [0] 1) (idx : IVec SE1 32) (j : SEC.Idx) (p : Fin 10000) (q : Fin 256)
    (h : (s2 wf).resultIdx? j idx = some (ix2 p q)) :
    (idx (ix2 (erow j) 0)).toInt = (p.val : Int) ∧ ecol j = q := by
  have H := (resultIdx?_eq_some_iff (s2 wf) j idx (ix2 p q)).mp h
  have h0 := H 0
  have h1 := H 1
  have st0 : (s2 wf).start j idx 0 = (idx (ix2 (erow j) 0)).toInt := by
    unfold ScatterDims.start
    rw [dif_pos (show (0 : Fin 2) ∈ (s2 wf).scatterDimsToOperandDims from List.mem_singleton.mpr rfl)]
    have hsi : (s2 wf).siIdx j ⟨List.idxOf (0 : Fin 2) (s2 wf).scatterDimsToOperandDims,
        List.idxOf_lt_length_iff.2 (List.mem_singleton.mpr rfl)⟩ = ix2 (erow j) 0 := by
      funext b; refine Fin.ext ?_
      match b with
      | ⟨0, _⟩ => rfl
      | ⟨1, _⟩ => rfl
    rw [hsi]
  have w0 : (s2 wf).window j 0 = 0 := by
    unfold ScatterDims.window
    rw [dif_neg (show (0 : Fin 2) ∉ SNC.kept ([0] : List (Fin 2)) by decide)]
  have st1 : (s2 wf).start j idx 1 = 0 := by
    unfold ScatterDims.start
    rw [dif_neg (show (1 : Fin 2) ∉ ([0] : List (Fin 2)) by decide)]
  have w1 : (s2 wf).window j 1 = (ecol j).val := by
    unfold ScatterDims.window
    rw [dif_pos (show (1 : Fin 2) ∈ SNC.kept ([0] : List (Fin 2)) by decide)]
    rfl
  rw [st0, w0] at h0
  rw [st1, w1] at h1
  refine ⟨by simpa using h0, Fin.ext (by simpa using h1)⟩

theorem coe_sum {ι : Type*} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

theorem distrib_real {ι : Type*} (s : Finset ι) (a c : ℝ) (b w : ι → ℝ) :
    (a : EReal) * ((0 + ∑ j ∈ s, (b j : EReal) * (w j : EReal)) + (a : EReal) * (c : EReal))
      = (0 + ∑ j ∈ s, ((b j : EReal) * (a : EReal)) * (w j : EReal)) + ((a : EReal) * (a : EReal)) * (c : EReal) := by
  simp only [zero_add, ← EReal.coe_mul, ← coe_sum, ← EReal.coe_add]
  congr 1
  rw [mul_add, Finset.mul_sum]
  congr 1
  · exact Finset.sum_congr rfl (fun j _ => by ring)
  · ring

/-- A finite sum of products of real numbers is a real number. -/
theorem sum_mul_real {ι : Type*} (s : Finset ι) (f g : ι → EReal) (hf : ∀ j, ∃ r : ℝ, f j = (r : EReal))
    (hg : ∀ j, ∃ r : ℝ, g j = (r : EReal)) : ∃ r : ℝ, ∑ j ∈ s, f j * g j = (r : EReal) := by
  choose fr hfr using hf
  choose gr hgr using hg
  refine ⟨∑ j ∈ s, fr j * gr j, ?_⟩
  rw [coe_sum]
  exact Finset.sum_congr rfl (fun j _ => by rw [hfr, hgr, EReal.coe_mul])

theorem rsqrt_pos_real (r : ℝ) (hr : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr hr.le), if_neg hr.ne']

theorem one_f32 : Ideal.ofBits .f32 0x3F800000#32 = ((1 : ℝ) : EReal) := by
  simp [Ideal.ofBits, Ideal.ieee, -EReal.coe_mul]; norm_num

/-! ## Reading the layout operations of this stage at an index -/

section Reads
variable {α : Type}

theorem bc_rows (h0 : (⟨1, ![10000]⟩ : Shape).BroadcastsInDim ⟨2, ![10000, 1]⟩ ![0])
    (h1 : (⟨2, ![10000, 1]⟩ : Shape).BroadcastsInDim ⟨2, ![10000, 256]⟩ ![0, 1])
    (v : (⟨1, ![10000]⟩ : Shape).Idx → α) (p : Fin 10000) (q : Fin 256) :
    broadcastInDim ⟨2, ![10000, 256]⟩ ![0, 1] h1 (broadcastInDim ⟨2, ![10000, 1]⟩ ![0] h0 v) (ix2 p q) = v (ix1 p) := by
  unfold broadcastInDim
  refine congrArg v (funext fun a => ?_)
  obtain rfl : a = 0 := Subsingleton.elim _ _
  rfl

theorem bc_edges (h0 : (⟨1, ![160000]⟩ : Shape).BroadcastsInDim ⟨2, ![160000, 1]⟩ ![0])
    (h1 : (⟨2, ![160000, 1]⟩ : Shape).BroadcastsInDim ⟨2, ![160000, 256]⟩ ![0, 1])
    (v : (⟨1, ![160000]⟩ : Shape).Idx → α) (j : (⟨2, ![160000, 256]⟩ : Shape).Idx) :
    broadcastInDim ⟨2, ![160000, 256]⟩ ![0, 1] h1 (broadcastInDim ⟨2, ![160000, 1]⟩ ![0] h0 v) j = v (ix1 (erow j)) := by
  unfold broadcastInDim
  refine congrArg v (funext fun a => ?_)
  obtain rfl : a = 0 := Subsingleton.elim _ _
  rfl

end Reads

theorem zero_splat {T : Shape} (h : (⟨0, ![]⟩ : Shape).BroadcastsInDim T ![]) (j : T.Idx) :
    broadcastInDim T ![] h (constant (F := Ideal) ⟨0, ![]⟩ .f32 0x00000000#32) j = (0 : EReal) := by
  rw [broadcastInDim_scalar_apply, constant_apply, Ideal.ofBits_zero_f32]

theorem one_splat {T : Shape} (h : (⟨0, ![]⟩ : Shape).BroadcastsInDim T ![]) (j : T.Idx) :
    broadcastInDim T ![] h (constant (F := Ideal) ⟨0, ![]⟩ .f32 0x3F800000#32) j = ((1 : ℝ) : EReal) := by
  rw [broadcastInDim_scalar_apply, constant_apply, one_f32]

theorem scatterAdd_apply {s si u : Shape} {w : Nat} (d : ScatterDims s si u) (x : FVec Ideal s .f32) (idx : IVec si w)
    (upd : FVec Ideal u .f32) (i : s.Idx) :
    Host.scatterAdd d x idx upd i = x i + ∑ j ∈ Finset.univ.filter (fun j => d.resultIdx? j idx = some i), upd j := rfl

theorem clampNode_coe (p : Fin 10000) : clampNode (p.val : Int) = p := by
  refine Fin.ext ?_
  show min (Int.toNat (p.val : Int)) 9999 = p.val
  have := p.isLt
  rw [Int.toNat_natCast]
  omega

/-! ## The inverse square-root degrees are real numbers -/

/-- One plus a sum of ones is a positive real, so its inverse square root is a real. -/
theorem dinv_real_gen {s si u : Shape} {w : Nat} (d : ScatterDims s si u) (x : FVec Ideal s .f32) (idx : IVec si w)
    (upd : FVec Ideal u .f32) (hx : ∀ i, x i = ((1 : ℝ) : EReal)) (hu : ∀ j, upd j = ((1 : ℝ) : EReal)) (i : s.Idx) :
    ∃ r : ℝ, Host.rsqrt (F := Ideal) (Host.scatterAdd d x idx upd) i = (r : EReal) := by
  show ∃ r : ℝ, Ideal.rsqrt (Host.scatterAdd d x idx upd i) = (r : EReal)
  rw [scatterAdd_apply, hx]
  have hs : ∑ j ∈ Finset.univ.filter (fun j => d.resultIdx? j idx = some i), upd j
      = (((Finset.univ.filter (fun j => d.resultIdx? j idx = some i)).card : ℝ) : EReal) := by
    rw [Finset.sum_congr rfl (fun j _ => hu j), ← coe_sum]
    simp
  rw [hs, ← EReal.coe_add, rsqrt_pos_real _ (by positivity)]
  exact ⟨_, rfl⟩

/-! ## The kernel program's graph-convolution stage, its operations in order -/

section KernelSide
variable [Cert.KernelIdeal.Facts]
open Cert.KernelIdeal Cert.KernelIdeal.Facts₀

/-- Row `r` of the edge list as a flat index vector (the slice, then the reshape). -/
def kRow0 (ei : IVec S2x160000 32) : IVec S160000 32 :=
  shapeCast S160000 (extractStridedSlice S1x160000 ![0, 0] ei slices_S2x160000_S1x160000_0_0) shapeCasts_S1x160000_S160000
def kRow1 (ei : IVec S2x160000 32) : IVec S160000 32 :=
  shapeCast S160000 (extractStridedSlice S1x160000 ![1, 0] ei slices_S2x160000_S1x160000_1_0) shapeCasts_S1x160000_S160000

/-- A negative index wrapped once by the node count, as a column of start indices. -/
def kNorm (v : IVec S160000 32) : IVec S160000x1 32 :=
  broadcastInDim S160000x1 ![0] bcast_S160000_S160000x1_0
    (select (cmpi .slt v (broadcastInDim S160000 ![] bcast_S_S160000 (constantI S_ 32 0#32)))
      (addi v (broadcastInDim S160000 ![] bcast_S_S160000 (constantI S_ 32 10000#32))) v)

/-- Inverse square root of (one plus the in-degree). -/
def kDinv (D : IVec S160000x1 32) : Vec Ideal S10000 .f32 :=
  Host.rsqrt (F := Ideal) (Host.scatterAdd scatter_S10000_S160000x1_S160000_n_0_0_1
    (broadcastInDim S10000 ![] bcast_S_S10000 (constant (F := Ideal) S_ .f32 0x3F800000#32)) D
    (broadcastInDim S160000 ![] bcast_S_S160000 (constant (F := Ideal) S_ .f32 0x3F800000#32)))

/-- The features scaled by the inverse square-root degree of their own node. -/
def kXs (dinv : Vec Ideal S10000 .f32) (xw : Vec Ideal S10000x256 .f32) : Vec Ideal S10000x256 .f32 :=
  mulf (F := Ideal) (φ := .f32) (broadcastInDim S10000x256 ![0, 1] bcast_S10000x1_S10000x256_0_1 (broadcastInDim S10000x1 ![0] bcast_S10000_S10000x1_0 dinv)) xw

/-- Scatter the gathered scaled features to their destination, add the self-loop term, scale by the destination's degree. -/
def kOut (dinv : Vec Ideal S10000 .f32) (xw : Vec Ideal S10000x256 .f32) (D Sx : IVec S160000x1 32) : Vec Ideal S10000x256 .f32 :=
  mulf (F := Ideal) (φ := .f32) (broadcastInDim S10000x256 ![0, 1] bcast_S10000x1_S10000x256_0_1 (broadcastInDim S10000x1 ![0] bcast_S10000_S10000x1_0 dinv))
    (addf (F := Ideal) (φ := .f32) (Host.scatterAdd scatter_S10000x256_S160000x1_S160000x256_1_0_0_1
        (broadcastInDim S10000x256 ![] bcast_S_S10000x256 (constant (F := Ideal) S_ .f32 0x00000000#32)) D
        (Host.gather gather_S10000x256_S160000x1_S160000x256_1_0_n_n_0_1_1256 (kXs dinv xw) Sx))
      (kXs dinv xw))

/-- Bias, positive part, residual. -/
def kTail (out : Vec Ideal S10000x256 .f32) (cb : Vec Ideal S256 .f32) (x : Vec Ideal S10000x256 .f32) : Vec Ideal S10000x256 .f32 :=
  addf (F := Ideal) (φ := .f32) (maximumf (F := Ideal) (φ := .f32) (addf (F := Ideal) (φ := .f32) out (broadcastInDim S10000x256 ![0, 1] bcast_S1x256_S10000x256_0_1 (broadcastInDim S1x256 ![1] bcast_S256_S1x256_1 cb)))
    (broadcastInDim S10000x256 ![] bcast_S_S10000x256 (constant (F := Ideal) S_ .f32 0x00000000#32))) x

/-- The kernel program's graph-convolution stage: from the product `xw`, the edge list, the bias and the input to `h0`. -/
def kH0 (xw : Vec Ideal S10000x256 .f32) (ei : IVec S2x160000 32) (cb : Vec Ideal S256 .f32)
    (x : Vec Ideal S10000x256 .f32) : Vec Ideal S10000x256 .f32 :=
  kTail (kOut (kDinv (kNorm (kRow1 ei))) xw (kNorm (kRow1 ei)) (kNorm (kRow0 ei))) cb x

end KernelSide

/-! ## The reference's graph-convolution stage, its operations in order -/

section ReferenceSide
variable [Cert.ReferenceIdeal.Facts]
open Cert.ReferenceIdeal Cert.ReferenceIdeal.Facts₀

def rRow0 (ei : IVec S2x160000 32) : IVec S160000 32 :=
  shapeCast S160000 (extractStridedSlice S1x160000 ![0, 0] ei slices_S2x160000_S1x160000_0_0) shapeCasts_S1x160000_S160000
def rRow1 (ei : IVec S2x160000 32) : IVec S160000 32 :=
  shapeCast S160000 (extractStridedSlice S1x160000 ![1, 0] ei slices_S2x160000_S1x160000_1_0) shapeCasts_S1x160000_S160000

def rNorm (v : IVec S160000 32) : IVec S160000x1 32 :=
  broadcastInDim S160000x1 ![0] bcast_S160000_S160000x1_0
    (select (cmpi .slt v (broadcastInDim S160000 ![] bcast_S_S160000 (constantI S_ 32 0#32)))
      (addi v (broadcastInDim S160000 ![] bcast_S_S160000 (constantI S_ 32 10000#32))) v)

def rDinv (D : IVec S160000x1 32) : Vec Ideal S10000 .f32 :=
  Host.rsqrt (F := Ideal) (Host.scatterAdd scatter_S10000_S160000x1_S160000_n_0_0_1
    (broadcastInDim S10000 ![] bcast_S_S10000 (constant (F := Ideal) S_ .f32 0x3F800000#32)) D
    (broadcastInDim S160000 ![] bcast_S_S160000 (constant (F := Ideal) S_ .f32 0x3F800000#32)))

/-- The edge weights: inverse square-root degree of the source times that of the destination. -/
def rNrm (dinv : Vec Ideal S10000 .f32) (D Sx : IVec S160000x1 32) : Vec Ideal S160000 .f32 :=
  mulf (F := Ideal) (φ := .f32) (Host.gather gather_S10000_S160000x1_S160000_n_0_n_n_0_1_1 dinv Sx)
    (Host.gather gather_S10000_S160000x1_S160000_n_0_n_n_0_1_1 dinv D)

/-- Scatter the weighted gathered features to their destination, add the self-loop term. -/
def rOut (dinv : Vec Ideal S10000 .f32) (xw : Vec Ideal S10000x256 .f32) (D Sx : IVec S160000x1 32) : Vec Ideal S10000x256 .f32 :=
  addf (F := Ideal) (φ := .f32) (Host.scatterAdd scatter_S10000x256_S160000x1_S160000x256_1_0_0_1
      (broadcastInDim S10000x256 ![] bcast_S_S10000x256 (constant (F := Ideal) S_ .f32 0x00000000#32)) D
      (mulf (F := Ideal) (φ := .f32) (broadcastInDim S160000x256 ![0, 1] bcast_S160000x1_S160000x256_0_1
          (broadcastInDim S160000x1 ![0] bcast_S160000_S160000x1_0 (rNrm dinv D Sx)))
        (Host.gather gather_S10000x256_S160000x1_S160000x256_1_0_n_n_0_1_1256 xw Sx)))
    (mulf (F := Ideal) (φ := .f32) (broadcastInDim S10000x256 ![0, 1] bcast_S10000x1_S10000x256_0_1
        (broadcastInDim S10000x1 ![0] bcast_S10000_S10000x1_0 (mulf dinv dinv))) xw)

def rTail (out : Vec Ideal S10000x256 .f32) (cb : Vec Ideal S256 .f32) (x : Vec Ideal S10000x256 .f32) : Vec Ideal S10000x256 .f32 :=
  addf (F := Ideal) (φ := .f32) (maximumf (F := Ideal) (φ := .f32) (addf (F := Ideal) (φ := .f32) out (broadcastInDim S10000x256 ![0, 1] bcast_S1x256_S10000x256_0_1 (broadcastInDim S1x256 ![1] bcast_S256_S1x256_1 cb)))
    (broadcastInDim S10000x256 ![] bcast_S_S10000x256 (constant (F := Ideal) S_ .f32 0x00000000#32))) x

/-- The reference's graph-convolution stage, from the product `xw` (its `dot_general`) to `h0`. -/
def rH0 (xw : Vec Ideal S10000x256 .f32) (ei : IVec S2x160000 32) (cb : Vec Ideal S256 .f32)
    (x : Vec Ideal S10000x256 .f32) : Vec Ideal S10000x256 .f32 :=
  rTail (rOut (rDinv (rNorm (rRow1 ei))) xw (rNorm (rRow1 ei)) (rNorm (rRow0 ei))) cb x

end ReferenceSide

/-! ## The two stages read at an index -/

section Main
variable [Cert.KernelIdeal.Facts] [Cert.ReferenceIdeal.Facts]

theorem gather2_apply {α : Type} (wf : GatherDims.WF SNC SE1 SEC [1] [0] [] [0] [] 1 ![1, 256]) (v : SNC.Idx → α)
    (Sx : IVec SE1 32) (j : SEC.Idx) :
    Host.gather (g2 wf) v Sx j = v (ix2 (clampNode (Sx (ix2 (erow j) 0)).toInt) (ecol j)) := by
  show v ((g2 wf).operandIdx j Sx) = _
  exact congrArg v ((congrArg (fun k => (g2 wf).operandIdx k Sx) (eq_erow_ecol j)).trans (g2_operandIdx wf Sx (erow j) (ecol j)))

theorem gather1_apply {α : Type} (wf : GatherDims.WF SN SE1 SE [] [0] [] [0] [] 1 ![1]) (v : SN.Idx → α)
    (Sx : IVec SE1 32) (e : Fin 160000) :
    Host.gather (g1 wf) v Sx (ix1 e) = v (ix1 (clampNode (Sx (ix2 e 0)).toInt)) := by
  show v ((g1 wf).operandIdx (ix1 e) Sx) = _
  rw [g1_operandIdx]

theorem gather2K_apply (v : SNC.Idx → EReal) (Sx : IVec SE1 32) (j : SEC.Idx) :
    Host.gather Cert.KernelIdeal.gather_S10000x256_S160000x1_S160000x256_1_0_n_n_0_1_1256 v Sx j
      = v (ix2 (clampNode (Sx (ix2 (erow j) 0)).toInt) (ecol j)) :=
  gather2_apply Cert.KernelIdeal.Facts₀.gather_S10000x256_S160000x1_S160000x256_1_0_n_n_0_1_1256_wf v Sx j

theorem gather2R_apply (v : SNC.Idx → EReal) (Sx : IVec SE1 32) (j : SEC.Idx) :
    Host.gather Cert.ReferenceIdeal.gather_S10000x256_S160000x1_S160000x256_1_0_n_n_0_1_1256 v Sx j
      = v (ix2 (clampNode (Sx (ix2 (erow j) 0)).toInt) (ecol j)) :=
  gather2_apply Cert.ReferenceIdeal.Facts₀.gather_S10000x256_S160000x1_S160000x256_1_0_n_n_0_1_1256_wf v Sx j

theorem gather1R_apply (v : SN.Idx → EReal) (Sx : IVec SE1 32) (e : Fin 160000) :
    Host.gather Cert.ReferenceIdeal.gather_S10000_S160000x1_S160000_n_0_n_n_0_1_1 v Sx (ix1 e)
      = v (ix1 (clampNode (Sx (ix2 e 0)).toInt)) :=
  gather1_apply Cert.ReferenceIdeal.Facts₀.gather_S10000_S160000x1_S160000_n_0_n_n_0_1_1_wf v Sx e

theorem kXs_apply (dinv : Vec Ideal SN .f32) (xw : Vec Ideal SNC .f32) (p : Fin 10000) (q : Fin 256) :
    kXs dinv xw (ix2 p q) = dinv (ix1 p) * xw (ix2 p q) := by
  unfold kXs
  rw [mulf_apply, bc_rows]

theorem kOut_apply (wf : ScatterDims.WF SNC SE1 SEC [1] [0] [0] 1) (dinv : Vec Ideal SN .f32) (xw : Vec Ideal SNC .f32)
    (D Sx : IVec SE1 32) (p : Fin 10000) (q : Fin 256) :
    kOut dinv xw D Sx (ix2 p q) =
      dinv (ix1 p) * ((0 + ∑ j ∈ Finset.univ.filter (fun j => (s2 wf).resultIdx? j D = some (ix2 p q)),
          dinv (ix1 (clampNode (Sx (ix2 (erow j) 0)).toInt)) * xw (ix2 (clampNode (Sx (ix2 (erow j) 0)).toInt) (ecol j)))
        + dinv (ix1 p) * xw (ix2 p q)) := by
  unfold kOut
  rw [mulf_apply, addf_apply, bc_rows, scatterAdd_apply, zero_splat, kXs_apply]
  rw [Finset.sum_congr rfl (fun j _ => (gather2K_apply (kXs dinv xw) Sx j).trans (kXs_apply dinv xw _ _))]
  rfl

theorem rNrm_apply (dinv : Vec Ideal SN .f32) (D Sx : IVec SE1 32) (e : Fin 160000) :
    rNrm dinv D Sx (ix1 e) = dinv (ix1 (clampNode (Sx (ix2 e 0)).toInt)) * dinv (ix1 (clampNode (D (ix2 e 0)).toInt)) := by
  unfold rNrm
  rw [mulf_apply, gather1R_apply, gather1R_apply]

theorem rOut_apply (wf : ScatterDims.WF SNC SE1 SEC [1] [0] [0] 1) (dinv : Vec Ideal SN .f32) (xw : Vec Ideal SNC .f32)
    (D Sx : IVec SE1 32) (p : Fin 10000) (q : Fin 256) :
    rOut dinv xw D Sx (ix2 p q) =
      (0 + ∑ j ∈ Finset.univ.filter (fun j => (s2 wf).resultIdx? j D = some (ix2 p q)),
          (dinv (ix1 (clampNode (Sx (ix2 (erow j) 0)).toInt)) * dinv (ix1 (clampNode (D (ix2 (erow j) 0)).toInt)))
            * xw (ix2 (clampNode (Sx (ix2 (erow j) 0)).toInt) (ecol j)))
        + (dinv (ix1 p) * dinv (ix1 p)) * xw (ix2 p q) := by
  have hterm : ∀ j : SEC.Idx,
      mulf (F := Ideal) (φ := .f32) (broadcastInDim Cert.ReferenceIdeal.S160000x256 ![0, 1] Cert.ReferenceIdeal.Facts₀.bcast_S160000x1_S160000x256_0_1
          (broadcastInDim Cert.ReferenceIdeal.S160000x1 ![0] Cert.ReferenceIdeal.Facts₀.bcast_S160000_S160000x1_0 (rNrm dinv D Sx)))
        (Host.gather Cert.ReferenceIdeal.gather_S10000x256_S160000x1_S160000x256_1_0_n_n_0_1_1256 xw Sx) j
      = (dinv (ix1 (clampNode (Sx (ix2 (erow j) 0)).toInt)) * dinv (ix1 (clampNode (D (ix2 (erow j) 0)).toInt)))
            * xw (ix2 (clampNode (Sx (ix2 (erow j) 0)).toInt) (ecol j)) := by
    intro j
    rw [mulf_apply, bc_edges, rNrm_apply, gather2R_apply]
  unfold rOut
  rw [addf_apply, scatterAdd_apply, zero_splat, mulf_apply, bc_rows, mulf_apply]
  rw [Finset.sum_congr rfl (fun j _ => hterm j)]
  rfl

/-! ## The two stages agree on real features -/

theorem out_eq (dinv : Vec Ideal SN .f32) (xw : Vec Ideal SNC .f32) (D Sx : IVec SE1 32)
    (hd : ∀ i, ∃ r : ℝ, dinv i = (r : EReal)) (hxw : ∀ i, ∃ r : ℝ, xw i = (r : EReal)) :
    kOut dinv xw D Sx = rOut dinv xw D Sx := by
  funext i
  obtain ⟨p, q, rfl⟩ : ∃ (p : Fin 10000) (q : Fin 256), i = ix2 p q := ⟨i 0, i 1, eq_ix2 i⟩
  have wf := Cert.KernelIdeal.Facts₀.scatter_S10000x256_S160000x1_S160000x256_1_0_0_1_wf
  rw [kOut_apply wf, rOut_apply wf]
  choose dr hdr using hd
  choose xr hxr using hxw
  have hmem : ∀ j ∈ Finset.univ.filter (fun j => (s2 wf).resultIdx? j D = some (ix2 p q)),
      (dinv (ix1 (clampNode (Sx (ix2 (erow j) 0)).toInt)) * dinv (ix1 (clampNode (D (ix2 (erow j) 0)).toInt)))
          * xw (ix2 (clampNode (Sx (ix2 (erow j) 0)).toInt) (ecol j))
        = (dinv (ix1 (clampNode (Sx (ix2 (erow j) 0)).toInt)) * dinv (ix1 p))
          * xw (ix2 (clampNode (Sx (ix2 (erow j) 0)).toInt) (ecol j)) := by
    intro j hj
    have h := s2_mem wf D j p q (Finset.mem_filter.mp hj).2
    rw [h.1, clampNode_coe]
  rw [Finset.sum_congr rfl hmem]
  simp only [hdr, hxr]
  exact distrib_real _ (dr (ix1 p)) (xr (ix2 p q)) (fun j => dr (ix1 (clampNode (Sx (ix2 (erow j) 0)).toInt)))
    (fun j => xr (ix2 (clampNode (Sx (ix2 (erow j) 0)).toInt) (ecol j)))

/-- The kernel's inverse square-root degrees are real numbers. -/
theorem kDinv_real (D : IVec SE1 32) (i : SN.Idx) : ∃ r : ℝ, kDinv D i = (r : EReal) :=
  dinv_real_gen _ _ D _ (fun _ => one_splat _ _) (fun _ => one_splat _ _) i

/-- On real features the kernel program's graph-convolution stage computes what the reference's does. -/
theorem kH0_eq_rH0 (xw : Vec Ideal SNC .f32) (ei : IVec ⟨2, ![2, 160000]⟩ 32) (cb : Vec Ideal ⟨1, ![256]⟩ .f32)
    (x : Vec Ideal SNC .f32) (hxw : ∀ i, ∃ r : ℝ, xw i = (r : EReal)) :
    kH0 xw ei cb x = rH0 xw ei cb x := by
  have h := out_eq (kDinv (kNorm (kRow1 ei))) xw (kNorm (kRow1 ei)) (kNorm (kRow0 ei)) (kDinv_real _) hxw
  unfold kH0 rH0
  rw [h]
  rfl

end Main

end Cert.Gcn
end
-- ==== Proof.Glue3.lean ====
/-
  What the second pallas_call finds in its rows window: the graph-convolution stage of the kernel's program — degree,
  inverse square root, the scaled gather and scatter-add over the edges, bias, positive part, residual — applied to the
  first pallas_call's output, the edge list, the convolution bias and x.
-/
import proofs.«108546_j24326694764553_2_alg».proof.Proof.GlueArgs
import proofs.«108546_j24326694764553_2_alg».proof.Proof.Gcn

set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

set_option maxHeartbeats 8000000 in
theorem V5_v43 (c : Dev nD) : V5 m ρ c main_v43
    = Cert.Gcn.kH0 (W2 m ρ c (Proc.devRef .tc main_v2)) (m ((c : Thread nD τ).loc main_arg1)) (m ((c : Thread nD τ).loc main_arg3)) (m ((c : Thread nD τ).loc main_arg0)) := by
  show StableHlo.after hostOps1_2 (StableHlo.after hostOps1_1 (StableHlo.after hostOps1 (W2 m ρ c))) (Proc.devRef .tc main_v43) = _
  after_results_simp
  all_goals (try rw [W2_arg1 m ρ c, W2_arg3 m ρ c, W2_arg0 m ρ c])
  all_goals rfl

end Cert.KernelIdeal.Glue

end
-- ==== Proof.RefTail.lean ====
/-
  The reference program from its residual stage on. The residual array H = relu(gcn) + x (a [10000, 256] array) is
  kept opaque; everything after it is three dense layers, a scalar head and a bilinear head. Each stage is read at an
  index from the stages before it, the indices the layout operations read at are identified with plain coordinate
  pairs, and the result is the corresponding function of the shared specification:
    * relu(y) is max y 0, the zero being the bit pattern of +0.0;
    * a bias b[None, :] broadcast over the rows is read at (0, column);
    * the reduction's initial value is 0, so 0 + sum = sum;
    * the reshape [10000, 16384] -> [10000, 64, 256] reads (n, r, j) at (n, 256 r + j).
-/
import proofs.«108546_j24326694764553_2_alg».proof.Proof.Gen.ReferenceIdeal.Read
import proofs.«108546_j24326694764553_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

variable (x0 : (⟨S10000x256, .f32⟩ : BufTy).Contents (Elt Ideal)) (x1 : (⟨S2x160000, .i32⟩ : BufTy).Contents (Elt Ideal))
  (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal))
  (x6 : (⟨S256x256, .f32⟩ : BufTy).Contents (Elt Ideal)) (x7 : (⟨S256, .f32⟩ : BufTy).Contents (Elt Ideal)) (x8 : (⟨S1x256, .f32⟩ : BufTy).Contents (Elt Ideal)) (x9 : (⟨S1, .f32⟩ : BufTy).Contents (Elt Ideal))
  (x10 : (⟨S256x256, .f32⟩ : BufTy).Contents (Elt Ideal)) (x11 : (⟨S256, .f32⟩ : BufTy).Contents (Elt Ideal)) (x12 : (⟨S64x256x256, .f32⟩ : BufTy).Contents (Elt Ideal)) (x13 : (⟨S64, .f32⟩ : BufTy).Contents (Elt Ideal))

/-! ## The indices the stages read at, as coordinate pairs -/

theorem lidx_v60_eq (i : S10000x256.Idx) (k : Fin 256) : lidx_main_v60 i k = ix2 (i 0) k :=
  funext fun a => by match a with | ⟨0, _⟩ => rfl | ⟨1, _⟩ => rfl
theorem ridx_v60_eq (i : S10000x256.Idx) (k : Fin 256) : ridx_main_v60 i k = ix2 k (i 1) :=
  funext fun a => by match a with | ⟨0, _⟩ => rfl | ⟨1, _⟩ => rfl
theorem lidx_v66_eq (i : S10000x256.Idx) (k : Fin 256) : lidx_main_v66 i k = ix2 (i 0) k :=
  funext fun a => by match a with | ⟨0, _⟩ => rfl | ⟨1, _⟩ => rfl
theorem ridx_v66_eq (i : S10000x256.Idx) (k : Fin 256) : ridx_main_v66 i k = ix2 k (i 1) :=
  funext fun a => by match a with | ⟨0, _⟩ => rfl | ⟨1, _⟩ => rfl
theorem lidx_v77_eq (i : S10000x256.Idx) (k : Fin 256) : lidx_main_v77 i k = ix2 (i 0) k :=
  funext fun a => by match a with | ⟨0, _⟩ => rfl | ⟨1, _⟩ => rfl
theorem ridx_v77_eq (i : S10000x256.Idx) (k : Fin 256) : ridx_main_v77 i k = ix2 k (i 1) :=
  funext fun a => by match a with | ⟨0, _⟩ => rfl | ⟨1, _⟩ => rfl
theorem lidx_v72_eq (i : S10000x1.Idx) (k : Fin 256) : lidx_main_v72 i k = ix2 (i 0) k :=
  funext fun a => by match a with | ⟨0, _⟩ => rfl | ⟨1, _⟩ => rfl
theorem ridx_v72_eq (i : S10000x1.Idx) (k : Fin 256) : ridx_main_v72 i k = ix2 k (i 1) :=
  funext fun a => by match a with | ⟨0, _⟩ => rfl | ⟨1, _⟩ => rfl
theorem lidx_v84_eq (i : S10000x16384.Idx) (k : Fin 256) : lidx_main_v84 i k = ix2 (i 0) k :=
  funext fun a => by match a with | ⟨0, _⟩ => rfl | ⟨1, _⟩ => rfl
theorem ridx_v84_eq (i : S10000x16384.Idx) (k : Fin 256) : ridx_main_v84 i k = ix2 k (i 1) :=
  funext fun a => by match a with | ⟨0, _⟩ => rfl | ⟨1, _⟩ => rfl
theorem idx_v62_eq (i : S10000x256.Idx) : idx_main_v62 i = ix2 0 (i 1) :=
  funext fun a => by match a with | ⟨0, _⟩ => rfl | ⟨1, _⟩ => rfl
theorem idx_v68_eq (i : S10000x256.Idx) : idx_main_v68 i = ix2 0 (i 1) :=
  funext fun a => by match a with | ⟨0, _⟩ => rfl | ⟨1, _⟩ => rfl
theorem idx_v79_eq (i : S10000x256.Idx) : idx_main_v79 i = ix2 0 (i 1) :=
  funext fun a => by match a with | ⟨0, _⟩ => rfl | ⟨1, _⟩ => rfl
theorem idx_v91_eq (i : S10000x64.Idx) : idx_main_v91 i = ix2 0 (i 1) :=
  funext fun a => by match a with | ⟨0, _⟩ => rfl | ⟨1, _⟩ => rfl
theorem idx_v74_eq (i : S10000x1.Idx) : idx_main_v74 i = ix2 0 0 :=
  funext fun a => by match a with | ⟨0, _⟩ => rfl | ⟨1, _⟩ => rfl

/-! ## The three dense layers -/

theorem ref_v64 : val_main_v64 (F := Ideal) x0 x1 x2 x3 x4 x5
    = Cert.Spec.hid1 (val_main_v58 (F := Ideal) x0 x1 x2 x3) (val_main_v59 (F := Ideal) x4) (val_main_v61 (F := Ideal) x5) := by
  funext i
  rw [val_main_v64_apply, val_main_v63_apply, val_main_v60_apply, val_main_v62_apply, val_main_call1_v0_apply, val_main_call1_cst_apply]
  simp only [Ideal.maximumf_def, Ideal.addf_def, Ideal.ofBits_def, Ideal.ofBits_zero_f32,
    lidx_v60_eq, ridx_v60_eq, idx_v62_eq]
  rfl

theorem ref_v70 : val_main_v70 (F := Ideal) x0 x1 x2 x3 x4 x5 x6 x7
    = Cert.Spec.hid2 (val_main_v58 (F := Ideal) x0 x1 x2 x3) (val_main_v59 (F := Ideal) x4) (val_main_v61 (F := Ideal) x5) (val_main_v65 (F := Ideal) x6) (val_main_v67 (F := Ideal) x7) := by
  funext i
  rw [val_main_v70_apply, val_main_v69_apply, val_main_v66_apply, val_main_v68_apply, val_main_call2_v0_apply, val_main_call2_cst_apply, ref_v64]
  simp only [Ideal.maximumf_def, Ideal.addf_def, Ideal.ofBits_def, Ideal.ofBits_zero_f32,
    lidx_v66_eq, ridx_v66_eq, idx_v68_eq]
  rfl

theorem ref_v81 : val_main_v81 (F := Ideal) x0 x1 x2 x3 x4 x5 x10 x11
    = Cert.Spec.hid3 (val_main_v58 (F := Ideal) x0 x1 x2 x3) (val_main_v59 (F := Ideal) x4) (val_main_v61 (F := Ideal) x5) (val_main_v76 (F := Ideal) x10) (val_main_v78 (F := Ideal) x11) := by
  funext i
  rw [val_main_v81_apply, val_main_v80_apply, val_main_v77_apply, val_main_v79_apply, val_main_call3_v0_apply, val_main_call3_cst_apply, ref_v64]
  simp only [Ideal.maximumf_def, Ideal.addf_def, Ideal.ofBits_def, Ideal.ofBits_zero_f32,
    lidx_v77_eq, ridx_v77_eq, idx_v79_eq]
  rfl

/-! ## The scalar head -/

theorem ref_v75 : val_main_v75 (F := Ideal) x0 x1 x2 x3 x4 x5 x6 x7 x8 x9
    = Cert.Spec.head1 (val_main_v58 (F := Ideal) x0 x1 x2 x3) (val_main_v59 (F := Ideal) x4) (val_main_v61 (F := Ideal) x5) (val_main_v65 (F := Ideal) x6) (val_main_v67 (F := Ideal) x7)
        (val_main_v71 (F := Ideal) x8) (val_main_v73 (F := Ideal) x9) := by
  funext i
  rw [val_main_v75_apply, val_main_v72_apply, val_main_v74_apply, ref_v70]
  simp only [Ideal.addf_def, lidx_v72_eq, ridx_v72_eq, idx_v74_eq]
  rfl

/-! ## The bilinear head -/

/-- The reshape's read: entry (n, r, j) of the [10000, 64, 256] array is entry (n, 256 r + j) of the [10000, 16384] one. -/
theorem idx_v85_v89_eq (i : S10000x64.Idx) (j : Fin 256) :
    idx_main_v85 (idx_main_v89 i j)
      = ix2 (i 0) ⟨256 * (i 1).val + j.val, by have := idx2_lt1 i; omega⟩ :=
  funext fun a => Fin.ext (by
    have h0 : (i 0).val < 10000 := (i 0).isLt
    have h1 : (i 1).val < 64 := (i 1).isLt
    have h2 : j.val < 256 := j.isLt
    match a with
    | ⟨0, _⟩ => show (((i 0).val * 64 + (i 1).val) * 256 + j.val) / 16384 = (i 0).val; omega
    | ⟨1, _⟩ => show (((i 0).val * 64 + (i 1).val) * 256 + j.val) % 16384 = 256 * (i 1).val + j.val; omega)

/-- The row of the third hidden layer broadcast along the 64 slabs is read at (n, j). -/
theorem idx_v86_v87_v89_eq (i : S10000x64.Idx) (j : Fin 256) :
    idx_main_v86 (idx_main_v87 (idx_main_v89 i j)) = ix2 (i 0) j :=
  funext fun a => by match a with | ⟨0, _⟩ => rfl | ⟨1, _⟩ => rfl

/-- One product under the last-axis sum: the slab's matrix-vector entry times the layer's entry. -/
theorem ref_v88 (i : S10000x64.Idx) (j : Fin 256) :
    val_main_v88 (F := Ideal) x0 x1 x2 x3 x4 x5 x10 x11 x12 (idx_main_v89 i j)
      = (∑ k : Fin 256, Cert.Spec.hid3 (val_main_v58 (F := Ideal) x0 x1 x2 x3) (val_main_v59 (F := Ideal) x4) (val_main_v61 (F := Ideal) x5) (val_main_v76 (F := Ideal) x10) (val_main_v78 (F := Ideal) x11) (ix2 (i 0) k)
            * val_main_v83 (F := Ideal) x12 (ix2 k ⟨256 * (i 1).val + j.val, by have := idx2_lt1 i; omega⟩))
        * Cert.Spec.hid3 (val_main_v58 (F := Ideal) x0 x1 x2 x3) (val_main_v59 (F := Ideal) x4) (val_main_v61 (F := Ideal) x5) (val_main_v76 (F := Ideal) x10) (val_main_v78 (F := Ideal) x11) (ix2 (i 0) j) := by
  rw [val_main_v88_apply, val_main_v85_apply, val_main_v87_apply, val_main_v86_apply, val_main_v84_apply,
    idx_v85_v89_eq, idx_v86_v87_v89_eq, ref_v81]
  simp only [Ideal.mulf_def, lidx_v84_eq, ridx_v84_eq]
  rfl

theorem ref_v92 : val_main_v92 (F := Ideal) x0 x1 x2 x3 x4 x5 x10 x11 x12 x13
    = Cert.Spec.head2 (val_main_v58 (F := Ideal) x0 x1 x2 x3) (val_main_v59 (F := Ideal) x4) (val_main_v61 (F := Ideal) x5) (val_main_v76 (F := Ideal) x10) (val_main_v78 (F := Ideal) x11)
        (val_main_v83 (F := Ideal) x12) (val_main_v90 (F := Ideal) x13) := by
  funext i
  rw [val_main_v92_apply, val_main_v89_apply, val_main_v91_apply, val_main_cst_11_apply, idx_v91_eq]
  simp only [Ideal.addf_def, Ideal.ofBits_def, Ideal.ofBits_zero_f32, zero_add, ref_v88]
  rfl

end Cert.ReferenceIdeal.RefValue

end
-- ==== Proof.RefGcn.lean ====
/-
  The reference program's graph-convolution stage. Its first matrix product x · w^T is the specification's matrix
  product of x with the transposed weight: the contraction reads the left operand at (row, k) and the right one at
  (k, column). The transposed weight narrowed to a 16-bit format is, over the extended reals, the plain transpose.
-/
import proofs.«108546_j24326694764553_2_alg».proof.Proof.Gen.ReferenceIdeal.Read
import proofs.«108546_j24326694764553_2_alg».proof.Proof.Spec
import proofs.«108546_j24326694764553_2_alg».proof.Proof.Gcn

noncomputable section

open scoped BigOperators

namespace Cert.RefGcn

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

theorem lidx_v5_eq (i : S10000x256.Idx) (k : Fin 256) : lidx_main_v5 i k = ix2 (i 0) k :=
  funext fun a => by match a with | ⟨0, _⟩ => rfl | ⟨1, _⟩ => rfl
theorem ridx_v5_eq (i : S10000x256.Idx) (k : Fin 256) : ridx_main_v5 i k = ix2 k (i 1) :=
  funext fun a => by match a with | ⟨0, _⟩ => rfl | ⟨1, _⟩ => rfl

/-- The first matrix product is the specification's product of x with the transposed weight. -/
theorem ref_v5 (x0 : (⟨S10000x256, .f32⟩ : BufTy).Contents (Elt Ideal)) (x2 : (⟨S256x256, .f32⟩ : BufTy).Contents (Elt Ideal)) :
    val_main_v5 (F := Ideal) x0 x2 = Cert.Spec.mm x0 (val_main_v4 (F := Ideal) x2) := by
  funext i
  rw [val_main_v5_apply]
  unfold Cert.Spec.mm
  refine Finset.sum_congr rfl fun k _ => ?_
  rw [lidx_v5_eq, ridx_v5_eq]
  rfl

/-- The transposed weight, narrowed: over the extended reals the narrowing is the identity. -/
theorem w_v4 (x : (⟨S256x256, .f32⟩ : BufTy).Contents (Elt Ideal)) (ht : S256x256.Transposes [1, 0] S256x256) (hb : FTy.bits .bf16 < FTy.bits .f32) :
    (truncf .bf16 (transpose S256x256 [1, 0] x ht) hb : FVec Ideal S256x256 .bf16) = val_main_v4 (F := Ideal) x := rfl

/-! ## The residual stage is the graph-convolution stage of the first product -/

/-- The reference's stages from the first matrix product to the residual, operation by operation, are the
    graph-convolution stage applied to that product, the edge list, the bias and the input: the two terms are the
    same operations in the same order. -/
theorem ref_v58 [Cert.ReferenceIdeal.Facts] (x0 : (⟨S10000x256, .f32⟩ : BufTy).Contents (Elt Ideal)) (x1 : (⟨S2x160000, .i32⟩ : BufTy).Contents (Elt Ideal))
    (x2 : (⟨S256x256, .f32⟩ : BufTy).Contents (Elt Ideal)) (x3 : (⟨S256, .f32⟩ : BufTy).Contents (Elt Ideal)) :
    val_main_v58 (F := Ideal) x0 x1 x2 x3 = Cert.Gcn.rH0 (val_main_v5 (F := Ideal) x0 x2) x1 x3 x0 := rfl

end Cert.RefGcn

end
-- ==== Proof.Finite.lean ====
/-
  Finiteness out of the precondition. The precondition computes, for each floating-point argument array x, the
  conjunction over all entries of |x| < +inf (the absolute value is max x (-x), +inf is the bit pattern 0x7F800000,
  the conjunction over the entries is a reduction by "and" from the constant 1), joins the thirteen results with
  "and", and is stated to be 1. So each single test is 1, so each entry of each array has max x (-x) < +inf, which for
  an extended real says it is a real number. A matrix product of arrays of reals is an array of reals: a finite sum
  of products of reals.
-/
import proofs.«108546_j24326694764553_2_alg».proof.Defs
import proofs.«108546_j24326694764553_2_alg».proof.Proof.Spec
import Idealize.ShloMosaic.Lib.ReduceAll

noncomputable section

open scoped BigOperators

namespace Cert.Finite

open Idealize.ShloMosaic Idealize.ShloMosaic.TcCoe Idealize.SL.Sem Idealize.ShloMosaic.ValueIdx

/-- The scalar shape has one index. -/
instance : Subsingleton Cert.Pre_finite_inputs.S_.Idx := ⟨fun a b => funext fun d => d.elim0⟩

/-- The bit pattern 0x7F800000 is +inf. -/
theorem ofBits_inf : Ideal.ofBits .f32 0x7F800000#32 = (⊤ : EReal) := by
  simp [Ideal.ofBits, Ideal.ieee]

/-- An extended real whose absolute value max x (-x) is below +inf is a real. -/
theorem real_of_abs_lt_top (x : EReal) (h : max x (-x) < ⊤) : ∃ r : ℝ, x = (r : EReal) := by
  induction x using EReal.rec with
  | bot => simp at h
  | coe r => exact ⟨r, rfl⟩
  | top => simp at h

/-- One entry's test |x| < +inf being 1 says the entry is a real. -/
theorem real_of_test (x : EReal) (h : Ideal.cmp .olt (max x (-x)) (Ideal.ofBits .f32 0x7F800000#32) = 1#1) :
    ∃ r : ℝ, x = (r : EReal) := by
  rw [ofBits_inf] at h
  refine real_of_abs_lt_top x ?_
  by_contra hn
  simp [Ideal.cmp, hn] at h

/-- "All entries of x pass the test" being 1 says every entry of x is a real. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
        (cmpf .olt (Host.absf x) (broadcastInDim s ![] hb (constant (F := Ideal) Cert.Pre_finite_inputs.S_ .f32 0x7F800000#32)))
        (constantI Cert.Pre_finite_inputs.S_ 1 1#1) hr hu j = 1#1)
    (i : s.Idx) : ∃ r : ℝ, (x i : EReal) = (r : EReal) :=
  real_of_test (x i) (Host.reduce_andi_all _ _ hr hu j e i)

/-- A conjunction of two one-bit arrays that is 1 at an index has both 1 there. -/
theorem and_one {s : Shape} (a b : IVec s 1) (j : s.Idx) (h : andi a b j = 1#1) : a j = 1#1 ∧ b j = 1#1 :=
  IntOp.andi_eq_one.1 h

variable [Cert.Pre_finite_inputs.Facts]

/-- The first two conjuncts of the precondition: the tests of argument 0 and of argument 2. -/
theorem first_two (m : (ℓ : Loc Cert.KernelIdeal.nD Cert.KernelIdeal.τ Cert.KernelIdeal.sig) → Buf (Elt Ideal) ℓ) (h : Cert.Pre_KernelIdeal m) (c : Dev Cert.KernelIdeal.nD) :
    (∀ i, ∃ r : ℝ, ((m ((c.tc : Thread Cert.KernelIdeal.nD Cert.KernelIdeal.τ).loc Cert.KernelIdeal.main_arg0)) i : EReal) = (r : EReal)) ∧ (∀ i, ∃ r : ℝ, ((m ((c.tc : Thread Cert.KernelIdeal.nD Cert.KernelIdeal.τ).loc Cert.KernelIdeal.main_arg2)) i : EReal) = (r : EReal)) := by
  have e := congrFun (h c) ix0
  dsimp only [Cert.Pre_finite_inputs.fn, Cert.Pre_finite_inputs.fn_part1, Cert.Pre_finite_inputs.fn_part2,
    Cert.Pre_finite_inputs.fn_part3] at e
  have e8 := (and_one _ _ _ (and_one _ _ _ (and_one _ _ _ (and_one _ _ _ (and_one _ _ _ (and_one _ _ _ (and_one _ _ _
    (and_one _ _ _ (and_one _ _ _ (and_one _ _ _ (and_one _ _ _ e).1).1).1).1).1).1).1).1).1).1).1
  obtain ⟨e3, e7⟩ := and_one _ _ _ e8
  exact ⟨fun i => real_of_all _ _ _ _ _ e3 i, fun i => real_of_all _ _ _ _ _ e7 i⟩

theorem arg0_real (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ r : ℝ, ((m ((c.tc : Thread Cert.KernelIdeal.nD Cert.KernelIdeal.τ).loc Cert.KernelIdeal.main_arg0)) : Cert.KernelIdeal.S10000x256.Idx → EReal) i = (r : EReal) :=
  (first_two m h c).1

theorem arg2_real (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ r : ℝ, ((m ((c.tc : Thread Cert.KernelIdeal.nD Cert.KernelIdeal.τ).loc Cert.KernelIdeal.main_arg2)) : Cert.KernelIdeal.S256x256.Idx → EReal) i = (r : EReal) :=
  (first_two m h c).2

omit [Cert.Pre_finite_inputs.Facts] in
/-- The inclusion of the reals commutes with finite sums. -/
theorem coe_sum {ι : Type} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

omit [Cert.Pre_finite_inputs.Facts] in
/-- A matrix product of arrays of reals is an array of reals. -/
theorem mm_real {n k l : Nat} (x : Cert.Spec.A2 n k) (w : Cert.Spec.A2 k l) (hx : ∀ i, ∃ r : ℝ, x i = (r : EReal))
    (hw : ∀ i, ∃ r : ℝ, w i = (r : EReal)) : ∀ i, ∃ r : ℝ, Cert.Spec.mm x w i = (r : EReal) := by
  intro i
  choose fx hfx using hx
  choose fw hfw using hw
  refine ⟨∑ j : Fin k, fx (ix2 (i 0) j) * fw (ix2 j (i 1)), ?_⟩
  unfold Cert.Spec.mm
  rw [coe_sum]
  refine Finset.sum_congr rfl fun j _ => ?_
  rw [hfx, hfw, EReal.coe_mul]

end Cert.Finite

end
-- ==== Proof.Weights.lean ====
/-
  The weight arrays the two programs feed their matrix products. One program transposes a weight and then narrows
  it to a 16-bit format; over the extended reals the narrowing is the identity, so the result is the other program's
  plain transpose. One program reshapes a bias of n entries to a [1, n] array and the other broadcasts it to [1, n]:
  both read entry (0, j) at j, because the row-major position of (0, j) in a [1, n] array is j.
-/
import proofs.«108546_j24326694764553_2_alg».proof.KernelIdeal
import proofs.«108546_j24326694764553_2_alg».proof.ReferenceIdeal
import proofs.«108546_j24326694764553_2_alg».proof.Proof.Gen.ReferenceIdeal.Read
import Idealize.ShloMosaic.Lib.Pipeline.Value
import Idealize.ShloMosaic.Lib.ValueIdx

noncomputable section

namespace Cert.Weights

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-! ## Transposed weights, narrowed -/

theorem w_v59 (x : (⟨S256x256, .f32⟩ : BufTy).Contents (Elt Ideal)) (ht : S256x256.Transposes [1, 0] S256x256) (hb : FTy.bits .bf16 < FTy.bits .f32) :
    (truncf .bf16 (transpose S256x256 [1, 0] x ht) hb : FVec Ideal S256x256 .bf16) = val_main_v59 (F := Ideal) x := rfl

theorem w_v65 (x : (⟨S256x256, .f32⟩ : BufTy).Contents (Elt Ideal)) (ht : S256x256.Transposes [1, 0] S256x256) (hb : FTy.bits .bf16 < FTy.bits .f32) :
    (truncf .bf16 (transpose S256x256 [1, 0] x ht) hb : FVec Ideal S256x256 .bf16) = val_main_v65 (F := Ideal) x := rfl

theorem w_v76 (x : (⟨S256x256, .f32⟩ : BufTy).Contents (Elt Ideal)) (ht : S256x256.Transposes [1, 0] S256x256) (hb : FTy.bits .bf16 < FTy.bits .f32) :
    (truncf .bf16 (transpose S256x256 [1, 0] x ht) hb : FVec Ideal S256x256 .bf16) = val_main_v76 (F := Ideal) x := rfl

theorem w_v71 (x : (⟨S1x256, .f32⟩ : BufTy).Contents (Elt Ideal)) (ht : S1x256.Transposes [1, 0] S256x1) (hb : FTy.bits .bf16 < FTy.bits .f32) :
    (truncf .bf16 (transpose S256x1 [1, 0] x ht) hb : FVec Ideal S256x1 .bf16) = val_main_v71 (F := Ideal) x := rfl

theorem w_v83 (x : (⟨S64x256x256, .f32⟩ : BufTy).Contents (Elt Ideal)) (hs : S64x256x256.ShapeCasts S16384x256) (ht : S16384x256.Transposes [1, 0] S256x16384)
    (hb : FTy.bits .bf16 < FTy.bits .f32) :
    (truncf .bf16 (transpose S256x16384 [1, 0] (shapeCast S16384x256 x hs) ht) hb : FVec Ideal S256x16384 .bf16)
      = val_main_v83 (F := Ideal) x := rfl

/-! ## Biases: a reshape to one row against a broadcast to one row -/

theorem b_v61 (x : (⟨S256, .f32⟩ : BufTy).Contents (Elt Ideal)) (hs : S256.ShapeCasts S1x256) :
    shapeCast S1x256 x hs = val_main_v61 (F := Ideal) x := by
  funext i
  rw [val_main_v61_apply]
  refine shapeCast_apply x hs i (idx_main_v61 i) ?_
  rw [Shape.rowMajor_val_one, Shape.rowMajor_val_two]
  have h0 : (i 0).val < 1 := (i 0).isLt
  show ((idx_main_v61 i) 0).val = (i 0).val * 256 + (i 1).val
  show (i 1).val = (i 0).val * 256 + (i 1).val
  omega

theorem b_v67 (x : (⟨S256, .f32⟩ : BufTy).Contents (Elt Ideal)) (hs : S256.ShapeCasts S1x256) :
    shapeCast S1x256 x hs = val_main_v67 (F := Ideal) x := by
  funext i
  rw [val_main_v67_apply]
  refine shapeCast_apply x hs i (idx_main_v67 i) ?_
  rw [Shape.rowMajor_val_one, Shape.rowMajor_val_two]
  have h0 : (i 0).val < 1 := (i 0).isLt
  show ((idx_main_v67 i) 0).val = (i 0).val * 256 + (i 1).val
  show (i 1).val = (i 0).val * 256 + (i 1).val
  omega

theorem b_v78 (x : (⟨S256, .f32⟩ : BufTy).Contents (Elt Ideal)) (hs : S256.ShapeCasts S1x256) :
    shapeCast S1x256 x hs = val_main_v78 (F := Ideal) x := by
  funext i
  rw [val_main_v78_apply]
  refine shapeCast_apply x hs i (idx_main_v78 i) ?_
  rw [Shape.rowMajor_val_one, Shape.rowMajor_val_two]
  have h0 : (i 0).val < 1 := (i 0).isLt
  show ((idx_main_v78 i) 0).val = (i 0).val * 256 + (i 1).val
  show (i 1).val = (i 0).val * 256 + (i 1).val
  omega

theorem b_v73 (x : (⟨S1, .f32⟩ : BufTy).Contents (Elt Ideal)) (hs : S1.ShapeCasts S1x1) :
    shapeCast S1x1 x hs = val_main_v73 (F := Ideal) x := by
  funext i
  rw [val_main_v73_apply]
  refine shapeCast_apply x hs i (idx_main_v73 i) ?_
  rw [Shape.rowMajor_val_one, Shape.rowMajor_val_two]
  have h0 : (i 0).val < 1 := (i 0).isLt
  show ((idx_main_v73 i) 0).val = (i 0).val * 1 + (i 1).val
  show 0 = (i 0).val * 1 + (i 1).val
  have h1 : (i 1).val < 1 := (i 1).isLt
  omega

theorem b_v90 (x : (⟨S64, .f32⟩ : BufTy).Contents (Elt Ideal)) (hs : S64.ShapeCasts S1x64) :
    shapeCast S1x64 x hs = val_main_v90 (F := Ideal) x := by
  funext i
  rw [val_main_v90_apply]
  refine shapeCast_apply x hs i (idx_main_v90 i) ?_
  rw [Shape.rowMajor_val_one, Shape.rowMajor_val_two]
  have h0 : (i 0).val < 1 := (i 0).isLt
  show ((idx_main_v90 i) 0).val = (i 0).val * 64 + (i 1).val
  show (i 1).val = (i 0).val * 64 + (i 1).val
  omega

end Cert.Weights

end
-- ==== Proof.Bridge.lean ====
/-
  The two programs compute the same two arrays.  The kernel's program: x times the transposed convolution weight in
  the first pallas_call, the graph-convolution stage on the host, the three dense layers and the two heads in the
  second pallas_call, the two results cut out of its packed output.  The reference: the same product, its own
  arrangement of the graph-convolution stage, the same layers and heads as host operations.  The two arrangements of
  the graph convolution agree because the product's entries are real numbers when x and the convolution weight are
  finite (distributivity of multiplication over the sum along the edges); everything after it is the same function
  of the same arrays, the weights transposed and the biases laid out as rows in both.
-/
import proofs.«108546_j24326694764553_2_alg».proof.Defs
import proofs.«108546_j24326694764553_2_alg».proof.Proof.Gen.KernelIdeal
import proofs.«108546_j24326694764553_2_alg».proof.Proof.Gen.ReferenceIdeal
import proofs.«108546_j24326694764553_2_alg».proof.Proof.Gen.Pre_finite_inputs
import proofs.«108546_j24326694764553_2_alg».proof.Proof.Gen.ReferenceIdeal.Read
import proofs.«108546_j24326694764553_2_alg».proof.Proof.KValue
import proofs.«108546_j24326694764553_2_alg».proof.Proof.Glue3
import proofs.«108546_j24326694764553_2_alg».proof.Proof.Gcn
import proofs.«108546_j24326694764553_2_alg».proof.Proof.RefTail
import proofs.«108546_j24326694764553_2_alg».proof.Proof.RefGcn
import proofs.«108546_j24326694764553_2_alg».proof.Proof.Finite
import proofs.«108546_j24326694764553_2_alg».proof.Proof.Weights

set_option maxRecDepth 16384

noncomputable section

namespace Cert.Bridge

open Idealize.ShloMosaic Idealize.ShloMosaic.TcCoe Idealize.SL.Sem
open Cert.KernelIdeal.Gen Cert.KernelIdeal.Glue Cert.KernelIdeal.KValue
open Cert.ReferenceIdeal.Read Cert.ReferenceIdeal.RefValue

variable (m : (ℓ : Loc Cert.KernelIdeal.nD Cert.KernelIdeal.τ Cert.KernelIdeal.sig) → Buf (Elt Ideal) ℓ)
  (ρ : Dev Cert.KernelIdeal.nD → PrngReg)

/-- The product x · conv_wᵀ has real entries when x and conv_w are finite. -/
theorem xw_real (hpre : Cert.Pre_KernelIdeal (hPre_finite_inputs := Cert.Pre_finite_inputs.Gen.facts) m) (c : Dev Cert.KernelIdeal.nD) :
    ∀ i, ∃ r : ℝ, W2 m ρ c (Proc.devRef .tc Cert.KernelIdeal.main_v2) i = (r : EReal) := by
  rw [W2_v2 m ρ c]
  exact Cert.Finite.mm_real _ _ (Cert.Finite.arg0_real m hpre c)
    (fun i => Cert.Finite.arg2_real m hpre c (Cert.KernelIdeal.Gen.transposes_S256x256_S256x256_1_0.src i))

/-- The rows the second pallas_call reads are the reference's residual graph-convolution stage. -/
theorem rows_eq (hpre : Cert.Pre_KernelIdeal (hPre_finite_inputs := Cert.Pre_finite_inputs.Gen.facts) m) (c : Dev Cert.KernelIdeal.nD) :
    V5 m ρ c Cert.KernelIdeal.main_v43
      = val_main_v58 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by
  rw [V5_v43 m ρ c, Cert.Gcn.kH0_eq_rH0 _ _ _ _ (xw_real m ρ hpre c), W2_v2 m ρ c, Cert.RefGcn.ref_v58, Cert.RefGcn.ref_v5,
    ← Cert.RefGcn.w_v4 _ Cert.KernelIdeal.Gen.transposes_S256x256_S256x256_1_0 Cert.KernelIdeal.Gen.bitsLt_bf16_f32]

/-- The kernel program's first result is the reference's. -/
theorem res0_eq (hbody : Cert.KernelIdeal.Reg1.BodyIs)
    (hpre : Cert.Pre_KernelIdeal (hPre_finite_inputs := Cert.Pre_finite_inputs.Gen.facts) m) (c : Dev Cert.KernelIdeal.nD) :
    W7 m ρ c (Proc.devRef .tc Cert.KernelIdeal.main_v61)
      = val_main_v75 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
  rw [res_v61 m ρ hbody c, rows_eq m ρ hpre c, V5_v45, V5_v55, V5_v47, V5_v56, V5_v49, V5_v57,
    Cert.Weights.w_v59, Cert.Weights.b_v61, Cert.Weights.w_v65, Cert.Weights.b_v67, Cert.Weights.w_v71, Cert.Weights.b_v73]
  exact (ref_v75 _ _ _ _ _ _ _ _ _ _).symm

/-- The kernel program's second result is the reference's. -/
theorem res1_eq (hbody : Cert.KernelIdeal.Reg1.BodyIs)
    (hpre : Cert.Pre_KernelIdeal (hPre_finite_inputs := Cert.Pre_finite_inputs.Gen.facts) m) (c : Dev Cert.KernelIdeal.nD) :
    W7 m ρ c (Proc.devRef .tc Cert.KernelIdeal.main_v62)
      = val_main_v92 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) := by
  rw [res_v62 m ρ hbody c, rows_eq m ρ hpre c, V5_v45, V5_v55, V5_v51, V5_v58, V5_v54, V5_v59,
    Cert.Weights.w_v59, Cert.Weights.b_v61, Cert.Weights.w_v76, Cert.Weights.b_v78, Cert.Weights.w_v83, Cert.Weights.b_v90]
  exact (ref_v92 _ _ _ _ _ _ _ _ _ _).symm

end Cert.Bridge

end
-- ==== Proof.Claims.lean ====
/-
  The five claims.  The three frames: both pallas programs' generated frames, and the reference's generated run with
  its results dropped.  The ideal pass rewrote nothing, so the idealization claim is trivial.  The equivalence: the
  kernel program's run names its two results at the last boundary's contents, which are the reference's two stages of
  the same arguments (Bridge.lean); the reference's run names its results at those stages.
  What the second kernel's body leaves in its output block enters as the hypothesis hbody.
-/
import proofs.«108546_j24326694764553_2_alg».proof.Defs
import proofs.«108546_j24326694764553_2_alg».proof.Proof.Gen.Kernel
import proofs.«108546_j24326694764553_2_alg».proof.Proof.Gen.Kernel.Frame
import proofs.«108546_j24326694764553_2_alg».proof.Proof.Gen.KernelIdeal
import proofs.«108546_j24326694764553_2_alg».proof.Proof.Gen.KernelIdeal.Frame
import proofs.«108546_j24326694764553_2_alg».proof.Proof.Gen.ReferenceIdeal
import proofs.«108546_j24326694764553_2_alg».proof.Proof.Gen.Pre_finite_inputs
import proofs.«108546_j24326694764553_2_alg».proof.Proof.Gen.ReferenceIdeal.Run
import proofs.«108546_j24326694764553_2_alg».proof.Proof.Gen.ReferenceIdeal.Read
import proofs.«108546_j24326694764553_2_alg».proof.Proof.KRun
import proofs.«108546_j24326694764553_2_alg».proof.Proof.Bridge

set_option maxRecDepth 16384

noncomputable section

namespace Cert.Proof.Claims

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

theorem preserves : Cert.preserves_Kernel_KernelIdeal := trivial

/-- From memories agreeing on the arguments, both idealized programs run and end with the same two arrays. -/
theorem algebraic (hbody : Cert.KernelIdeal.Reg1.BodyIs) :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨fun c => Cert.KernelIdeal.Gen.W7 m ρ c (Proc.devRef .tc Cert.KernelIdeal.main_v61),
    fun c => Cert.KernelIdeal.Gen.W7 m ρ c (Proc.devRef .tc Cert.KernelIdeal.main_v62),
    Cert.KernelIdeal.KRun.run_results (F := Ideal) m ρ, ?_⟩
  refine (θ_run Cert.ReferenceIdeal.defs _ _).mono (fun _ h c => ⟨?_, ?_, (h c).2.2⟩)
    (Cert.ReferenceIdeal.Value.run (F := Ideal) m' ρ')
  · obtain ⟨a0, a1, a2, a3, a4, a5, a6, a7, a8, a9, a10, a11, a12, a13⟩ := hagree c
    rw [(h c).1, Cert.ReferenceIdeal.Read.val_main_v75_eq, a0, a1, a2, a3, a4, a5, a6, a7, a8, a9]
    exact (Cert.Bridge.res0_eq m ρ hbody hpre c).symm
  · obtain ⟨a0, a1, a2, a3, a4, a5, a6, a7, a8, a9, a10, a11, a12, a13⟩ := hagree c
    rw [(h c).2.1, Cert.ReferenceIdeal.Read.val_main_v92_eq, a0, a1, a2, a3, a4, a5, a10, a11, a12, a13]
    exact (Cert.Bridge.res1_eq m ρ hbody hpre c).symm

end Cert.Proof.Claims

end
-- ==== Proof.Body1.lean ====
import proofs.«108546_j24326694764553_2_alg».proof.Proof.Spec
import proofs.«108546_j24326694764553_2_alg».proof.Proof.Gen.KernelIdeal.Frame
import Idealize.ShloMosaic.Lib.Pipeline.Value
import Idealize.ShloMosaic.Lib.ValueLayout
import Idealize.ShloMosaic.PureOps.Ideal.Laws

/-
  The value, index by index at the extended reals, of the [1000, 128] block that the fused body "three dense layers,
  scalar head and bilinear head" leaves in its output window.

  Reading order. (1) A matrix product into a zero accumulator read at (p, j) is the sum over the 256 contracted
  coordinates; a lane sum, a column cast and the row / column broadcasts read at an index; the lane counter compared
  with a lane number r, widened and read as a number, is 1 on lane r and 0 elsewhere; a three-piece concatenation
  along the columns reads the piece its column falls in; a 256-column slab of the [256, 16384] weight is the weight
  at column 256 r + j. (2) Each named intermediate value of the body read at an index, as sums and products of its
  operands at indices: every step of the unrolled loop adds  (sum_j (sum_k h[p,k] W_r[k,j]) h[p,j]) * [q = r]  to the
  accumulator it is handed. (3) The hidden layers and the scalar head are the specification's; sixty-four one-hot
  additions leave, on lane q, exactly the q-th bilinear form; with the bias row and the packing by column range the
  block is the specification's packed array.
-/

set_option maxRecDepth 16384

noncomputable section

open scoped BigOperators

namespace Cert.KernelIdeal.Body1

open Idealize.ShloMosaic Idealize.ShloMosaic.ValueIdx Cert.KernelIdeal Cert.KernelIdeal.Gen

/-! ### The matrix product : operand indices of the dot, coordinate by coordinate -/

theorem lhs0 (i : S1000x256.Idx) (q : dot_S1000x256_S256x256_S1000x256_1_0_0_1_n_n.contr.Idx) : (dot_S1000x256_S256x256_S1000x256_1_0_0_1_n_n.lhsIdx i q 0).val = (i 0).val := by
  unfold DotDims.lhsIdx
  rw [dif_neg (show ¬(0 : Fin S1000x256.rank) ∈ dot_S1000x256_S256x256_S1000x256_1_0_0_1_n_n.lhsBatch by decide), dif_pos (show (0 : Fin S1000x256.rank) ∈ dot_S1000x256_S256x256_S1000x256_1_0_0_1_n_n.lhsNonContracting by decide)]
  rfl
theorem lhs1 (i : S1000x256.Idx) (q : dot_S1000x256_S256x256_S1000x256_1_0_0_1_n_n.contr.Idx) : (dot_S1000x256_S256x256_S1000x256_1_0_0_1_n_n.lhsIdx i q 1).val = (q ⟨0, by decide⟩).val :=
  dot_S1000x256_S256x256_S1000x256_1_0_0_1_n_n.lhsIdx_val_of_single rfl i q
theorem rhs0 (i : S1000x256.Idx) (q : dot_S1000x256_S256x256_S1000x256_1_0_0_1_n_n.contr.Idx) : (dot_S1000x256_S256x256_S1000x256_1_0_0_1_n_n.rhsIdx i q 0).val = (q ⟨0, by decide⟩).val :=
  dot_S1000x256_S256x256_S1000x256_1_0_0_1_n_n.rhsIdx_val_of_single rfl i q
theorem rhs1 (i : S1000x256.Idx) (q : dot_S1000x256_S256x256_S1000x256_1_0_0_1_n_n.contr.Idx) : (dot_S1000x256_S256x256_S1000x256_1_0_0_1_n_n.rhsIdx i q 1).val = (i 1).val := by
  unfold DotDims.rhsIdx
  rw [dif_neg (show ¬(1 : Fin S256x256.rank) ∈ dot_S1000x256_S256x256_S1000x256_1_0_0_1_n_n.rhsBatch by decide), dif_pos (show (1 : Fin S256x256.rank) ∈ dot_S1000x256_S256x256_S1000x256_1_0_0_1_n_n.rhsNonContracting by decide)]
  rfl

/-- The product read at (p, j): the accumulator there plus the sum over the 256 contracted coordinates. -/
theorem mm_apply (a : FVec Ideal S1000x256 .bf16) (w : FVec Ideal S256x256 .bf16) (acc : FVec Ideal S1000x256 .f32)
    (p : Fin 1000) (j : Fin 256) :
    matmul dot_S1000x256_S256x256_S1000x256_1_0_0_1_n_n none a w acc (ix2 p j) = acc (ix2 p j) + ∑ k : Fin 256, a (ix2 p k) * w (ix2 k j) := by
  show FloatOps.matmul dot_S1000x256_S256x256_S1000x256_1_0_0_1_n_n none a w acc (ix2 p j) = _
  rw [Ideal.matmul_apply, ← Equiv.sum_comp (contrEquiv1 dot_S1000x256_S256x256_S1000x256_1_0_0_1_n_n 256 rfl rfl).symm]
  refine congrArg (acc (ix2 p j) + ·) (Finset.sum_congr rfl fun k _ => ?_)
  have hk := contrEquiv1_symm_val dot_S1000x256_S256x256_S1000x256_1_0_0_1_n_n 256 rfl rfl k
  have el : dot_S1000x256_S256x256_S1000x256_1_0_0_1_n_n.lhsIdx (ix2 p j) ((contrEquiv1 dot_S1000x256_S256x256_S1000x256_1_0_0_1_n_n 256 rfl rfl).symm k) = ix2 p k := funext fun c => Fin.ext (by
    match c with
    | ⟨0, _⟩ => exact lhs0 _ _
    | ⟨1, _⟩ => exact (lhs1 _ _).trans hk)
  have er : dot_S1000x256_S256x256_S1000x256_1_0_0_1_n_n.rhsIdx (ix2 p j) ((contrEquiv1 dot_S1000x256_S256x256_S1000x256_1_0_0_1_n_n 256 rfl rfl).symm k) = ix2 k j := funext fun c => Fin.ext (by
    match c with
    | ⟨0, _⟩ => exact (rhs0 _ _).trans hk
    | ⟨1, _⟩ => exact rhs1 _ _)
  rw [el, er]

/-! ### The matrix product ': operand indices of the dot, coordinate by coordinate -/

theorem lhs0' (i : S1000x1.Idx) (q : dot_S1000x256_S256x1_S1000x1_1_0_0_1_n_n.contr.Idx) : (dot_S1000x256_S256x1_S1000x1_1_0_0_1_n_n.lhsIdx i q 0).val = (i 0).val := by
  unfold DotDims.lhsIdx
  rw [dif_neg (show ¬(0 : Fin S1000x256.rank) ∈ dot_S1000x256_S256x1_S1000x1_1_0_0_1_n_n.lhsBatch by decide), dif_pos (show (0 : Fin S1000x256.rank) ∈ dot_S1000x256_S256x1_S1000x1_1_0_0_1_n_n.lhsNonContracting by decide)]
  rfl
theorem lhs1' (i : S1000x1.Idx) (q : dot_S1000x256_S256x1_S1000x1_1_0_0_1_n_n.contr.Idx) : (dot_S1000x256_S256x1_S1000x1_1_0_0_1_n_n.lhsIdx i q 1).val = (q ⟨0, by decide⟩).val :=
  dot_S1000x256_S256x1_S1000x1_1_0_0_1_n_n.lhsIdx_val_of_single rfl i q
theorem rhs0' (i : S1000x1.Idx) (q : dot_S1000x256_S256x1_S1000x1_1_0_0_1_n_n.contr.Idx) : (dot_S1000x256_S256x1_S1000x1_1_0_0_1_n_n.rhsIdx i q 0).val = (q ⟨0, by decide⟩).val :=
  dot_S1000x256_S256x1_S1000x1_1_0_0_1_n_n.rhsIdx_val_of_single rfl i q
theorem rhs1' (i : S1000x1.Idx) (q : dot_S1000x256_S256x1_S1000x1_1_0_0_1_n_n.contr.Idx) : (dot_S1000x256_S256x1_S1000x1_1_0_0_1_n_n.rhsIdx i q 1).val = (i 1).val := by
  unfold DotDims.rhsIdx
  rw [dif_neg (show ¬(1 : Fin S256x1.rank) ∈ dot_S1000x256_S256x1_S1000x1_1_0_0_1_n_n.rhsBatch by decide), dif_pos (show (1 : Fin S256x1.rank) ∈ dot_S1000x256_S256x1_S1000x1_1_0_0_1_n_n.rhsNonContracting by decide)]
  rfl

/-- The product read at (p, j): the accumulator there plus the sum over the 256 contracted coordinates. -/
theorem mm_apply' (a : FVec Ideal S1000x256 .bf16) (w : FVec Ideal S256x1 .bf16) (acc : FVec Ideal S1000x1 .f32)
    (p : Fin 1000) (j : Fin 1) :
    matmul dot_S1000x256_S256x1_S1000x1_1_0_0_1_n_n none a w acc (ix2 p j) = acc (ix2 p j) + ∑ k : Fin 256, a (ix2 p k) * w (ix2 k j) := by
  show FloatOps.matmul dot_S1000x256_S256x1_S1000x1_1_0_0_1_n_n none a w acc (ix2 p j) = _
  rw [Ideal.matmul_apply, ← Equiv.sum_comp (contrEquiv1 dot_S1000x256_S256x1_S1000x1_1_0_0_1_n_n 256 rfl rfl).symm]
  refine congrArg (acc (ix2 p j) + ·) (Finset.sum_congr rfl fun k _ => ?_)
  have hk := contrEquiv1_symm_val dot_S1000x256_S256x1_S1000x1_1_0_0_1_n_n 256 rfl rfl k
  have el : dot_S1000x256_S256x1_S1000x1_1_0_0_1_n_n.lhsIdx (ix2 p j) ((contrEquiv1 dot_S1000x256_S256x1_S1000x1_1_0_0_1_n_n 256 rfl rfl).symm k) = ix2 p k := funext fun c => Fin.ext (by
    match c with
    | ⟨0, _⟩ => exact lhs0' _ _
    | ⟨1, _⟩ => exact (lhs1' _ _).trans hk)
  have er : dot_S1000x256_S256x1_S1000x1_1_0_0_1_n_n.rhsIdx (ix2 p j) ((contrEquiv1 dot_S1000x256_S256x1_S1000x1_1_0_0_1_n_n 256 rfl rfl).symm k) = ix2 k j := funext fun c => Fin.ext (by
    match c with
    | ⟨0, _⟩ => exact (rhs0' _ _).trans hk
    | ⟨1, _⟩ => exact rhs1' _ _)
  rw [el, er]

/-! ### The lane sum, the column cast and the broadcasts -/

/-- The sum over axis 1 of a [1000, 256] array read at p. -/
theorem red_apply (v : FVec Ideal S1000x256 .f32) (h : S1000x256.Reduces [1] S1000) (hφ : FKind.Formats .f32)
    (hacc : (0x00000000#32 : BitVec 32) = 0x00000000#32) (p : Fin 1000) :
    multiReduction (F := Ideal) .add [1] S1000 v 0x00000000#32 h hφ hacc (ix1 p) = ∑ j : Fin 256, v (ix2 p j) := by
  refine (Ideal.multiReduction_add_single v 0x00000000#32 h hφ hacc (ix1 p)).trans ?_
  refine Finset.sum_congr rfl fun k _ => congrArg v (funext fun c => Fin.ext ?_)
  rw [h.lift_val]; unfold Shape.Reduces.liftVal
  match c with
  | ⟨0, _⟩ => simp
  | ⟨1, _⟩ => simp

/-- A [1000] array cast to a [1000, 1] column reads, at (p, u), the entry p. -/
theorem col_apply (v : FVec Ideal S1000 .f32) (h : S1000.ShapeCasts S1000x1) (p : Fin 1000) (u : Fin 1) :
    shapeCast S1000x1 v h (ix2 p u) = v (ix1 p) :=
  shapeCast_apply v h _ _ (by
    have hu : u.val = 0 := by omega
    rw [Shape.rowMajor_val_two, Shape.rowMajor_val_one]
    show p.val = p.val * 1 + u.val
    omega)

/-- A [1000, 1] column broadcast along 64 lanes reads, at (p, q), the column's entry p. -/
theorem bcol_apply (v : FVec Ideal S1000x1 .f32) (h : S1000x1.Broadcasts S1000x64) (p : Fin 1000) (q : Fin 64) :
    broadcastTo S1000x64 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- A [1, 64] row broadcast over 1000 rows reads, at (p, q), the row's entry q. -/
theorem brow64_apply {α : Type} (v : S1x64.Idx → α) (h : S1x64.Broadcasts S1000x64) (p : Fin 1000) (q : Fin 64) :
    broadcastTo S1000x64 v h (ix2 p q) = v (ix2 (0 : Fin 1) q) := broadcastTo_1b_ab_apply v h p q
/-- A [1, 256] row broadcast over 1000 rows. -/
theorem brow256_apply {α : Type} (v : S1x256.Idx → α) (h : S1x256.Broadcasts S1000x256) (p : Fin 1000) (q : Fin 256) :
    broadcastTo S1000x256 v h (ix2 p q) = v (ix2 (0 : Fin 1) q) := broadcastTo_1b_ab_apply v h p q
/-- A [1, 1] entry broadcast over 1000 rows. -/
theorem brow1_apply {α : Type} (v : S1x1.Idx → α) (h : S1x1.Broadcasts S1000x1) (p : Fin 1000) (q : Fin 1) :
    broadcastTo S1000x1 v h (ix2 p q) = v (ix2 (0 : Fin 1) q) := broadcastTo_1b_ab_apply v h p q

/-! ### Zero constants -/

theorem zero_scalar : (Scalar.ofBits .f32 0x00000000#32 : Ideal .f32) = 0 := Ideal.ofBits_zero_f32
theorem zero_const (s : Shape) (i : s.Idx) : constant (F := Ideal) s .f32 0x00000000#32 i = 0 := Ideal.ofBits_zero_f32

/-! ### Words: the lane counter, the comparison with a lane number, and the one-hot row -/

/-- The lane counter read at (u, q) is the word of q. -/
theorem iota_apply (h : S1x64.Iotas .tc 32 [1]) (u : Fin 1) (q : Fin 64) :
    iota .tc S1x64 32 [1] h (ix2 u q) = BitVec.ofNat 32 q.val :=
  iota_single_apply .tc S1x64 32 1 h (ix2 u q)

/-- A comparison of word vectors is lanewise. -/
theorem cmpi_apply (a b : IVec S1x64 32) (i : S1x64.Idx) : cmpi .eq a b i = IntOp.cmpi .eq (a i) (b i) := rfl

/-- The word of lane q (below 64) equals the word of r exactly when q is r modulo 2^32. -/
theorem cmpi_lane (q : Fin 64) (r : ℕ) :
    (IntOp.cmpi .eq (BitVec.ofNat 32 q.val) (BitVec.ofNat 32 r) = 1#1) = (q.val = r % 4294967296) := by
  have hq : q.val < 2 ^ 32 := by have := q.isLt; omega
  have key : (BitVec.ofNat 32 q.val = BitVec.ofNat 32 r) ↔ q.val = r % 4294967296 := by
    constructor
    · intro he
      have h2 := congrArg BitVec.toNat he
      simp only [BitVec.toNat_ofNat] at h2
      rw [Nat.mod_eq_of_lt hq] at h2
      exact h2
    · intro h
      apply BitVec.eq_of_toNat_eq
      simp only [BitVec.toNat_ofNat]
      rw [Nat.mod_eq_of_lt hq]; exact h
  apply propext
  show (BitVec.ofBool (BitVec.ofNat 32 q.val == BitVec.ofNat 32 r) = 1#1) ↔ _
  rw [← key]
  by_cases he : BitVec.ofNat 32 q.val = BitVec.ofNat 32 r
  · simp [he]
  · have hb : (BitVec.ofNat 32 q.val == BitVec.ofNat 32 r) = false := beq_eq_false_iff_ne.mpr he
    rw [hb]
    exact iff_of_false (by decide) he

/-- A bit widened to a word and read as a signed number is 1 or 0. -/
theorem bit_cast (b : BitVec 1) : ((((b.setWidth 32).toInt : ℤ) : ℝ) : EReal) = if b = 1#1 then 1 else 0 := by
  rcases BitVec.eq_zero_or_eq_one b with h | h
  · rw [h]; simp
  · rw [h]; simp

/-- Widening is lanewise; the signed reading is lanewise. -/
theorem sitofp_apply' (x : IVec S1x64 32) (i : S1x64.Idx) : sitofp (F := Ideal) .f32 x i = ((((x i).toInt : ℤ) : ℝ) : EReal) := rfl

/-! ### The packed block: three pieces side by side -/

theorem concat_apply (a : FVec Ideal S1000x1 .f32) (b : FVec Ideal S1000x63 .f32) (c : FVec Ideal S1000x64 .f32)
    (h : Shape.Concatenates [S1000x1, S1000x63, S1000x64] S1000x128 1) (p : Fin 1000) (q : Fin 128) :
    concatenate S1000x128 1 [⟨S1000x1, a⟩, ⟨S1000x63, b⟩, ⟨S1000x64, c⟩] h (ix2 p q)
      = if h0 : q.val = 0 then a (ix2 p (0 : Fin 1))
        else if h1 : q.val < 64 then b (ix2 p ⟨q.val - 1, by omega⟩)
        else c (ix2 p ⟨q.val - 64, by have := q.isLt; omega⟩) := by
  by_cases h0 : q.val = 0
  · rw [dif_pos h0]
    refine concatenate_apply_piece 1 ([⟨S1000x1, a⟩, ⟨S1000x63, b⟩, ⟨S1000x64, c⟩] : List ((s : Shape) × (s.Idx → Ideal .f32))) h (ix2 p q) 0 (show 0 < 3 by omega) S1000x1 a rfl rfl 0 rfl (ix2 p (0 : Fin 1)) (fun b hb => ?_) ?_
    · match b with
      | ⟨0, _⟩ => rfl
      | ⟨1, _⟩ => exact absurd rfl hb
    · show 0 + 0 = q.val; omega
  · rw [dif_neg h0]
    by_cases h1 : q.val < 64
    · rw [dif_pos h1]
      refine concatenate_apply_piece 1 ([⟨S1000x1, a⟩, ⟨S1000x63, b⟩, ⟨S1000x64, c⟩] : List ((s : Shape) × (s.Idx → Ideal .f32))) h (ix2 p q) 1 (show 1 < 3 by omega) S1000x63 b rfl rfl 1 rfl (ix2 p ⟨q.val - 1, by omega⟩) (fun b hb => ?_) ?_
      · match b with
        | ⟨0, _⟩ => rfl
        | ⟨1, _⟩ => exact absurd rfl hb
      · show 1 + (q.val - 1) = q.val; omega
    · rw [dif_neg h1]
      refine concatenate_apply_piece 1 ([⟨S1000x1, a⟩, ⟨S1000x63, b⟩, ⟨S1000x64, c⟩] : List ((s : Shape) × (s.Idx → Ideal .f32))) h (ix2 p q) 2 (show 2 < 3 by omega) S1000x64 c rfl rfl 64 rfl (ix2 p ⟨q.val - 64, by have := q.isLt; omega⟩) (fun b hb => ?_) ?_
      · match b with
        | ⟨0, _⟩ => rfl
        | ⟨1, _⟩ => exact absurd rfl hb
      · show 64 + (q.val - 64) = q.val; omega

/-! ### A 256-column slab of the [256, 16384] weight -/

theorem slab_apply (x9 : Vec Ideal S256x16384 .bf16) (o : ℕ) (ho : o + 256 ≤ 16384)
    (inb : ∀ a, (![0, o] : Fin 2 → ℕ) a + S256x256.size a ≤ S256x16384.size a) (k j : Fin 256) :
    View.ld x9 (Rect.unit (s := S256x16384) ![0, o] S256x256.size inb) (ix2 k j)
      = x9 (ix2 k ⟨o + j.val, by have := j.isLt; omega⟩) := by
  show x9 _ = x9 _
  refine congrArg x9 (funext fun a => Fin.ext ?_)
  match a with
  | ⟨0, _⟩ => show 0 + 1 * k.val = k.val; omega
  | ⟨1, _⟩ => show o + 1 * j.val = o + j.val; omega

/-! ### The payloads read at an index -/

theorem pay2_apply (v0 : Vec Ideal S1000x256 .f32) (v3 : Vec Ideal S256x256 .bf16) (v6 : Vec Ideal S1x256 .f32) (p : Fin 1000) (q : Fin 256) :
    k1_pay2 (F := Ideal) v0 v3 v6 (ix2 p q) = max ((∑ k1 : Fin 256, (v0 (ix2 p k1)) * (v3 (ix2 k1 q))) + (v6 (ix2 (0 : Fin 1) q))) 0 := by
  unfold k1_pay2
  (simp (config := { index := false }) only [mulf_apply, addf_apply, maximumf_apply, truncf_apply, broadcast_apply, extui_apply, sitofp_apply', bit_cast, cmpi_apply, cmpi_lane, Nat.reduceMod, iota_apply, brow64_apply, brow256_apply, brow1_apply, bcol_apply, col_apply, red_apply, mm_apply, mm_apply', shapeCast_self, zero_scalar, zero_const, zero_add]) <;> rfl

theorem pay3_apply (v0 : Vec Ideal S1000x256 .f32) (v3 : Vec Ideal S256x256 .bf16) (v6 : Vec Ideal S1x256 .f32) (v13 : Vec Ideal S256x256 .bf16) (v16 : Vec Ideal S1x256 .f32) (v23 : Vec Ideal S256x1 .bf16) (v26 : Vec Ideal S1x1 .f32) (p : Fin 1000) (q : Fin 1) :
    k1_pay3 (F := Ideal) v0 v3 v6 v13 v16 v23 v26 (ix2 p q) = (∑ k1 : Fin 256, (max ((∑ k2 : Fin 256, (k1_pay2 v0 v3 v6 (ix2 p k2)) * (v13 (ix2 k2 k1))) + (v16 (ix2 (0 : Fin 1) k1))) 0) * (v23 (ix2 k1 q))) + (v26 (ix2 (0 : Fin 1) q)) := by
  unfold k1_pay3
  (simp (config := { index := false }) only [mulf_apply, addf_apply, maximumf_apply, truncf_apply, broadcast_apply, extui_apply, sitofp_apply', bit_cast, cmpi_apply, cmpi_lane, Nat.reduceMod, iota_apply, brow64_apply, brow256_apply, brow1_apply, bcol_apply, col_apply, red_apply, mm_apply, mm_apply', shapeCast_self, zero_scalar, zero_const, zero_add]) <;> rfl

theorem pay4_apply (v0 : Vec Ideal S1000x256 .f32) (v3 : Vec Ideal S256x256 .bf16) (v6 : Vec Ideal S1x256 .f32) (v30 : Vec Ideal S256x256 .bf16) (p : Fin 1000) (q : Fin 256) :
    k1_pay4 (F := Ideal) v0 v3 v6 v30 (ix2 p q) = ∑ k1 : Fin 256, (k1_pay2 v0 v3 v6 (ix2 p k1)) * (v30 (ix2 k1 q)) := by
  unfold k1_pay4
  (simp (config := { index := false }) only [mulf_apply, addf_apply, maximumf_apply, truncf_apply, broadcast_apply, extui_apply, sitofp_apply', bit_cast, cmpi_apply, cmpi_lane, Nat.reduceMod, iota_apply, brow64_apply, brow256_apply, brow1_apply, bcol_apply, col_apply, red_apply, mm_apply, mm_apply', shapeCast_self, zero_scalar, zero_const, zero_add]) <;> rfl

theorem pay5_apply (v33 : Vec Ideal S1x256 .f32) (u : Fin 1) (q : Fin 256) :
    k1_pay5 (F := Ideal) v33 (ix2 u q) = v33 (ix2 u q) := by
  unfold k1_pay5
  exact congrFun (shapeCast_self _ _) _

theorem pay6_apply (v32 : FVec Ideal S1000x256 .f32) (v34 : FVec Ideal S1x256 .f32) (p : Fin 1000) (q : Fin 256) :
    k1_pay6 (F := Ideal) v32 v34 (ix2 p q) = max ((v32 (ix2 p q)) + (v34 (ix2 (0 : Fin 1) q))) 0 := by
  unfold k1_pay6
  (simp (config := { index := false }) only [mulf_apply, addf_apply, maximumf_apply, truncf_apply, broadcast_apply, extui_apply, sitofp_apply', bit_cast, cmpi_apply, cmpi_lane, Nat.reduceMod, iota_apply, brow64_apply, brow256_apply, brow1_apply, bcol_apply, col_apply, red_apply, mm_apply, mm_apply', shapeCast_self, zero_scalar, zero_const, zero_add]) <;> rfl

theorem pay7_apply (v32 : FVec Ideal S1000x256 .f32) (v34 : FVec Ideal S1x256 .f32) (p : Fin 1000) (q : Fin 256) :
    k1_pay7 (F := Ideal) v32 v34 (ix2 p q) = k1_pay6 v32 v34 (ix2 p q) := by
  unfold k1_pay7
  (simp (config := { index := false }) only [mulf_apply, addf_apply, maximumf_apply, truncf_apply, broadcast_apply, extui_apply, sitofp_apply', bit_cast, cmpi_apply, cmpi_lane, Nat.reduceMod, iota_apply, brow64_apply, brow256_apply, brow1_apply, bcol_apply, col_apply, red_apply, mm_apply, mm_apply', shapeCast_self, zero_scalar, zero_const, zero_add]) <;> rfl

theorem pay8_apply (v32 : FVec Ideal S1000x256 .f32) (v34 : FVec Ideal S1x256 .f32) (v42 : Vec Ideal S256x256 .bf16) (v56 : Vec Ideal S256x256 .bf16) (p : Fin 1000) (q : Fin 64) :
    k1_pay8 (F := Ideal) v32 v34 v42 v56 (ix2 p q) = ((∑ j1 : Fin 256, ((∑ k2 : Fin 256, (k1_pay7 v32 v34 (ix2 p k2)) * (v42 (ix2 k2 j1))) * (k1_pay6 v32 v34 (ix2 p j1)))) * (if q.val = 0 then (1 : EReal) else 0)) + ((∑ j3 : Fin 256, ((∑ k4 : Fin 256, (k1_pay7 v32 v34 (ix2 p k4)) * (v56 (ix2 k4 j3))) * (k1_pay6 v32 v34 (ix2 p j3)))) * (if q.val = 1 then (1 : EReal) else 0)) := by
  unfold k1_pay8
  (simp (config := { index := false }) only [mulf_apply, addf_apply, maximumf_apply, truncf_apply, broadcast_apply, extui_apply, sitofp_apply', bit_cast, cmpi_apply, cmpi_lane, Nat.reduceMod, iota_apply, brow64_apply, brow256_apply, brow1_apply, bcol_apply, col_apply, red_apply, mm_apply, mm_apply', shapeCast_self, zero_scalar, zero_const, zero_add]) <;> rfl

theorem pay9_apply (v32 : FVec Ideal S1000x256 .f32) (v34 : FVec Ideal S1x256 .f32) (v70 : Vec Ideal S256x256 .bf16) (p : Fin 1000) (q : Fin 1) :
    k1_pay9 (F := Ideal) v32 v34 v70 (ix2 p q) = ∑ j1 : Fin 256, ((∑ k2 : Fin 256, (k1_pay7 v32 v34 (ix2 p k2)) * (v70 (ix2 k2 j1))) * (k1_pay6 v32 v34 (ix2 p j1))) := by
  unfold k1_pay9
  (simp (config := { index := false }) only [mulf_apply, addf_apply, maximumf_apply, truncf_apply, broadcast_apply, extui_apply, sitofp_apply', bit_cast, cmpi_apply, cmpi_lane, Nat.reduceMod, iota_apply, brow64_apply, brow256_apply, brow1_apply, bcol_apply, col_apply, red_apply, mm_apply, mm_apply', shapeCast_self, zero_scalar, zero_const, zero_add]) <;> rfl

theorem pay10_apply  (u : Fin 1) (q : Fin 64) :
    k1_pay10 (ix2 u q) = IntOp.cmpi .eq (BitVec.ofNat 32 q.val) (2#32) := by
  unfold k1_pay10
  (simp (config := { index := false }) only [mulf_apply, addf_apply, maximumf_apply, truncf_apply, broadcast_apply, extui_apply, sitofp_apply', bit_cast, cmpi_apply, cmpi_lane, Nat.reduceMod, iota_apply, brow64_apply, brow256_apply, brow1_apply, bcol_apply, col_apply, red_apply, mm_apply, mm_apply', shapeCast_self, zero_scalar, zero_const, zero_add]) <;> rfl

theorem pay11_apply (v38 : FVec Ideal S1000x256 .f32) (v39 : FVec Ideal S1000x256 .bf16) (v40 : IVec S1x64 32) (v69 : FVec Ideal S1000x64 .f32) (v75 : FVec Ideal S1000x1 .f32) (v77 : IVec S1x64 1) (v84 : Vec Ideal S256x256 .bf16) (v98 : Vec Ideal S256x256 .bf16) (p : Fin 1000) (q : Fin 64) :
    k1_pay11 (F := Ideal) v38 v39 v40 v69 v75 v77 v84 v98 (ix2 p q) = (((v69 (ix2 p q)) + ((v75 (ix2 p (0 : Fin 1))) * (if v77 (ix2 (0 : Fin 1) q) = 1#1 then (1 : EReal) else 0))) + ((∑ j1 : Fin 256, ((∑ k2 : Fin 256, (v39 (ix2 p k2)) * (v84 (ix2 k2 j1))) * (v38 (ix2 p j1)))) * (if IntOp.cmpi .eq (v40 (ix2 (0 : Fin 1) q)) (3#32) = 1#1 then (1 : EReal) else 0))) + ((∑ j3 : Fin 256, ((∑ k4 : Fin 256, (v39 (ix2 p k4)) * (v98 (ix2 k4 j3))) * (v38 (ix2 p j3)))) * (if IntOp.cmpi .eq (v40 (ix2 (0 : Fin 1) q)) (4#32) = 1#1 then (1 : EReal) else 0)) := by
  unfold k1_pay11
  (simp (config := { index := false }) only [mulf_apply, addf_apply, maximumf_apply, truncf_apply, broadcast_apply, extui_apply, sitofp_apply', bit_cast, cmpi_apply, cmpi_lane, Nat.reduceMod, iota_apply, brow64_apply, brow256_apply, brow1_apply, bcol_apply, col_apply, red_apply, mm_apply, mm_apply', shapeCast_self, zero_scalar, zero_const, zero_add]) <;> rfl

theorem pay12_apply (v40 : IVec S1x64 32) (u : Fin 1) (q : Fin 64) :
    k1_pay12 (F := Ideal) v40 (ix2 u q) = if IntOp.cmpi .eq (v40 (ix2 u q)) (5#32) = 1#1 then (1 : EReal) else 0 := by
  unfold k1_pay12
  (simp (config := { index := false }) only [mulf_apply, addf_apply, maximumf_apply, truncf_apply, broadcast_apply, extui_apply, sitofp_apply', bit_cast, cmpi_apply, cmpi_lane, Nat.reduceMod, iota_apply, brow64_apply, brow256_apply, brow1_apply, bcol_apply, col_apply, red_apply, mm_apply, mm_apply', shapeCast_self, zero_scalar, zero_const, zero_add]) <;> rfl

theorem pay13_apply (v38 : FVec Ideal S1000x256 .f32) (v39 : FVec Ideal S1000x256 .bf16) (v112 : Vec Ideal S256x256 .bf16) (p : Fin 1000) (q : Fin 64) :
    k1_pay13 (F := Ideal) v38 v39 v112 (ix2 p q) = ∑ j1 : Fin 256, ((∑ k2 : Fin 256, (v39 (ix2 p k2)) * (v112 (ix2 k2 j1))) * (v38 (ix2 p j1))) := by
  unfold k1_pay13
  (simp (config := { index := false }) only [mulf_apply, addf_apply, maximumf_apply, truncf_apply, broadcast_apply, extui_apply, sitofp_apply', bit_cast, cmpi_apply, cmpi_lane, Nat.reduceMod, iota_apply, brow64_apply, brow256_apply, brow1_apply, bcol_apply, col_apply, red_apply, mm_apply, mm_apply', shapeCast_self, zero_scalar, zero_const, zero_add]) <;> rfl

theorem pay14_apply (v38 : FVec Ideal S1000x256 .f32) (v39 : FVec Ideal S1000x256 .bf16) (v40 : IVec S1x64 32) (v111 : FVec Ideal S1000x64 .f32) (v121 : FVec Ideal S1x64 .f32) (v122 : FVec Ideal S1000x64 .f32) (v126 : Vec Ideal S256x256 .bf16) (v140 : Vec Ideal S256x256 .bf16) (v154 : Vec Ideal S256x256 .bf16) (p : Fin 1000) (q : Fin 64) :
    k1_pay14 (F := Ideal) v38 v39 v40 v111 v121 v122 v126 v140 v154 (ix2 p q) = ((((v111 (ix2 p q)) + ((v122 (ix2 p q)) * (v121 (ix2 (0 : Fin 1) q)))) + ((∑ j1 : Fin 256, ((∑ k2 : Fin 256, (v39 (ix2 p k2)) * (v126 (ix2 k2 j1))) * (v38 (ix2 p j1)))) * (if IntOp.cmpi .eq (v40 (ix2 (0 : Fin 1) q)) (6#32) = 1#1 then (1 : EReal) else 0))) + ((∑ j3 : Fin 256, ((∑ k4 : Fin 256, (v39 (ix2 p k4)) * (v140 (ix2 k4 j3))) * (v38 (ix2 p j3)))) * (if IntOp.cmpi .eq (v40 (ix2 (0 : Fin 1) q)) (7#32) = 1#1 then (1 : EReal) else 0))) + ((∑ j5 : Fin 256, ((∑ k6 : Fin 256, (v39 (ix2 p k6)) * (v154 (ix2 k6 j5))) * (v38 (ix2 p j5)))) * (if IntOp.cmpi .eq (v40 (ix2 (0 : Fin 1) q)) (8#32) = 1#1 then (1 : EReal) else 0)) := by
  unfold k1_pay14
  (simp (config := { index := false }) only [mulf_apply, addf_apply, maximumf_apply, truncf_apply, broadcast_apply, extui_apply, sitofp_apply', bit_cast, cmpi_apply, cmpi_lane, Nat.reduceMod, iota_apply, brow64_apply, brow256_apply, brow1_apply, bcol_apply, col_apply, red_apply, mm_apply, mm_apply', shapeCast_self, zero_scalar, zero_const, zero_add]) <;> rfl

theorem pay15_apply (v38 : FVec Ideal S1000x256 .f32) (v39 : FVec Ideal S1000x256 .bf16) (v40 : IVec S1x64 32) (v167 : FVec Ideal S1000x64 .f32) (v168 : Vec Ideal S256x256 .bf16) (v182 : Vec Ideal S256x256 .bf16) (v196 : Vec Ideal S256x256 .bf16) (p : Fin 1000) (q : Fin 64) :
    k1_pay15 (F := Ideal) v38 v39 v40 v167 v168 v182 v196 (ix2 p q) = (((v167 (ix2 p q)) + ((∑ j1 : Fin 256, ((∑ k2 : Fin 256, (v39 (ix2 p k2)) * (v168 (ix2 k2 j1))) * (v38 (ix2 p j1)))) * (if IntOp.cmpi .eq (v40 (ix2 (0 : Fin 1) q)) (9#32) = 1#1 then (1 : EReal) else 0))) + ((∑ j3 : Fin 256, ((∑ k4 : Fin 256, (v39 (ix2 p k4)) * (v182 (ix2 k4 j3))) * (v38 (ix2 p j3)))) * (if IntOp.cmpi .eq (v40 (ix2 (0 : Fin 1) q)) (10#32) = 1#1 then (1 : EReal) else 0))) + ((∑ j5 : Fin 256, ((∑ k6 : Fin 256, (v39 (ix2 p k6)) * (v196 (ix2 k6 j5))) * (v38 (ix2 p j5)))) * (if IntOp.cmpi .eq (v40 (ix2 (0 : Fin 1) q)) (11#32) = 1#1 then (1 : EReal) else 0)) := by
  unfold k1_pay15
  (simp (config := { index := false }) only [mulf_apply, addf_apply, maximumf_apply, truncf_apply, broadcast_apply, extui_apply, sitofp_apply', bit_cast, cmpi_apply, cmpi_lane, Nat.reduceMod, iota_apply, brow64_apply, brow256_apply, brow1_apply, bcol_apply, col_apply, red_apply, mm_apply, mm_apply', shapeCast_self, zero_scalar, zero_const, zero_add]) <;> rfl

theorem pay16_apply (v38 : FVec Ideal S1000x256 .f32) (v39 : FVec Ideal S1000x256 .bf16) (v40 : IVec S1x64 32) (v209 : FVec Ideal S1000x64 .f32) (v210 : Vec Ideal S256x256 .bf16) (v224 : Vec Ideal S256x256 .bf16) (v238 : Vec Ideal S256x256 .bf16) (p : Fin 1000) (q : Fin 64) :
    k1_pay16 (F := Ideal) v38 v39 v40 v209 v210 v224 v238 (ix2 p q) = (((v209 (ix2 p q)) + ((∑ j1 : Fin 256, ((∑ k2 : Fin 256, (v39 (ix2 p k2)) * (v210 (ix2 k2 j1))) * (v38 (ix2 p j1)))) * (if IntOp.cmpi .eq (v40 (ix2 (0 : Fin 1) q)) (12#32) = 1#1 then (1 : EReal) else 0))) + ((∑ j3 : Fin 256, ((∑ k4 : Fin 256, (v39 (ix2 p k4)) * (v224 (ix2 k4 j3))) * (v38 (ix2 p j3)))) * (if IntOp.cmpi .eq (v40 (ix2 (0 : Fin 1) q)) (13#32) = 1#1 then (1 : EReal) else 0))) + ((∑ j5 : Fin 256, ((∑ k6 : Fin 256, (v39 (ix2 p k6)) * (v238 (ix2 k6 j5))) * (v38 (ix2 p j5)))) * (if IntOp.cmpi .eq (v40 (ix2 (0 : Fin 1) q)) (14#32) = 1#1 then (1 : EReal) else 0)) := by
  unfold k1_pay16
  (simp (config := { index := false }) only [mulf_apply, addf_apply, maximumf_apply, truncf_apply, broadcast_apply, extui_apply, sitofp_apply', bit_cast, cmpi_apply, cmpi_lane, Nat.reduceMod, iota_apply, brow64_apply, brow256_apply, brow1_apply, bcol_apply, col_apply, red_apply, mm_apply, mm_apply', shapeCast_self, zero_scalar, zero_const, zero_add]) <;> rfl

theorem pay17_apply (v39 : FVec Ideal S1000x256 .bf16) (v252 : Vec Ideal S256x256 .bf16) (p : Fin 1000) (q : Fin 256) :
    k1_pay17 (F := Ideal) v39 v252 (ix2 p q) = ∑ k1 : Fin 256, (v39 (ix2 p k1)) * (v252 (ix2 k1 q)) := by
  unfold k1_pay17
  (simp (config := { index := false }) only [mulf_apply, addf_apply, maximumf_apply, truncf_apply, broadcast_apply, extui_apply, sitofp_apply', bit_cast, cmpi_apply, cmpi_lane, Nat.reduceMod, iota_apply, brow64_apply, brow256_apply, brow1_apply, bcol_apply, col_apply, red_apply, mm_apply, mm_apply', shapeCast_self, zero_scalar, zero_const, zero_add]) <;> rfl

theorem pay18_apply (v38 : FVec Ideal S1000x256 .f32) (v39 : FVec Ideal S1000x256 .bf16) (v40 : IVec S1x64 32) (v251 : FVec Ideal S1000x64 .f32) (v254 : FVec Ideal S1000x256 .f32) (v266 : Vec Ideal S256x256 .bf16) (v280 : Vec Ideal S256x256 .bf16) (p : Fin 1000) (q : Fin 64) :
    k1_pay18 (F := Ideal) v38 v39 v40 v251 v254 v266 v280 (ix2 p q) = (((v251 (ix2 p q)) + ((∑ j1 : Fin 256, ((v254 (ix2 p j1)) * (v38 (ix2 p j1)))) * (if IntOp.cmpi .eq (v40 (ix2 (0 : Fin 1) q)) (15#32) = 1#1 then (1 : EReal) else 0))) + ((∑ j2 : Fin 256, ((∑ k3 : Fin 256, (v39 (ix2 p k3)) * (v266 (ix2 k3 j2))) * (v38 (ix2 p j2)))) * (if IntOp.cmpi .eq (v40 (ix2 (0 : Fin 1) q)) (16#32) = 1#1 then (1 : EReal) else 0))) + ((∑ j4 : Fin 256, ((∑ k5 : Fin 256, (v39 (ix2 p k5)) * (v280 (ix2 k5 j4))) * (v38 (ix2 p j4)))) * (if IntOp.cmpi .eq (v40 (ix2 (0 : Fin 1) q)) (17#32) = 1#1 then (1 : EReal) else 0)) := by
  unfold k1_pay18
  (simp (config := { index := false }) only [mulf_apply, addf_apply, maximumf_apply, truncf_apply, broadcast_apply, extui_apply, sitofp_apply', bit_cast, cmpi_apply, cmpi_lane, Nat.reduceMod, iota_apply, brow64_apply, brow256_apply, brow1_apply, bcol_apply, col_apply, red_apply, mm_apply, mm_apply', shapeCast_self, zero_scalar, zero_const, zero_add]) <;> rfl

theorem pay19_apply (v38 : FVec Ideal S1000x256 .f32) (v39 : FVec Ideal S1000x256 .bf16) (v294 : Vec Ideal S256x256 .bf16) (p : Fin 1000) :
    k1_pay19 (F := Ideal) v38 v39 v294 (ix1 p) = ∑ j1 : Fin 256, ((∑ k2 : Fin 256, (v39 (ix2 p k2)) * (v294 (ix2 k2 j1))) * (v38 (ix2 p j1))) := by
  unfold k1_pay19
  (simp (config := { index := false }) only [mulf_apply, addf_apply, maximumf_apply, truncf_apply, broadcast_apply, extui_apply, sitofp_apply', bit_cast, cmpi_apply, cmpi_lane, Nat.reduceMod, iota_apply, brow64_apply, brow256_apply, brow1_apply, bcol_apply, col_apply, red_apply, mm_apply, mm_apply', shapeCast_self, zero_scalar, zero_const, zero_add]) <;> rfl

theorem pay20_apply (v38 : FVec Ideal S1000x256 .f32) (v39 : FVec Ideal S1000x256 .bf16) (v40 : IVec S1x64 32) (v293 : FVec Ideal S1000x64 .f32) (v298 : FVec Ideal S1000 .f32) (v308 : Vec Ideal S256x256 .bf16) (v322 : Vec Ideal S256x256 .bf16) (p : Fin 1000) (q : Fin 64) :
    k1_pay20 (F := Ideal) v38 v39 v40 v293 v298 v308 v322 (ix2 p q) = (((v293 (ix2 p q)) + ((v298 (ix1 p)) * (if IntOp.cmpi .eq (v40 (ix2 (0 : Fin 1) q)) (18#32) = 1#1 then (1 : EReal) else 0))) + ((∑ j1 : Fin 256, ((∑ k2 : Fin 256, (v39 (ix2 p k2)) * (v308 (ix2 k2 j1))) * (v38 (ix2 p j1)))) * (if IntOp.cmpi .eq (v40 (ix2 (0 : Fin 1) q)) (19#32) = 1#1 then (1 : EReal) else 0))) + ((∑ j3 : Fin 256, ((∑ k4 : Fin 256, (v39 (ix2 p k4)) * (v322 (ix2 k4 j3))) * (v38 (ix2 p j3)))) * (if IntOp.cmpi .eq (v40 (ix2 (0 : Fin 1) q)) (20#32) = 1#1 then (1 : EReal) else 0)) := by
  unfold k1_pay20
  (simp (config := { index := false }) only [mulf_apply, addf_apply, maximumf_apply, truncf_apply, broadcast_apply, extui_apply, sitofp_apply', bit_cast, cmpi_apply, cmpi_lane, Nat.reduceMod, iota_apply, brow64_apply, brow256_apply, brow1_apply, bcol_apply, col_apply, red_apply, mm_apply, mm_apply', shapeCast_self, zero_scalar, zero_const, zero_add]) <;> rfl

theorem pay21_apply (v38 : FVec Ideal S1000x256 .f32) (v39 : FVec Ideal S1000x256 .bf16) (v336 : Vec Ideal S256x256 .bf16) (p : Fin 1000) (q : Fin 1) :
    k1_pay21 (F := Ideal) v38 v39 v336 (ix2 p q) = ∑ j1 : Fin 256, ((∑ k2 : Fin 256, (v39 (ix2 p k2)) * (v336 (ix2 k2 j1))) * (v38 (ix2 p j1))) := by
  unfold k1_pay21
  (simp (config := { index := false }) only [mulf_apply, addf_apply, maximumf_apply, truncf_apply, broadcast_apply, extui_apply, sitofp_apply', bit_cast, cmpi_apply, cmpi_lane, Nat.reduceMod, iota_apply, brow64_apply, brow256_apply, brow1_apply, bcol_apply, col_apply, red_apply, mm_apply, mm_apply', shapeCast_self, zero_scalar, zero_const, zero_add]) <;> rfl

theorem pay22_apply  (u : Fin 1) (q : Fin 64) :
    k1_pay22 (ix2 u q) = 21#32 := by
  unfold k1_pay22
  (simp (config := { index := false }) only [mulf_apply, addf_apply, maximumf_apply, truncf_apply, broadcast_apply, extui_apply, sitofp_apply', bit_cast, cmpi_apply, cmpi_lane, Nat.reduceMod, iota_apply, brow64_apply, brow256_apply, brow1_apply, bcol_apply, col_apply, red_apply, mm_apply, mm_apply', shapeCast_self, zero_scalar, zero_const, zero_add]) <;> rfl

theorem pay23_apply (v38 : FVec Ideal S1000x256 .f32) (v39 : FVec Ideal S1000x256 .bf16) (v40 : IVec S1x64 32) (v335 : FVec Ideal S1000x64 .f32) (v341 : FVec Ideal S1000x1 .f32) (v342 : IVec S1x64 32) (v350 : Vec Ideal S256x256 .bf16) (v364 : Vec Ideal S256x256 .bf16) (p : Fin 1000) (q : Fin 64) :
    k1_pay23 (F := Ideal) v38 v39 v40 v335 v341 v342 v350 v364 (ix2 p q) = (((v335 (ix2 p q)) + ((v341 (ix2 p (0 : Fin 1))) * (if IntOp.cmpi .eq (v40 (ix2 (0 : Fin 1) q)) (v342 (ix2 (0 : Fin 1) q)) = 1#1 then (1 : EReal) else 0))) + ((∑ j1 : Fin 256, ((∑ k2 : Fin 256, (v39 (ix2 p k2)) * (v350 (ix2 k2 j1))) * (v38 (ix2 p j1)))) * (if IntOp.cmpi .eq (v40 (ix2 (0 : Fin 1) q)) (22#32) = 1#1 then (1 : EReal) else 0))) + ((∑ j3 : Fin 256, ((∑ k4 : Fin 256, (v39 (ix2 p k4)) * (v364 (ix2 k4 j3))) * (v38 (ix2 p j3)))) * (if IntOp.cmpi .eq (v40 (ix2 (0 : Fin 1) q)) (23#32) = 1#1 then (1 : EReal) else 0)) := by
  unfold k1_pay23
  (simp (config := { index := false }) only [mulf_apply, addf_apply, maximumf_apply, truncf_apply, broadcast_apply, extui_apply, sitofp_apply', bit_cast, cmpi_apply, cmpi_lane, Nat.reduceMod, iota_apply, brow64_apply, brow256_apply, brow1_apply, bcol_apply, col_apply, red_apply, mm_apply, mm_apply', shapeCast_self, zero_scalar, zero_const, zero_add]) <;> rfl

theorem pay24_apply (v38 : FVec Ideal S1000x256 .f32) (v39 : FVec Ideal S1000x256 .bf16) (v378 : Vec Ideal S256x256 .bf16) (p : Fin 1000) (q : Fin 1) :
    k1_pay24 (F := Ideal) v38 v39 v378 (ix2 p q) = ∑ j1 : Fin 256, ((∑ k2 : Fin 256, (v39 (ix2 p k2)) * (v378 (ix2 k2 j1))) * (v38 (ix2 p j1))) := by
  unfold k1_pay24
  (simp (config := { index := false }) only [mulf_apply, addf_apply, maximumf_apply, truncf_apply, broadcast_apply, extui_apply, sitofp_apply', bit_cast, cmpi_apply, cmpi_lane, Nat.reduceMod, iota_apply, brow64_apply, brow256_apply, brow1_apply, bcol_apply, col_apply, red_apply, mm_apply, mm_apply', shapeCast_self, zero_scalar, zero_const, zero_add]) <;> rfl

theorem pay25_apply (v40 : IVec S1x64 32) (u : Fin 1) (q : Fin 64) :
    k1_pay25 (F := Ideal) v40 (ix2 u q) = if IntOp.cmpi .eq (v40 (ix2 u q)) (24#32) = 1#1 then (1 : EReal) else 0 := by
  unfold k1_pay25
  (simp (config := { index := false }) only [mulf_apply, addf_apply, maximumf_apply, truncf_apply, broadcast_apply, extui_apply, sitofp_apply', bit_cast, cmpi_apply, cmpi_lane, Nat.reduceMod, iota_apply, brow64_apply, brow256_apply, brow1_apply, bcol_apply, col_apply, red_apply, mm_apply, mm_apply', shapeCast_self, zero_scalar, zero_const, zero_add]) <;> rfl

theorem pay26_apply (v38 : FVec Ideal S1000x256 .f32) (v39 : FVec Ideal S1000x256 .bf16) (v40 : IVec S1x64 32) (v377 : FVec Ideal S1000x64 .f32) (v383 : FVec Ideal S1000x1 .f32) (v387 : FVec Ideal S1x64 .f32) (v392 : Vec Ideal S256x256 .bf16) (v406 : Vec Ideal S256x256 .bf16) (p : Fin 1000) (q : Fin 64) :
    k1_pay26 (F := Ideal) v38 v39 v40 v377 v383 v387 v392 v406 (ix2 p q) = (((v377 (ix2 p q)) + ((v383 (ix2 p (0 : Fin 1))) * (v387 (ix2 (0 : Fin 1) q)))) + ((∑ j1 : Fin 256, ((∑ k2 : Fin 256, (v39 (ix2 p k2)) * (v392 (ix2 k2 j1))) * (v38 (ix2 p j1)))) * (if IntOp.cmpi .eq (v40 (ix2 (0 : Fin 1) q)) (25#32) = 1#1 then (1 : EReal) else 0))) + ((∑ j3 : Fin 256, ((∑ k4 : Fin 256, (v39 (ix2 p k4)) * (v406 (ix2 k4 j3))) * (v38 (ix2 p j3)))) * (if IntOp.cmpi .eq (v40 (ix2 (0 : Fin 1) q)) (26#32) = 1#1 then (1 : EReal) else 0)) := by
  unfold k1_pay26
  (simp (config := { index := false }) only [mulf_apply, addf_apply, maximumf_apply, truncf_apply, broadcast_apply, extui_apply, sitofp_apply', bit_cast, cmpi_apply, cmpi_lane, Nat.reduceMod, iota_apply, brow64_apply, brow256_apply, brow1_apply, bcol_apply, col_apply, red_apply, mm_apply, mm_apply', shapeCast_self, zero_scalar, zero_const, zero_add]) <;> rfl

theorem pay27_apply (v38 : FVec Ideal S1000x256 .f32) (v39 : FVec Ideal S1000x256 .bf16) (v40 : IVec S1x64 32) (v420 : Vec Ideal S256x256 .bf16) (p : Fin 1000) (q : Fin 64) :
    k1_pay27 (F := Ideal) v38 v39 v40 v420 (ix2 p q) = (∑ j1 : Fin 256, ((∑ k2 : Fin 256, (v39 (ix2 p k2)) * (v420 (ix2 k2 j1))) * (v38 (ix2 p j1)))) * (if IntOp.cmpi .eq (v40 (ix2 (0 : Fin 1) q)) (27#32) = 1#1 then (1 : EReal) else 0) := by
  unfold k1_pay27
  (simp (config := { index := false }) only [mulf_apply, addf_apply, maximumf_apply, truncf_apply, broadcast_apply, extui_apply, sitofp_apply', bit_cast, cmpi_apply, cmpi_lane, Nat.reduceMod, iota_apply, brow64_apply, brow256_apply, brow1_apply, bcol_apply, col_apply, red_apply, mm_apply, mm_apply', shapeCast_self, zero_scalar, zero_const, zero_add]) <;> rfl

theorem pay28_apply (v38 : FVec Ideal S1000x256 .f32) (v39 : FVec Ideal S1000x256 .bf16) (v40 : IVec S1x64 32) (v419 : FVec Ideal S1000x64 .f32) (v432 : FVec Ideal S1000x64 .f32) (v434 : Vec Ideal S256x256 .bf16) (v448 : Vec Ideal S256x256 .bf16) (v462 : Vec Ideal S256x256 .bf16) (p : Fin 1000) (q : Fin 64) :
    k1_pay28 (F := Ideal) v38 v39 v40 v419 v432 v434 v448 v462 (ix2 p q) = ((((v419 (ix2 p q)) + (v432 (ix2 p q))) + ((∑ j1 : Fin 256, ((∑ k2 : Fin 256, (v39 (ix2 p k2)) * (v434 (ix2 k2 j1))) * (v38 (ix2 p j1)))) * (if IntOp.cmpi .eq (v40 (ix2 (0 : Fin 1) q)) (28#32) = 1#1 then (1 : EReal) else 0))) + ((∑ j3 : Fin 256, ((∑ k4 : Fin 256, (v39 (ix2 p k4)) * (v448 (ix2 k4 j3))) * (v38 (ix2 p j3)))) * (if IntOp.cmpi .eq (v40 (ix2 (0 : Fin 1) q)) (29#32) = 1#1 then (1 : EReal) else 0))) + ((∑ j5 : Fin 256, ((∑ k6 : Fin 256, (v39 (ix2 p k6)) * (v462 (ix2 k6 j5))) * (v38 (ix2 p j5)))) * (if IntOp.cmpi .eq (v40 (ix2 (0 : Fin 1) q)) (30#32) = 1#1 then (1 : EReal) else 0)) := by
  unfold k1_pay28
  (simp (config := { index := false }) only [mulf_apply, addf_apply, maximumf_apply, truncf_apply, broadcast_apply, extui_apply, sitofp_apply', bit_cast, cmpi_apply, cmpi_lane, Nat.reduceMod, iota_apply, brow64_apply, brow256_apply, brow1_apply, bcol_apply, col_apply, red_apply, mm_apply, mm_apply', shapeCast_self, zero_scalar, zero_const, zero_add]) <;> rfl

theorem pay29_apply (v38 : FVec Ideal S1000x256 .f32) (v39 : FVec Ideal S1000x256 .bf16) (v40 : IVec S1x64 32) (v475 : FVec Ideal S1000x64 .f32) (v476 : Vec Ideal S256x256 .bf16) (v490 : Vec Ideal S256x256 .bf16) (v504 : Vec Ideal S256x256 .bf16) (p : Fin 1000) (q : Fin 64) :
    k1_pay29 (F := Ideal) v38 v39 v40 v475 v476 v490 v504 (ix2 p q) = (((v475 (ix2 p q)) + ((∑ j1 : Fin 256, ((∑ k2 : Fin 256, (v39 (ix2 p k2)) * (v476 (ix2 k2 j1))) * (v38 (ix2 p j1)))) * (if IntOp.cmpi .eq (v40 (ix2 (0 : Fin 1) q)) (31#32) = 1#1 then (1 : EReal) else 0))) + ((∑ j3 : Fin 256, ((∑ k4 : Fin 256, (v39 (ix2 p k4)) * (v490 (ix2 k4 j3))) * (v38 (ix2 p j3)))) * (if IntOp.cmpi .eq (v40 (ix2 (0 : Fin 1) q)) (32#32) = 1#1 then (1 : EReal) else 0))) + ((∑ j5 : Fin 256, ((∑ k6 : Fin 256, (v39 (ix2 p k6)) * (v504 (ix2 k6 j5))) * (v38 (ix2 p j5)))) * (if IntOp.cmpi .eq (v40 (ix2 (0 : Fin 1) q)) (33#32) = 1#1 then (1 : EReal) else 0)) := by
  unfold k1_pay29
  (simp (config := { index := false }) only [mulf_apply, addf_apply, maximumf_apply, truncf_apply, broadcast_apply, extui_apply, sitofp_apply', bit_cast, cmpi_apply, cmpi_lane, Nat.reduceMod, iota_apply, brow64_apply, brow256_apply, brow1_apply, bcol_apply, col_apply, red_apply, mm_apply, mm_apply', shapeCast_self, zero_scalar, zero_const, zero_add]) <;> rfl

theorem pay30_apply (v518 : Vec Ideal S256x256 .bf16) (k : Fin 256) (j : Fin 256) :
    k1_pay30 (F := Ideal) v518 (ix2 k j) = v518 (ix2 k j) := by
  unfold k1_pay30
  exact congrFun (shapeCast_self _ _) _

theorem pay31_apply (v38 : FVec Ideal S1000x256 .f32) (v39 : FVec Ideal S1000x256 .bf16) (v40 : IVec S1x64 32) (v517 : FVec Ideal S1000x64 .f32) (v519 : FVec Ideal S256x256 .bf16) (cst_128 : FVec Ideal S1000x256 .f32) (v532 : Vec Ideal S256x256 .bf16) (v546 : Vec Ideal S256x256 .bf16) (p : Fin 1000) (q : Fin 64) :
    k1_pay31 (F := Ideal) v38 v39 v40 v517 v519 cst_128 v532 v546 (ix2 p q) = (((v517 (ix2 p q)) + ((∑ j1 : Fin 256, (((cst_128 (ix2 p j1)) + ∑ k2 : Fin 256, (v39 (ix2 p k2)) * (v519 (ix2 k2 j1))) * (v38 (ix2 p j1)))) * (if IntOp.cmpi .eq (v40 (ix2 (0 : Fin 1) q)) (34#32) = 1#1 then (1 : EReal) else 0))) + ((∑ j3 : Fin 256, ((∑ k4 : Fin 256, (v39 (ix2 p k4)) * (v532 (ix2 k4 j3))) * (v38 (ix2 p j3)))) * (if IntOp.cmpi .eq (v40 (ix2 (0 : Fin 1) q)) (35#32) = 1#1 then (1 : EReal) else 0))) + ((∑ j5 : Fin 256, ((∑ k6 : Fin 256, (v39 (ix2 p k6)) * (v546 (ix2 k6 j5))) * (v38 (ix2 p j5)))) * (if IntOp.cmpi .eq (v40 (ix2 (0 : Fin 1) q)) (36#32) = 1#1 then (1 : EReal) else 0)) := by
  unfold k1_pay31
  (simp (config := { index := false }) only [mulf_apply, addf_apply, maximumf_apply, truncf_apply, broadcast_apply, extui_apply, sitofp_apply', bit_cast, cmpi_apply, cmpi_lane, Nat.reduceMod, iota_apply, brow64_apply, brow256_apply, brow1_apply, bcol_apply, col_apply, red_apply, mm_apply, mm_apply', shapeCast_self, zero_scalar, zero_const, zero_add]) <;> rfl

theorem pay32_apply (v38 : FVec Ideal S1000x256 .f32) (v39 : FVec Ideal S1000x256 .bf16) (v560 : Vec Ideal S256x256 .bf16) (p : Fin 1000) (q : Fin 256) :
    k1_pay32 (F := Ideal) v38 v39 v560 (ix2 p q) = (∑ k1 : Fin 256, (v39 (ix2 p k1)) * (v560 (ix2 k1 q))) * (v38 (ix2 p q)) := by
  unfold k1_pay32
  (simp (config := { index := false }) only [mulf_apply, addf_apply, maximumf_apply, truncf_apply, broadcast_apply, extui_apply, sitofp_apply', bit_cast, cmpi_apply, cmpi_lane, Nat.reduceMod, iota_apply, brow64_apply, brow256_apply, brow1_apply, bcol_apply, col_apply, red_apply, mm_apply, mm_apply', shapeCast_self, zero_scalar, zero_const, zero_add]) <;> rfl

theorem pay33_apply (v38 : FVec Ideal S1000x256 .f32) (v39 : FVec Ideal S1000x256 .bf16) (v40 : IVec S1x64 32) (v559 : FVec Ideal S1000x64 .f32) (v563 : FVec Ideal S1000x256 .f32) (v574 : Vec Ideal S256x256 .bf16) (v588 : Vec Ideal S256x256 .bf16) (p : Fin 1000) (q : Fin 64) :
    k1_pay33 (F := Ideal) v38 v39 v40 v559 v563 v574 v588 (ix2 p q) = (((v559 (ix2 p q)) + ((∑ j1 : Fin 256, (v563 (ix2 p j1))) * (if IntOp.cmpi .eq (v40 (ix2 (0 : Fin 1) q)) (37#32) = 1#1 then (1 : EReal) else 0))) + ((∑ j2 : Fin 256, ((∑ k3 : Fin 256, (v39 (ix2 p k3)) * (v574 (ix2 k3 j2))) * (v38 (ix2 p j2)))) * (if IntOp.cmpi .eq (v40 (ix2 (0 : Fin 1) q)) (38#32) = 1#1 then (1 : EReal) else 0))) + ((∑ j4 : Fin 256, ((∑ k5 : Fin 256, (v39 (ix2 p k5)) * (v588 (ix2 k5 j4))) * (v38 (ix2 p j4)))) * (if IntOp.cmpi .eq (v40 (ix2 (0 : Fin 1) q)) (39#32) = 1#1 then (1 : EReal) else 0)) := by
  unfold k1_pay33
  (simp (config := { index := false }) only [mulf_apply, addf_apply, maximumf_apply, truncf_apply, broadcast_apply, extui_apply, sitofp_apply', bit_cast, cmpi_apply, cmpi_lane, Nat.reduceMod, iota_apply, brow64_apply, brow256_apply, brow1_apply, bcol_apply, col_apply, red_apply, mm_apply, mm_apply', shapeCast_self, zero_scalar, zero_const, zero_add]) <;> rfl

theorem pay34_apply (v38 : FVec Ideal S1000x256 .f32) (v39 : FVec Ideal S1000x256 .bf16) (v602 : Vec Ideal S256x256 .bf16) (p : Fin 1000) (q : Fin 1) :
    k1_pay34 (F := Ideal) v38 v39 v602 (ix2 p q) = ∑ j1 : Fin 256, ((∑ k2 : Fin 256, (v39 (ix2 p k2)) * (v602 (ix2 k2 j1))) * (v38 (ix2 p j1))) := by
  unfold k1_pay34
  (simp (config := { index := false }) only [mulf_apply, addf_apply, maximumf_apply, truncf_apply, broadcast_apply, extui_apply, sitofp_apply', bit_cast, cmpi_apply, cmpi_lane, Nat.reduceMod, iota_apply, brow64_apply, brow256_apply, brow1_apply, bcol_apply, col_apply, red_apply, mm_apply, mm_apply', shapeCast_self, zero_scalar, zero_const, zero_add]) <;> rfl

theorem pay35_apply (v38 : FVec Ideal S1000x256 .f32) (v39 : FVec Ideal S1000x256 .bf16) (v40 : IVec S1x64 32) (v601 : FVec Ideal S1000x64 .f32) (v607 : FVec Ideal S1000x1 .f32) (c40_i32 : BitVec 32) (v616 : Vec Ideal S256x256 .bf16) (v630 : Vec Ideal S256x256 .bf16) (p : Fin 1000) (q : Fin 64) :
    k1_pay35 (F := Ideal) v38 v39 v40 v601 v607 c40_i32 v616 v630 (ix2 p q) = (((v601 (ix2 p q)) + ((v607 (ix2 p (0 : Fin 1))) * (if IntOp.cmpi .eq (v40 (ix2 (0 : Fin 1) q)) c40_i32 = 1#1 then (1 : EReal) else 0))) + ((∑ j1 : Fin 256, ((∑ k2 : Fin 256, (v39 (ix2 p k2)) * (v616 (ix2 k2 j1))) * (v38 (ix2 p j1)))) * (if IntOp.cmpi .eq (v40 (ix2 (0 : Fin 1) q)) (41#32) = 1#1 then (1 : EReal) else 0))) + ((∑ j3 : Fin 256, ((∑ k4 : Fin 256, (v39 (ix2 p k4)) * (v630 (ix2 k4 j3))) * (v38 (ix2 p j3)))) * (if IntOp.cmpi .eq (v40 (ix2 (0 : Fin 1) q)) (42#32) = 1#1 then (1 : EReal) else 0)) := by
  unfold k1_pay35
  (simp (config := { index := false }) only [mulf_apply, addf_apply, maximumf_apply, truncf_apply, broadcast_apply, extui_apply, sitofp_apply', bit_cast, cmpi_apply, cmpi_lane, Nat.reduceMod, iota_apply, brow64_apply, brow256_apply, brow1_apply, bcol_apply, col_apply, red_apply, mm_apply, mm_apply', shapeCast_self, zero_scalar, zero_const, zero_add]) <;> rfl

theorem pay36_apply (v38 : FVec Ideal S1000x256 .f32) (v39 : FVec Ideal S1000x256 .bf16) (v644 : Vec Ideal S256x256 .bf16) (p : Fin 1000) (q : Fin 1) :
    k1_pay36 (F := Ideal) v38 v39 v644 (ix2 p q) = ∑ j1 : Fin 256, ((∑ k2 : Fin 256, (v39 (ix2 p k2)) * (v644 (ix2 k2 j1))) * (v38 (ix2 p j1))) := by
  unfold k1_pay36
  (simp (config := { index := false }) only [mulf_apply, addf_apply, maximumf_apply, truncf_apply, broadcast_apply, extui_apply, sitofp_apply', bit_cast, cmpi_apply, cmpi_lane, Nat.reduceMod, iota_apply, brow64_apply, brow256_apply, brow1_apply, bcol_apply, col_apply, red_apply, mm_apply, mm_apply', shapeCast_self, zero_scalar, zero_const, zero_add]) <;> rfl

theorem pay37_apply (v40 : IVec S1x64 32) (u : Fin 1) (q : Fin 64) :
    k1_pay37 v40 (ix2 u q) = (IntOp.cmpi .eq (v40 (ix2 u q)) (43#32)).setWidth 32 := by
  unfold k1_pay37
  (simp (config := { index := false }) only [mulf_apply, addf_apply, maximumf_apply, truncf_apply, broadcast_apply, extui_apply, sitofp_apply', bit_cast, cmpi_apply, cmpi_lane, Nat.reduceMod, iota_apply, brow64_apply, brow256_apply, brow1_apply, bcol_apply, col_apply, red_apply, mm_apply, mm_apply', shapeCast_self, zero_scalar, zero_const, zero_add]) <;> rfl

theorem pay38_apply (v38 : FVec Ideal S1000x256 .f32) (v39 : FVec Ideal S1000x256 .bf16) (v40 : IVec S1x64 32) (v643 : FVec Ideal S1000x64 .f32) (v649 : FVec Ideal S1000x1 .f32) (v652 : IVec S1x64 32) (v658 : Vec Ideal S256x256 .bf16) (v672 : Vec Ideal S256x256 .bf16) (p : Fin 1000) (q : Fin 64) :
    k1_pay38 (F := Ideal) v38 v39 v40 v643 v649 v652 v658 v672 (ix2 p q) = (((v643 (ix2 p q)) + ((v649 (ix2 p (0 : Fin 1))) * (((((v652 (ix2 (0 : Fin 1) q)).toInt : ℤ) : ℝ) : EReal)))) + ((∑ j1 : Fin 256, ((∑ k2 : Fin 256, (v39 (ix2 p k2)) * (v658 (ix2 k2 j1))) * (v38 (ix2 p j1)))) * (if IntOp.cmpi .eq (v40 (ix2 (0 : Fin 1) q)) (44#32) = 1#1 then (1 : EReal) else 0))) + ((∑ j3 : Fin 256, ((∑ k4 : Fin 256, (v39 (ix2 p k4)) * (v672 (ix2 k4 j3))) * (v38 (ix2 p j3)))) * (if IntOp.cmpi .eq (v40 (ix2 (0 : Fin 1) q)) (45#32) = 1#1 then (1 : EReal) else 0)) := by
  unfold k1_pay38
  (simp (config := { index := false }) only [mulf_apply, addf_apply, maximumf_apply, truncf_apply, broadcast_apply, extui_apply, sitofp_apply', bit_cast, cmpi_apply, cmpi_lane, Nat.reduceMod, iota_apply, brow64_apply, brow256_apply, brow1_apply, bcol_apply, col_apply, red_apply, mm_apply, mm_apply', shapeCast_self, zero_scalar, zero_const, zero_add]) <;> rfl

theorem pay39_apply (v38 : FVec Ideal S1000x256 .f32) (v39 : FVec Ideal S1000x256 .bf16) (v686 : Vec Ideal S256x256 .bf16) (p : Fin 1000) (q : Fin 64) :
    k1_pay39 (F := Ideal) v38 v39 v686 (ix2 p q) = ∑ j1 : Fin 256, ((∑ k2 : Fin 256, (v39 (ix2 p k2)) * (v686 (ix2 k2 j1))) * (v38 (ix2 p j1))) := by
  unfold k1_pay39
  (simp (config := { index := false }) only [mulf_apply, addf_apply, maximumf_apply, truncf_apply, broadcast_apply, extui_apply, sitofp_apply', bit_cast, cmpi_apply, cmpi_lane, Nat.reduceMod, iota_apply, brow64_apply, brow256_apply, brow1_apply, bcol_apply, col_apply, red_apply, mm_apply, mm_apply', shapeCast_self, zero_scalar, zero_const, zero_add]) <;> rfl

theorem pay40_apply (v40 : IVec S1x64 32) (p : Fin 1000) (q : Fin 64) :
    k1_pay40 (F := Ideal) v40 (ix2 p q) = if IntOp.cmpi .eq (v40 (ix2 (0 : Fin 1) q)) (46#32) = 1#1 then (1 : EReal) else 0 := by
  unfold k1_pay40
  (simp (config := { index := false }) only [mulf_apply, addf_apply, maximumf_apply, truncf_apply, broadcast_apply, extui_apply, sitofp_apply', bit_cast, cmpi_apply, cmpi_lane, Nat.reduceMod, iota_apply, brow64_apply, brow256_apply, brow1_apply, bcol_apply, col_apply, red_apply, mm_apply, mm_apply', shapeCast_self, zero_scalar, zero_const, zero_add]) <;> rfl

theorem pay41_apply (v38 : FVec Ideal S1000x256 .f32) (v39 : FVec Ideal S1000x256 .bf16) (v40 : IVec S1x64 32) (v685 : FVec Ideal S1000x64 .f32) (v696 : FVec Ideal S1000x64 .f32) (v697 : FVec Ideal S1000x64 .f32) (v700 : Vec Ideal S256x256 .bf16) (v714 : Vec Ideal S256x256 .bf16) (v728 : Vec Ideal S256x256 .bf16) (p : Fin 1000) (q : Fin 64) :
    k1_pay41 (F := Ideal) v38 v39 v40 v685 v696 v697 v700 v714 v728 (ix2 p q) = ((((v685 (ix2 p q)) + ((v696 (ix2 p q)) * (v697 (ix2 p q)))) + ((∑ j1 : Fin 256, ((∑ k2 : Fin 256, (v39 (ix2 p k2)) * (v700 (ix2 k2 j1))) * (v38 (ix2 p j1)))) * (if IntOp.cmpi .eq (v40 (ix2 (0 : Fin 1) q)) (47#32) = 1#1 then (1 : EReal) else 0))) + ((∑ j3 : Fin 256, ((∑ k4 : Fin 256, (v39 (ix2 p k4)) * (v714 (ix2 k4 j3))) * (v38 (ix2 p j3)))) * (if IntOp.cmpi .eq (v40 (ix2 (0 : Fin 1) q)) (48#32) = 1#1 then (1 : EReal) else 0))) + ((∑ j5 : Fin 256, ((∑ k6 : Fin 256, (v39 (ix2 p k6)) * (v728 (ix2 k6 j5))) * (v38 (ix2 p j5)))) * (if IntOp.cmpi .eq (v40 (ix2 (0 : Fin 1) q)) (49#32) = 1#1 then (1 : EReal) else 0)) := by
  unfold k1_pay41
  (simp (config := { index := false }) only [mulf_apply, addf_apply, maximumf_apply, truncf_apply, broadcast_apply, extui_apply, sitofp_apply', bit_cast, cmpi_apply, cmpi_lane, Nat.reduceMod, iota_apply, brow64_apply, brow256_apply, brow1_apply, bcol_apply, col_apply, red_apply, mm_apply, mm_apply', shapeCast_self, zero_scalar, zero_const, zero_add]) <;> rfl

theorem pay42_apply (v38 : FVec Ideal S1000x256 .f32) (v39 : FVec Ideal S1000x256 .bf16) (v40 : IVec S1x64 32) (v741 : FVec Ideal S1000x64 .f32) (v742 : Vec Ideal S256x256 .bf16) (v756 : Vec Ideal S256x256 .bf16) (v770 : Vec Ideal S256x256 .bf16) (p : Fin 1000) (q : Fin 64) :
    k1_pay42 (F := Ideal) v38 v39 v40 v741 v742 v756 v770 (ix2 p q) = (((v741 (ix2 p q)) + ((∑ j1 : Fin 256, ((∑ k2 : Fin 256, (v39 (ix2 p k2)) * (v742 (ix2 k2 j1))) * (v38 (ix2 p j1)))) * (if IntOp.cmpi .eq (v40 (ix2 (0 : Fin 1) q)) (50#32) = 1#1 then (1 : EReal) else 0))) + ((∑ j3 : Fin 256, ((∑ k4 : Fin 256, (v39 (ix2 p k4)) * (v756 (ix2 k4 j3))) * (v38 (ix2 p j3)))) * (if IntOp.cmpi .eq (v40 (ix2 (0 : Fin 1) q)) (51#32) = 1#1 then (1 : EReal) else 0))) + ((∑ j5 : Fin 256, ((∑ k6 : Fin 256, (v39 (ix2 p k6)) * (v770 (ix2 k6 j5))) * (v38 (ix2 p j5)))) * (if IntOp.cmpi .eq (v40 (ix2 (0 : Fin 1) q)) (52#32) = 1#1 then (1 : EReal) else 0)) := by
  unfold k1_pay42
  (simp (config := { index := false }) only [mulf_apply, addf_apply, maximumf_apply, truncf_apply, broadcast_apply, extui_apply, sitofp_apply', bit_cast, cmpi_apply, cmpi_lane, Nat.reduceMod, iota_apply, brow64_apply, brow256_apply, brow1_apply, bcol_apply, col_apply, red_apply, mm_apply, mm_apply', shapeCast_self, zero_scalar, zero_const, zero_add]) <;> rfl

theorem pay43_apply (v784 : Vec Ideal S256x256 .bf16) (k : Fin 256) (j : Fin 256) :
    k1_pay43 (F := Ideal) v784 (ix2 k j) = v784 (ix2 k j) := by
  unfold k1_pay43
  exact congrFun (shapeCast_self _ _) _

theorem pay44_apply (v38 : FVec Ideal S1000x256 .f32) (v39 : FVec Ideal S1000x256 .bf16) (v40 : IVec S1x64 32) (v783 : FVec Ideal S1000x64 .f32) (v785 : FVec Ideal S256x256 .bf16) (v798 : Vec Ideal S256x256 .bf16) (v812 : Vec Ideal S256x256 .bf16) (p : Fin 1000) (q : Fin 64) :
    k1_pay44 (F := Ideal) v38 v39 v40 v783 v785 v798 v812 (ix2 p q) = (((v783 (ix2 p q)) + ((∑ j1 : Fin 256, ((∑ k2 : Fin 256, (v39 (ix2 p k2)) * (v785 (ix2 k2 j1))) * (v38 (ix2 p j1)))) * (if IntOp.cmpi .eq (v40 (ix2 (0 : Fin 1) q)) (53#32) = 1#1 then (1 : EReal) else 0))) + ((∑ j3 : Fin 256, ((∑ k4 : Fin 256, (v39 (ix2 p k4)) * (v798 (ix2 k4 j3))) * (v38 (ix2 p j3)))) * (if IntOp.cmpi .eq (v40 (ix2 (0 : Fin 1) q)) (54#32) = 1#1 then (1 : EReal) else 0))) + ((∑ j5 : Fin 256, ((∑ k6 : Fin 256, (v39 (ix2 p k6)) * (v812 (ix2 k6 j5))) * (v38 (ix2 p j5)))) * (if IntOp.cmpi .eq (v40 (ix2 (0 : Fin 1) q)) (55#32) = 1#1 then (1 : EReal) else 0)) := by
  unfold k1_pay44
  (simp (config := { index := false }) only [mulf_apply, addf_apply, maximumf_apply, truncf_apply, broadcast_apply, extui_apply, sitofp_apply', bit_cast, cmpi_apply, cmpi_lane, Nat.reduceMod, iota_apply, brow64_apply, brow256_apply, brow1_apply, bcol_apply, col_apply, red_apply, mm_apply, mm_apply', shapeCast_self, zero_scalar, zero_const, zero_add]) <;> rfl

theorem pay45_apply (v38 : FVec Ideal S1000x256 .f32) (v39 : FVec Ideal S1000x256 .bf16) (v826 : Vec Ideal S256x256 .bf16) (p : Fin 1000) (q : Fin 256) :
    k1_pay45 (F := Ideal) v38 v39 v826 (ix2 p q) = (∑ k1 : Fin 256, (v39 (ix2 p k1)) * (v826 (ix2 k1 q))) * (v38 (ix2 p q)) := by
  unfold k1_pay45
  (simp (config := { index := false }) only [mulf_apply, addf_apply, maximumf_apply, truncf_apply, broadcast_apply, extui_apply, sitofp_apply', bit_cast, cmpi_apply, cmpi_lane, Nat.reduceMod, iota_apply, brow64_apply, brow256_apply, brow1_apply, bcol_apply, col_apply, red_apply, mm_apply, mm_apply', shapeCast_self, zero_scalar, zero_const, zero_add]) <;> rfl

theorem pay46_apply (v38 : FVec Ideal S1000x256 .f32) (v39 : FVec Ideal S1000x256 .bf16) (v40 : IVec S1x64 32) (v825 : FVec Ideal S1000x64 .f32) (v829 : FVec Ideal S1000x256 .f32) (v840 : Vec Ideal S256x256 .bf16) (v854 : Vec Ideal S256x256 .bf16) (p : Fin 1000) (q : Fin 64) :
    k1_pay46 (F := Ideal) v38 v39 v40 v825 v829 v840 v854 (ix2 p q) = (((v825 (ix2 p q)) + ((∑ j1 : Fin 256, (v829 (ix2 p j1))) * (if IntOp.cmpi .eq (v40 (ix2 (0 : Fin 1) q)) (56#32) = 1#1 then (1 : EReal) else 0))) + ((∑ j2 : Fin 256, ((∑ k3 : Fin 256, (v39 (ix2 p k3)) * (v840 (ix2 k3 j2))) * (v38 (ix2 p j2)))) * (if IntOp.cmpi .eq (v40 (ix2 (0 : Fin 1) q)) (57#32) = 1#1 then (1 : EReal) else 0))) + ((∑ j4 : Fin 256, ((∑ k5 : Fin 256, (v39 (ix2 p k5)) * (v854 (ix2 k5 j4))) * (v38 (ix2 p j4)))) * (if IntOp.cmpi .eq (v40 (ix2 (0 : Fin 1) q)) (58#32) = 1#1 then (1 : EReal) else 0)) := by
  unfold k1_pay46
  (simp (config := { index := false }) only [mulf_apply, addf_apply, maximumf_apply, truncf_apply, broadcast_apply, extui_apply, sitofp_apply', bit_cast, cmpi_apply, cmpi_lane, Nat.reduceMod, iota_apply, brow64_apply, brow256_apply, brow1_apply, bcol_apply, col_apply, red_apply, mm_apply, mm_apply', shapeCast_self, zero_scalar, zero_const, zero_add]) <;> rfl

theorem pay47_apply (v38 : FVec Ideal S1000x256 .f32) (v39 : FVec Ideal S1000x256 .bf16) (v868 : Vec Ideal S256x256 .bf16) (p : Fin 1000) (q : Fin 1) :
    k1_pay47 (F := Ideal) v38 v39 v868 (ix2 p q) = ∑ j1 : Fin 256, ((∑ k2 : Fin 256, (v39 (ix2 p k2)) * (v868 (ix2 k2 j1))) * (v38 (ix2 p j1))) := by
  unfold k1_pay47
  (simp (config := { index := false }) only [mulf_apply, addf_apply, maximumf_apply, truncf_apply, broadcast_apply, extui_apply, sitofp_apply', bit_cast, cmpi_apply, cmpi_lane, Nat.reduceMod, iota_apply, brow64_apply, brow256_apply, brow1_apply, bcol_apply, col_apply, red_apply, mm_apply, mm_apply', shapeCast_self, zero_scalar, zero_const, zero_add]) <;> rfl

theorem pay48_apply (v38 : FVec Ideal S1000x256 .f32) (v39 : FVec Ideal S1000x256 .bf16) (v40 : IVec S1x64 32) (v867 : FVec Ideal S1000x64 .f32) (v873 : FVec Ideal S1000x1 .f32) (v882 : Vec Ideal S256x256 .bf16) (v896 : Vec Ideal S256x256 .bf16) (p : Fin 1000) (q : Fin 64) :
    k1_pay48 (F := Ideal) v38 v39 v40 v867 v873 v882 v896 (ix2 p q) = (((v867 (ix2 p q)) + ((v873 (ix2 p (0 : Fin 1))) * (if IntOp.cmpi .eq (v40 (ix2 (0 : Fin 1) q)) (59#32) = 1#1 then (1 : EReal) else 0))) + ((∑ j1 : Fin 256, ((∑ k2 : Fin 256, (v39 (ix2 p k2)) * (v882 (ix2 k2 j1))) * (v38 (ix2 p j1)))) * (if IntOp.cmpi .eq (v40 (ix2 (0 : Fin 1) q)) (60#32) = 1#1 then (1 : EReal) else 0))) + ((∑ j3 : Fin 256, ((∑ k4 : Fin 256, (v39 (ix2 p k4)) * (v896 (ix2 k4 j3))) * (v38 (ix2 p j3)))) * (if IntOp.cmpi .eq (v40 (ix2 (0 : Fin 1) q)) (61#32) = 1#1 then (1 : EReal) else 0)) := by
  unfold k1_pay48
  (simp (config := { index := false }) only [mulf_apply, addf_apply, maximumf_apply, truncf_apply, broadcast_apply, extui_apply, sitofp_apply', bit_cast, cmpi_apply, cmpi_lane, Nat.reduceMod, iota_apply, brow64_apply, brow256_apply, brow1_apply, bcol_apply, col_apply, red_apply, mm_apply, mm_apply', shapeCast_self, zero_scalar, zero_const, zero_add]) <;> rfl

theorem pay49_apply (v38 : FVec Ideal S1000x256 .f32) (v39 : FVec Ideal S1000x256 .bf16) (v910 : Vec Ideal S256x256 .bf16) (p : Fin 1000) (q : Fin 1) :
    k1_pay49 (F := Ideal) v38 v39 v910 (ix2 p q) = ∑ j1 : Fin 256, ((∑ k2 : Fin 256, (v39 (ix2 p k2)) * (v910 (ix2 k2 j1))) * (v38 (ix2 p j1))) := by
  unfold k1_pay49
  (simp (config := { index := false }) only [mulf_apply, addf_apply, maximumf_apply, truncf_apply, broadcast_apply, extui_apply, sitofp_apply', bit_cast, cmpi_apply, cmpi_lane, Nat.reduceMod, iota_apply, brow64_apply, brow256_apply, brow1_apply, bcol_apply, col_apply, red_apply, mm_apply, mm_apply', shapeCast_self, zero_scalar, zero_const, zero_add]) <;> rfl

theorem pay50_apply (v40 : IVec S1x64 32) (u : Fin 1) (q : Fin 64) :
    k1_pay50 v40 (ix2 u q) = IntOp.cmpi .eq (v40 (ix2 u q)) (62#32) := by
  unfold k1_pay50
  (simp (config := { index := false }) only [mulf_apply, addf_apply, maximumf_apply, truncf_apply, broadcast_apply, extui_apply, sitofp_apply', bit_cast, cmpi_apply, cmpi_lane, Nat.reduceMod, iota_apply, brow64_apply, brow256_apply, brow1_apply, bcol_apply, col_apply, red_apply, mm_apply, mm_apply', shapeCast_self, zero_scalar, zero_const, zero_add]) <;> rfl

theorem pay1_apply (v29 : FVec Ideal S1000x1 .f32) (v38 : FVec Ideal S1000x256 .f32) (v39 : FVec Ideal S1000x256 .bf16) (v40 : IVec S1x64 32) (v909 : FVec Ideal S1000x64 .f32) (v915 : FVec Ideal S1000x1 .f32) (v917 : IVec S1x64 1) (v924 : Vec Ideal S256x256 .bf16) (v938 : Vec Ideal S1x64 .f32) (p : Fin 1000) (q : Fin 128) :
    k1_pay1 (F := Ideal) v29 v38 v39 v40 v909 v915 v917 v924 v938 (ix2 p q)
      = if h0 : q.val = 0 then v29 (ix2 p (0 : Fin 1))
        else if h1 : q.val < 64 then 0
        else (((v909 (ix2 p ⟨q.val - 64, by have := q.isLt; omega⟩)) + ((v915 (ix2 p (0 : Fin 1))) * (if v917 (ix2 (0 : Fin 1) ⟨q.val - 64, by have := q.isLt; omega⟩) = 1#1 then (1 : EReal) else 0))) + ((∑ j1 : Fin 256, ((∑ k2 : Fin 256, (v39 (ix2 p k2)) * (v924 (ix2 k2 j1))) * (v38 (ix2 p j1)))) * (if IntOp.cmpi .eq (v40 (ix2 (0 : Fin 1) ⟨q.val - 64, by have := q.isLt; omega⟩)) (63#32) = 1#1 then (1 : EReal) else 0))) + (v938 (ix2 (0 : Fin 1) ⟨q.val - 64, by have := q.isLt; omega⟩)) := by
  unfold k1_pay1
  (simp (config := { index := false }) only [concat_apply, mulf_apply, addf_apply, maximumf_apply, truncf_apply, broadcast_apply, extui_apply, sitofp_apply', bit_cast, cmpi_apply, cmpi_lane, Nat.reduceMod, iota_apply, brow64_apply, brow256_apply, brow1_apply, bcol_apply, col_apply, red_apply, mm_apply, mm_apply', shapeCast_self, zero_scalar, zero_const, zero_add]) <;> rfl

/-! ### The layers are the specification's functions -/

/-- The first hidden layer (its narrowing to bf16 is the identity on extended reals). -/
theorem pay2_eq (x0 : Vec Ideal S1000x256 .f32) (x1 : Vec Ideal S256x256 .bf16) (x2 : Vec Ideal S1x256 .f32) (p : Fin 1000) (c : Fin 256) :
    k1_pay2 (F := Ideal) x0 x1 x2 (ix2 p c) = Cert.Spec.hid1 x0 x1 x2 (ix2 p c) := by
  rw [pay2_apply]; rfl

/-- The third hidden layer, on top of the first. -/
theorem pay6_eq (x0 : Vec Ideal S1000x256 .f32) (x1 : Vec Ideal S256x256 .bf16) (x2 : Vec Ideal S1x256 .f32) (x7 : Vec Ideal S256x256 .bf16) (x8 : Vec Ideal S1x256 .f32) (p : Fin 1000) (c : Fin 256) :
    k1_pay6 (F := Ideal) (k1_pay4 x0 x1 x2 x7) (k1_pay5 x8) (ix2 p c) = Cert.Spec.hid3 x0 x1 x2 x7 x8 (ix2 p c) := by
  simp (config := { index := false }) only [pay6_apply, pay4_apply, pay5_apply, pay2_eq]
  rfl

/-- The scalar head. -/
theorem pay3_eq (x0 : Vec Ideal S1000x256 .f32) (x1 : Vec Ideal S256x256 .bf16) (x2 : Vec Ideal S1x256 .f32) (x3 : Vec Ideal S256x256 .bf16) (x4 : Vec Ideal S1x256 .f32) (x5 : Vec Ideal S256x1 .bf16) (x6 : Vec Ideal S1x1 .f32) (p : Fin 1000) :
    k1_pay3 (F := Ideal) x0 x1 x2 x3 x4 x5 x6 (ix2 p (0 : Fin 1)) = Cert.Spec.head1 x0 x1 x2 x3 x4 x5 x6 (ix2 p (0 : Fin 1)) := by
  simp (config := { index := false }) only [pay3_apply, pay2_eq]
  rfl

/-! ### The 64 slabs of the bilinear weight: slab r holds columns 256 r … 256 r + 255 -/

/-- Slab r of the [256, 16384] weight as a [256, 256] array. -/
def slabF (x9 : Vec Ideal S256x16384 .bf16) (r : Fin 64) : Vec Ideal S256x256 .bf16 :=
  fun i => x9 (ix2 (i 0) ⟨256 * r.val + (i 1).val, by have := r.isLt; have := idx2_lt1 i; omega⟩)

theorem ld_slab (x9 : Vec Ideal S256x16384 .bf16) (o : ℕ) (r : Fin 64) (ho : o = 256 * r.val)
    (inb : ∀ a, (![0, o] : Fin 2 → ℕ) a + S256x256.size a ≤ S256x16384.size a) :
    View.ld x9 (Rect.unit (s := S256x16384) ![0, o] S256x256.size inb) = slabF x9 r := by
  funext i
  obtain ⟨k, j, rfl⟩ : ∃ (k j : Fin 256), i = ix2 k j := ⟨i 0, i 1, eq_ix2 i⟩
  subst ho
  exact slab_apply x9 (256 * r.val) (by have := r.isLt; omega) inb k j

theorem ld_slab_0 (x9 : Vec Ideal S256x16384 .bf16) : View.ld x9 r1_5 = slabF x9 ⟨0, by decide⟩ := ld_slab x9 0 ⟨0, by decide⟩ rfl _
theorem ld_slab_1 (x9 : Vec Ideal S256x16384 .bf16) : View.ld x9 r1_6 = slabF x9 ⟨1, by decide⟩ := ld_slab x9 256 ⟨1, by decide⟩ rfl _
theorem ld_slab_2 (x9 : Vec Ideal S256x16384 .bf16) : View.ld x9 r1_7 = slabF x9 ⟨2, by decide⟩ := ld_slab x9 512 ⟨2, by decide⟩ rfl _
theorem ld_slab_3 (x9 : Vec Ideal S256x16384 .bf16) : View.ld x9 r1_8 = slabF x9 ⟨3, by decide⟩ := ld_slab x9 768 ⟨3, by decide⟩ rfl _
theorem ld_slab_4 (x9 : Vec Ideal S256x16384 .bf16) : View.ld x9 r1_9 = slabF x9 ⟨4, by decide⟩ := ld_slab x9 1024 ⟨4, by decide⟩ rfl _
theorem ld_slab_5 (x9 : Vec Ideal S256x16384 .bf16) : View.ld x9 r1_10 = slabF x9 ⟨5, by decide⟩ := ld_slab x9 1280 ⟨5, by decide⟩ rfl _
theorem ld_slab_6 (x9 : Vec Ideal S256x16384 .bf16) : View.ld x9 r1_11 = slabF x9 ⟨6, by decide⟩ := ld_slab x9 1536 ⟨6, by decide⟩ rfl _
theorem ld_slab_7 (x9 : Vec Ideal S256x16384 .bf16) : View.ld x9 r1_12 = slabF x9 ⟨7, by decide⟩ := ld_slab x9 1792 ⟨7, by decide⟩ rfl _
theorem ld_slab_8 (x9 : Vec Ideal S256x16384 .bf16) : View.ld x9 r1_13 = slabF x9 ⟨8, by decide⟩ := ld_slab x9 2048 ⟨8, by decide⟩ rfl _
theorem ld_slab_9 (x9 : Vec Ideal S256x16384 .bf16) : View.ld x9 r1_14 = slabF x9 ⟨9, by decide⟩ := ld_slab x9 2304 ⟨9, by decide⟩ rfl _
theorem ld_slab_10 (x9 : Vec Ideal S256x16384 .bf16) : View.ld x9 r1_15 = slabF x9 ⟨10, by decide⟩ := ld_slab x9 2560 ⟨10, by decide⟩ rfl _
theorem ld_slab_11 (x9 : Vec Ideal S256x16384 .bf16) : View.ld x9 r1_16 = slabF x9 ⟨11, by decide⟩ := ld_slab x9 2816 ⟨11, by decide⟩ rfl _
theorem ld_slab_12 (x9 : Vec Ideal S256x16384 .bf16) : View.ld x9 r1_17 = slabF x9 ⟨12, by decide⟩ := ld_slab x9 3072 ⟨12, by decide⟩ rfl _
theorem ld_slab_13 (x9 : Vec Ideal S256x16384 .bf16) : View.ld x9 r1_18 = slabF x9 ⟨13, by decide⟩ := ld_slab x9 3328 ⟨13, by decide⟩ rfl _
theorem ld_slab_14 (x9 : Vec Ideal S256x16384 .bf16) : View.ld x9 r1_19 = slabF x9 ⟨14, by decide⟩ := ld_slab x9 3584 ⟨14, by decide⟩ rfl _
theorem ld_slab_15 (x9 : Vec Ideal S256x16384 .bf16) : View.ld x9 r1_20 = slabF x9 ⟨15, by decide⟩ := ld_slab x9 3840 ⟨15, by decide⟩ rfl _
theorem ld_slab_16 (x9 : Vec Ideal S256x16384 .bf16) : View.ld x9 r1_21 = slabF x9 ⟨16, by decide⟩ := ld_slab x9 4096 ⟨16, by decide⟩ rfl _
theorem ld_slab_17 (x9 : Vec Ideal S256x16384 .bf16) : View.ld x9 r1_22 = slabF x9 ⟨17, by decide⟩ := ld_slab x9 4352 ⟨17, by decide⟩ rfl _
theorem ld_slab_18 (x9 : Vec Ideal S256x16384 .bf16) : View.ld x9 r1_23 = slabF x9 ⟨18, by decide⟩ := ld_slab x9 4608 ⟨18, by decide⟩ rfl _
theorem ld_slab_19 (x9 : Vec Ideal S256x16384 .bf16) : View.ld x9 r1_24 = slabF x9 ⟨19, by decide⟩ := ld_slab x9 4864 ⟨19, by decide⟩ rfl _
theorem ld_slab_20 (x9 : Vec Ideal S256x16384 .bf16) : View.ld x9 r1_25 = slabF x9 ⟨20, by decide⟩ := ld_slab x9 5120 ⟨20, by decide⟩ rfl _
theorem ld_slab_21 (x9 : Vec Ideal S256x16384 .bf16) : View.ld x9 r1_26 = slabF x9 ⟨21, by decide⟩ := ld_slab x9 5376 ⟨21, by decide⟩ rfl _
theorem ld_slab_22 (x9 : Vec Ideal S256x16384 .bf16) : View.ld x9 r1_27 = slabF x9 ⟨22, by decide⟩ := ld_slab x9 5632 ⟨22, by decide⟩ rfl _
theorem ld_slab_23 (x9 : Vec Ideal S256x16384 .bf16) : View.ld x9 r1_28 = slabF x9 ⟨23, by decide⟩ := ld_slab x9 5888 ⟨23, by decide⟩ rfl _
theorem ld_slab_24 (x9 : Vec Ideal S256x16384 .bf16) : View.ld x9 r1_29 = slabF x9 ⟨24, by decide⟩ := ld_slab x9 6144 ⟨24, by decide⟩ rfl _
theorem ld_slab_25 (x9 : Vec Ideal S256x16384 .bf16) : View.ld x9 r1_30 = slabF x9 ⟨25, by decide⟩ := ld_slab x9 6400 ⟨25, by decide⟩ rfl _
theorem ld_slab_26 (x9 : Vec Ideal S256x16384 .bf16) : View.ld x9 r1_31 = slabF x9 ⟨26, by decide⟩ := ld_slab x9 6656 ⟨26, by decide⟩ rfl _
theorem ld_slab_27 (x9 : Vec Ideal S256x16384 .bf16) : View.ld x9 r1_32 = slabF x9 ⟨27, by decide⟩ := ld_slab x9 6912 ⟨27, by decide⟩ rfl _
theorem ld_slab_28 (x9 : Vec Ideal S256x16384 .bf16) : View.ld x9 r1_33 = slabF x9 ⟨28, by decide⟩ := ld_slab x9 7168 ⟨28, by decide⟩ rfl _
theorem ld_slab_29 (x9 : Vec Ideal S256x16384 .bf16) : View.ld x9 r1_34 = slabF x9 ⟨29, by decide⟩ := ld_slab x9 7424 ⟨29, by decide⟩ rfl _
theorem ld_slab_30 (x9 : Vec Ideal S256x16384 .bf16) : View.ld x9 r1_35 = slabF x9 ⟨30, by decide⟩ := ld_slab x9 7680 ⟨30, by decide⟩ rfl _
theorem ld_slab_31 (x9 : Vec Ideal S256x16384 .bf16) : View.ld x9 r1_36 = slabF x9 ⟨31, by decide⟩ := ld_slab x9 7936 ⟨31, by decide⟩ rfl _
theorem ld_slab_32 (x9 : Vec Ideal S256x16384 .bf16) : View.ld x9 r1_37 = slabF x9 ⟨32, by decide⟩ := ld_slab x9 8192 ⟨32, by decide⟩ rfl _
theorem ld_slab_33 (x9 : Vec Ideal S256x16384 .bf16) : View.ld x9 r1_38 = slabF x9 ⟨33, by decide⟩ := ld_slab x9 8448 ⟨33, by decide⟩ rfl _
theorem ld_slab_34 (x9 : Vec Ideal S256x16384 .bf16) : View.ld x9 r1_39 = slabF x9 ⟨34, by decide⟩ := ld_slab x9 8704 ⟨34, by decide⟩ rfl _
theorem ld_slab_35 (x9 : Vec Ideal S256x16384 .bf16) : View.ld x9 r1_40 = slabF x9 ⟨35, by decide⟩ := ld_slab x9 8960 ⟨35, by decide⟩ rfl _
theorem ld_slab_36 (x9 : Vec Ideal S256x16384 .bf16) : View.ld x9 r1_41 = slabF x9 ⟨36, by decide⟩ := ld_slab x9 9216 ⟨36, by decide⟩ rfl _
theorem ld_slab_37 (x9 : Vec Ideal S256x16384 .bf16) : View.ld x9 r1_42 = slabF x9 ⟨37, by decide⟩ := ld_slab x9 9472 ⟨37, by decide⟩ rfl _
theorem ld_slab_38 (x9 : Vec Ideal S256x16384 .bf16) : View.ld x9 r1_43 = slabF x9 ⟨38, by decide⟩ := ld_slab x9 9728 ⟨38, by decide⟩ rfl _
theorem ld_slab_39 (x9 : Vec Ideal S256x16384 .bf16) : View.ld x9 r1_44 = slabF x9 ⟨39, by decide⟩ := ld_slab x9 9984 ⟨39, by decide⟩ rfl _
theorem ld_slab_40 (x9 : Vec Ideal S256x16384 .bf16) : View.ld x9 r1_45 = slabF x9 ⟨40, by decide⟩ := ld_slab x9 10240 ⟨40, by decide⟩ rfl _
theorem ld_slab_41 (x9 : Vec Ideal S256x16384 .bf16) : View.ld x9 r1_46 = slabF x9 ⟨41, by decide⟩ := ld_slab x9 10496 ⟨41, by decide⟩ rfl _
theorem ld_slab_42 (x9 : Vec Ideal S256x16384 .bf16) : View.ld x9 r1_47 = slabF x9 ⟨42, by decide⟩ := ld_slab x9 10752 ⟨42, by decide⟩ rfl _
theorem ld_slab_43 (x9 : Vec Ideal S256x16384 .bf16) : View.ld x9 r1_48 = slabF x9 ⟨43, by decide⟩ := ld_slab x9 11008 ⟨43, by decide⟩ rfl _
theorem ld_slab_44 (x9 : Vec Ideal S256x16384 .bf16) : View.ld x9 r1_49 = slabF x9 ⟨44, by decide⟩ := ld_slab x9 11264 ⟨44, by decide⟩ rfl _
theorem ld_slab_45 (x9 : Vec Ideal S256x16384 .bf16) : View.ld x9 r1_50 = slabF x9 ⟨45, by decide⟩ := ld_slab x9 11520 ⟨45, by decide⟩ rfl _
theorem ld_slab_46 (x9 : Vec Ideal S256x16384 .bf16) : View.ld x9 r1_51 = slabF x9 ⟨46, by decide⟩ := ld_slab x9 11776 ⟨46, by decide⟩ rfl _
theorem ld_slab_47 (x9 : Vec Ideal S256x16384 .bf16) : View.ld x9 r1_52 = slabF x9 ⟨47, by decide⟩ := ld_slab x9 12032 ⟨47, by decide⟩ rfl _
theorem ld_slab_48 (x9 : Vec Ideal S256x16384 .bf16) : View.ld x9 r1_53 = slabF x9 ⟨48, by decide⟩ := ld_slab x9 12288 ⟨48, by decide⟩ rfl _
theorem ld_slab_49 (x9 : Vec Ideal S256x16384 .bf16) : View.ld x9 r1_54 = slabF x9 ⟨49, by decide⟩ := ld_slab x9 12544 ⟨49, by decide⟩ rfl _
theorem ld_slab_50 (x9 : Vec Ideal S256x16384 .bf16) : View.ld x9 r1_55 = slabF x9 ⟨50, by decide⟩ := ld_slab x9 12800 ⟨50, by decide⟩ rfl _
theorem ld_slab_51 (x9 : Vec Ideal S256x16384 .bf16) : View.ld x9 r1_56 = slabF x9 ⟨51, by decide⟩ := ld_slab x9 13056 ⟨51, by decide⟩ rfl _
theorem ld_slab_52 (x9 : Vec Ideal S256x16384 .bf16) : View.ld x9 r1_57 = slabF x9 ⟨52, by decide⟩ := ld_slab x9 13312 ⟨52, by decide⟩ rfl _
theorem ld_slab_53 (x9 : Vec Ideal S256x16384 .bf16) : View.ld x9 r1_58 = slabF x9 ⟨53, by decide⟩ := ld_slab x9 13568 ⟨53, by decide⟩ rfl _
theorem ld_slab_54 (x9 : Vec Ideal S256x16384 .bf16) : View.ld x9 r1_59 = slabF x9 ⟨54, by decide⟩ := ld_slab x9 13824 ⟨54, by decide⟩ rfl _
theorem ld_slab_55 (x9 : Vec Ideal S256x16384 .bf16) : View.ld x9 r1_60 = slabF x9 ⟨55, by decide⟩ := ld_slab x9 14080 ⟨55, by decide⟩ rfl _
theorem ld_slab_56 (x9 : Vec Ideal S256x16384 .bf16) : View.ld x9 r1_61 = slabF x9 ⟨56, by decide⟩ := ld_slab x9 14336 ⟨56, by decide⟩ rfl _
theorem ld_slab_57 (x9 : Vec Ideal S256x16384 .bf16) : View.ld x9 r1_62 = slabF x9 ⟨57, by decide⟩ := ld_slab x9 14592 ⟨57, by decide⟩ rfl _
theorem ld_slab_58 (x9 : Vec Ideal S256x16384 .bf16) : View.ld x9 r1_63 = slabF x9 ⟨58, by decide⟩ := ld_slab x9 14848 ⟨58, by decide⟩ rfl _
theorem ld_slab_59 (x9 : Vec Ideal S256x16384 .bf16) : View.ld x9 r1_64 = slabF x9 ⟨59, by decide⟩ := ld_slab x9 15104 ⟨59, by decide⟩ rfl _
theorem ld_slab_60 (x9 : Vec Ideal S256x16384 .bf16) : View.ld x9 r1_65 = slabF x9 ⟨60, by decide⟩ := ld_slab x9 15360 ⟨60, by decide⟩ rfl _
theorem ld_slab_61 (x9 : Vec Ideal S256x16384 .bf16) : View.ld x9 r1_66 = slabF x9 ⟨61, by decide⟩ := ld_slab x9 15616 ⟨61, by decide⟩ rfl _
theorem ld_slab_62 (x9 : Vec Ideal S256x16384 .bf16) : View.ld x9 r1_67 = slabF x9 ⟨62, by decide⟩ := ld_slab x9 15872 ⟨62, by decide⟩ rfl _
theorem ld_slab_63 (x9 : Vec Ideal S256x16384 .bf16) : View.ld x9 r1_68 = slabF x9 ⟨63, by decide⟩ := ld_slab x9 16128 ⟨63, by decide⟩ rfl _

/-- The bilinear form of the third hidden layer against slab r, as the body computes it, is the specification's. -/
theorem bilin_fold (x0 : Vec Ideal S1000x256 .f32) (x1 : Vec Ideal S256x256 .bf16) (x2 : Vec Ideal S1x256 .f32) (x7 : Vec Ideal S256x256 .bf16) (x8 : Vec Ideal S1x256 .f32) (x9 : Vec Ideal S256x16384 .bf16) (r : Fin 64) (p : Fin 1000) :
    (∑ j : Fin 256, (∑ k : Fin 256, Cert.Spec.hid3 x0 x1 x2 x7 x8 (ix2 p k) * slabF x9 r (ix2 k j)) * Cert.Spec.hid3 x0 x1 x2 x7 x8 (ix2 p j))
      = Cert.Spec.bilin (Cert.Spec.hid3 x0 x1 x2 x7 x8) x9 r p := rfl

/-! ### Sixty-four one-hot additions select the lane's own term -/

theorem sum64 (t : Fin 64 → EReal) (q : Fin 64) :
    (((((((((((((((((((((((((((((((((((((((((((((((((((((((((((((((t ⟨0, by decide⟩ * (if q.val = 0 then (1 : EReal) else 0)) + t ⟨1, by decide⟩ * (if q.val = 1 then (1 : EReal) else 0)) + t ⟨2, by decide⟩ * (if q.val = 2 then (1 : EReal) else 0)) + t ⟨3, by decide⟩ * (if q.val = 3 then (1 : EReal) else 0)) + t ⟨4, by decide⟩ * (if q.val = 4 then (1 : EReal) else 0)) + t ⟨5, by decide⟩ * (if q.val = 5 then (1 : EReal) else 0)) + t ⟨6, by decide⟩ * (if q.val = 6 then (1 : EReal) else 0)) + t ⟨7, by decide⟩ * (if q.val = 7 then (1 : EReal) else 0)) + t ⟨8, by decide⟩ * (if q.val = 8 then (1 : EReal) else 0)) + t ⟨9, by decide⟩ * (if q.val = 9 then (1 : EReal) else 0)) + t ⟨10, by decide⟩ * (if q.val = 10 then (1 : EReal) else 0)) + t ⟨11, by decide⟩ * (if q.val = 11 then (1 : EReal) else 0)) + t ⟨12, by decide⟩ * (if q.val = 12 then (1 : EReal) else 0)) + t ⟨13, by decide⟩ * (if q.val = 13 then (1 : EReal) else 0)) + t ⟨14, by decide⟩ * (if q.val = 14 then (1 : EReal) else 0)) + t ⟨15, by decide⟩ * (if q.val = 15 then (1 : EReal) else 0)) + t ⟨16, by decide⟩ * (if q.val = 16 then (1 : EReal) else 0)) + t ⟨17, by decide⟩ * (if q.val = 17 then (1 : EReal) else 0)) + t ⟨18, by decide⟩ * (if q.val = 18 then (1 : EReal) else 0)) + t ⟨19, by decide⟩ * (if q.val = 19 then (1 : EReal) else 0)) + t ⟨20, by decide⟩ * (if q.val = 20 then (1 : EReal) else 0)) + t ⟨21, by decide⟩ * (if q.val = 21 then (1 : EReal) else 0)) + t ⟨22, by decide⟩ * (if q.val = 22 then (1 : EReal) else 0)) + t ⟨23, by decide⟩ * (if q.val = 23 then (1 : EReal) else 0)) + t ⟨24, by decide⟩ * (if q.val = 24 then (1 : EReal) else 0)) + t ⟨25, by decide⟩ * (if q.val = 25 then (1 : EReal) else 0)) + t ⟨26, by decide⟩ * (if q.val = 26 then (1 : EReal) else 0)) + t ⟨27, by decide⟩ * (if q.val = 27 then (1 : EReal) else 0)) + t ⟨28, by decide⟩ * (if q.val = 28 then (1 : EReal) else 0)) + t ⟨29, by decide⟩ * (if q.val = 29 then (1 : EReal) else 0)) + t ⟨30, by decide⟩ * (if q.val = 30 then (1 : EReal) else 0)) + t ⟨31, by decide⟩ * (if q.val = 31 then (1 : EReal) else 0)) + t ⟨32, by decide⟩ * (if q.val = 32 then (1 : EReal) else 0)) + t ⟨33, by decide⟩ * (if q.val = 33 then (1 : EReal) else 0)) + t ⟨34, by decide⟩ * (if q.val = 34 then (1 : EReal) else 0)) + t ⟨35, by decide⟩ * (if q.val = 35 then (1 : EReal) else 0)) + t ⟨36, by decide⟩ * (if q.val = 36 then (1 : EReal) else 0)) + t ⟨37, by decide⟩ * (if q.val = 37 then (1 : EReal) else 0)) + t ⟨38, by decide⟩ * (if q.val = 38 then (1 : EReal) else 0)) + t ⟨39, by decide⟩ * (if q.val = 39 then (1 : EReal) else 0)) + t ⟨40, by decide⟩ * (if q.val = 40 then (1 : EReal) else 0)) + t ⟨41, by decide⟩ * (if q.val = 41 then (1 : EReal) else 0)) + t ⟨42, by decide⟩ * (if q.val = 42 then (1 : EReal) else 0)) + t ⟨43, by decide⟩ * (if q.val = 43 then (1 : EReal) else 0)) + t ⟨44, by decide⟩ * (if q.val = 44 then (1 : EReal) else 0)) + t ⟨45, by decide⟩ * (if q.val = 45 then (1 : EReal) else 0)) + t ⟨46, by decide⟩ * (if q.val = 46 then (1 : EReal) else 0)) + t ⟨47, by decide⟩ * (if q.val = 47 then (1 : EReal) else 0)) + t ⟨48, by decide⟩ * (if q.val = 48 then (1 : EReal) else 0)) + t ⟨49, by decide⟩ * (if q.val = 49 then (1 : EReal) else 0)) + t ⟨50, by decide⟩ * (if q.val = 50 then (1 : EReal) else 0)) + t ⟨51, by decide⟩ * (if q.val = 51 then (1 : EReal) else 0)) + t ⟨52, by decide⟩ * (if q.val = 52 then (1 : EReal) else 0)) + t ⟨53, by decide⟩ * (if q.val = 53 then (1 : EReal) else 0)) + t ⟨54, by decide⟩ * (if q.val = 54 then (1 : EReal) else 0)) + t ⟨55, by decide⟩ * (if q.val = 55 then (1 : EReal) else 0)) + t ⟨56, by decide⟩ * (if q.val = 56 then (1 : EReal) else 0)) + t ⟨57, by decide⟩ * (if q.val = 57 then (1 : EReal) else 0)) + t ⟨58, by decide⟩ * (if q.val = 58 then (1 : EReal) else 0)) + t ⟨59, by decide⟩ * (if q.val = 59 then (1 : EReal) else 0)) + t ⟨60, by decide⟩ * (if q.val = 60 then (1 : EReal) else 0)) + t ⟨61, by decide⟩ * (if q.val = 61 then (1 : EReal) else 0)) + t ⟨62, by decide⟩ * (if q.val = 62 then (1 : EReal) else 0)) + t ⟨63, by decide⟩ * (if q.val = 63 then (1 : EReal) else 0) = t q := by
  obtain ⟨n, hn⟩ := q
  interval_cases n <;> simp

/-! ### The accumulated bilinear head, lane by lane -/

theorem tail_eq (x0 : Vec Ideal S1000x256 .f32) (x1 : Vec Ideal S256x256 .bf16) (x2 : Vec Ideal S1x256 .f32) (x7 : Vec Ideal S256x256 .bf16) (x8 : Vec Ideal S1x256 .f32) (x9 : Vec Ideal S256x16384 .bf16) (x10 : Vec Ideal S1x64 .f32) (p : Fin 1000) (q : Fin 64) :
    ((((k1_pay48 (k1_pay6 (k1_pay4 x0 x1 x2 x7) (k1_pay5 x8)) (k1_pay7 (k1_pay4 x0 x1 x2 x7) (k1_pay5 x8)) (iota .tc S1x64 32 [1] iota_S1x64_d1_w32) (k1_pay46 (k1_pay6 (k1_pay4 x0 x1 x2 x7) (k1_pay5 x8)) (k1_pay7 (k1_pay4 x0 x1 x2 x7) (k1_pay5 x8)) (iota .tc S1x64 32 [1] iota_S1x64_d1_w32) (k1_pay44 (k1_pay6 (k1_pay4 x0 x1 x2 x7) (k1_pay5 x8)) (k1_pay7 (k1_pay4 x0 x1 x2 x7) (k1_pay5 x8)) (iota .tc S1x64 32 [1] iota_S1x64_d1_w32) (k1_pay42 (k1_pay6 (k1_pay4 x0 x1 x2 x7) (k1_pay5 x8)) (k1_pay7 (k1_pay4 x0 x1 x2 x7) (k1_pay5 x8)) (iota .tc S1x64 32 [1] iota_S1x64_d1_w32) (k1_pay41 (k1_pay6 (k1_pay4 x0 x1 x2 x7) (k1_pay5 x8)) (k1_pay7 (k1_pay4 x0 x1 x2 x7) (k1_pay5 x8)) (iota .tc S1x64 32 [1] iota_S1x64_d1_w32) (k1_pay38 (k1_pay6 (k1_pay4 x0 x1 x2 x7) (k1_pay5 x8)) (k1_pay7 (k1_pay4 x0 x1 x2 x7) (k1_pay5 x8)) (iota .tc S1x64 32 [1] iota_S1x64_d1_w32) (k1_pay35 (k1_pay6 (k1_pay4 x0 x1 x2 x7) (k1_pay5 x8)) (k1_pay7 (k1_pay4 x0 x1 x2 x7) (k1_pay5 x8)) (iota .tc S1x64 32 [1] iota_S1x64_d1_w32) (k1_pay33 (k1_pay6 (k1_pay4 x0 x1 x2 x7) (k1_pay5 x8)) (k1_pay7 (k1_pay4 x0 x1 x2 x7) (k1_pay5 x8)) (iota .tc S1x64 32 [1] iota_S1x64_d1_w32) (k1_pay31 (k1_pay6 (k1_pay4 x0 x1 x2 x7) (k1_pay5 x8)) (k1_pay7 (k1_pay4 x0 x1 x2 x7) (k1_pay5 x8)) (iota .tc S1x64 32 [1] iota_S1x64_d1_w32) (k1_pay29 (k1_pay6 (k1_pay4 x0 x1 x2 x7) (k1_pay5 x8)) (k1_pay7 (k1_pay4 x0 x1 x2 x7) (k1_pay5 x8)) (iota .tc S1x64 32 [1] iota_S1x64_d1_w32) (k1_pay28 (k1_pay6 (k1_pay4 x0 x1 x2 x7) (k1_pay5 x8)) (k1_pay7 (k1_pay4 x0 x1 x2 x7) (k1_pay5 x8)) (iota .tc S1x64 32 [1] iota_S1x64_d1_w32) (k1_pay26 (k1_pay6 (k1_pay4 x0 x1 x2 x7) (k1_pay5 x8)) (k1_pay7 (k1_pay4 x0 x1 x2 x7) (k1_pay5 x8)) (iota .tc S1x64 32 [1] iota_S1x64_d1_w32) (k1_pay23 (k1_pay6 (k1_pay4 x0 x1 x2 x7) (k1_pay5 x8)) (k1_pay7 (k1_pay4 x0 x1 x2 x7) (k1_pay5 x8)) (iota .tc S1x64 32 [1] iota_S1x64_d1_w32) (k1_pay20 (k1_pay6 (k1_pay4 x0 x1 x2 x7) (k1_pay5 x8)) (k1_pay7 (k1_pay4 x0 x1 x2 x7) (k1_pay5 x8)) (iota .tc S1x64 32 [1] iota_S1x64_d1_w32) (k1_pay18 (k1_pay6 (k1_pay4 x0 x1 x2 x7) (k1_pay5 x8)) (k1_pay7 (k1_pay4 x0 x1 x2 x7) (k1_pay5 x8)) (iota .tc S1x64 32 [1] iota_S1x64_d1_w32) (k1_pay16 (k1_pay6 (k1_pay4 x0 x1 x2 x7) (k1_pay5 x8)) (k1_pay7 (k1_pay4 x0 x1 x2 x7) (k1_pay5 x8)) (iota .tc S1x64 32 [1] iota_S1x64_d1_w32) (k1_pay15 (k1_pay6 (k1_pay4 x0 x1 x2 x7) (k1_pay5 x8)) (k1_pay7 (k1_pay4 x0 x1 x2 x7) (k1_pay5 x8)) (iota .tc S1x64 32 [1] iota_S1x64_d1_w32) (k1_pay14 (k1_pay6 (k1_pay4 x0 x1 x2 x7) (k1_pay5 x8)) (k1_pay7 (k1_pay4 x0 x1 x2 x7) (k1_pay5 x8)) (iota .tc S1x64 32 [1] iota_S1x64_d1_w32) (k1_pay11 (k1_pay6 (k1_pay4 x0 x1 x2 x7) (k1_pay5 x8)) (k1_pay7 (k1_pay4 x0 x1 x2 x7) (k1_pay5 x8)) (iota .tc S1x64 32 [1] iota_S1x64_d1_w32) (k1_pay8 (k1_pay4 x0 x1 x2 x7) (k1_pay5 x8) (slabF x9 ⟨0, by decide⟩) (slabF x9 ⟨1, by decide⟩)) (k1_pay9 (k1_pay4 x0 x1 x2 x7) (k1_pay5 x8) (slabF x9 ⟨2, by decide⟩)) k1_pay10 (slabF x9 ⟨3, by decide⟩) (slabF x9 ⟨4, by decide⟩)) (k1_pay12 (F := Ideal) (iota .tc S1x64 32 [1] iota_S1x64_d1_w32)) (k1_pay13 (k1_pay6 (k1_pay4 x0 x1 x2 x7) (k1_pay5 x8)) (k1_pay7 (k1_pay4 x0 x1 x2 x7) (k1_pay5 x8)) (slabF x9 ⟨5, by decide⟩)) (slabF x9 ⟨6, by decide⟩) (slabF x9 ⟨7, by decide⟩) (slabF x9 ⟨8, by decide⟩)) (slabF x9 ⟨9, by decide⟩) (slabF x9 ⟨10, by decide⟩) (slabF x9 ⟨11, by decide⟩)) (slabF x9 ⟨12, by decide⟩) (slabF x9 ⟨13, by decide⟩) (slabF x9 ⟨14, by decide⟩)) (k1_pay17 (k1_pay7 (k1_pay4 x0 x1 x2 x7) (k1_pay5 x8)) (slabF x9 ⟨15, by decide⟩)) (slabF x9 ⟨16, by decide⟩) (slabF x9 ⟨17, by decide⟩)) (k1_pay19 (k1_pay6 (k1_pay4 x0 x1 x2 x7) (k1_pay5 x8)) (k1_pay7 (k1_pay4 x0 x1 x2 x7) (k1_pay5 x8)) (slabF x9 ⟨18, by decide⟩)) (slabF x9 ⟨19, by decide⟩) (slabF x9 ⟨20, by decide⟩)) (k1_pay21 (k1_pay6 (k1_pay4 x0 x1 x2 x7) (k1_pay5 x8)) (k1_pay7 (k1_pay4 x0 x1 x2 x7) (k1_pay5 x8)) (slabF x9 ⟨21, by decide⟩)) k1_pay22 (slabF x9 ⟨22, by decide⟩) (slabF x9 ⟨23, by decide⟩)) (k1_pay24 (k1_pay6 (k1_pay4 x0 x1 x2 x7) (k1_pay5 x8)) (k1_pay7 (k1_pay4 x0 x1 x2 x7) (k1_pay5 x8)) (slabF x9 ⟨24, by decide⟩)) (k1_pay25 (F := Ideal) (iota .tc S1x64 32 [1] iota_S1x64_d1_w32)) (slabF x9 ⟨25, by decide⟩) (slabF x9 ⟨26, by decide⟩)) (k1_pay27 (k1_pay6 (k1_pay4 x0 x1 x2 x7) (k1_pay5 x8)) (k1_pay7 (k1_pay4 x0 x1 x2 x7) (k1_pay5 x8)) (iota .tc S1x64 32 [1] iota_S1x64_d1_w32) (slabF x9 ⟨27, by decide⟩)) (slabF x9 ⟨28, by decide⟩) (slabF x9 ⟨29, by decide⟩) (slabF x9 ⟨30, by decide⟩)) (slabF x9 ⟨31, by decide⟩) (slabF x9 ⟨32, by decide⟩) (slabF x9 ⟨33, by decide⟩)) (k1_pay30 (slabF x9 ⟨34, by decide⟩)) (constant S1000x256 .f32 0x00000000#32) (slabF x9 ⟨35, by decide⟩) (slabF x9 ⟨36, by decide⟩)) (k1_pay32 (k1_pay6 (k1_pay4 x0 x1 x2 x7) (k1_pay5 x8)) (k1_pay7 (k1_pay4 x0 x1 x2 x7) (k1_pay5 x8)) (slabF x9 ⟨37, by decide⟩)) (slabF x9 ⟨38, by decide⟩) (slabF x9 ⟨39, by decide⟩)) (k1_pay34 (k1_pay6 (k1_pay4 x0 x1 x2 x7) (k1_pay5 x8)) (k1_pay7 (k1_pay4 x0 x1 x2 x7) (k1_pay5 x8)) (slabF x9 ⟨40, by decide⟩)) 40#32 (slabF x9 ⟨41, by decide⟩) (slabF x9 ⟨42, by decide⟩)) (k1_pay36 (k1_pay6 (k1_pay4 x0 x1 x2 x7) (k1_pay5 x8)) (k1_pay7 (k1_pay4 x0 x1 x2 x7) (k1_pay5 x8)) (slabF x9 ⟨43, by decide⟩)) (k1_pay37 (iota .tc S1x64 32 [1] iota_S1x64_d1_w32)) (slabF x9 ⟨44, by decide⟩) (slabF x9 ⟨45, by decide⟩)) (k1_pay39 (k1_pay6 (k1_pay4 x0 x1 x2 x7) (k1_pay5 x8)) (k1_pay7 (k1_pay4 x0 x1 x2 x7) (k1_pay5 x8)) (slabF x9 ⟨46, by decide⟩)) (k1_pay40 (F := Ideal) (iota .tc S1x64 32 [1] iota_S1x64_d1_w32)) (slabF x9 ⟨47, by decide⟩) (slabF x9 ⟨48, by decide⟩) (slabF x9 ⟨49, by decide⟩)) (slabF x9 ⟨50, by decide⟩) (slabF x9 ⟨51, by decide⟩) (slabF x9 ⟨52, by decide⟩)) (k1_pay43 (slabF x9 ⟨53, by decide⟩)) (slabF x9 ⟨54, by decide⟩) (slabF x9 ⟨55, by decide⟩)) (k1_pay45 (k1_pay6 (k1_pay4 x0 x1 x2 x7) (k1_pay5 x8)) (k1_pay7 (k1_pay4 x0 x1 x2 x7) (k1_pay5 x8)) (slabF x9 ⟨56, by decide⟩)) (slabF x9 ⟨57, by decide⟩) (slabF x9 ⟨58, by decide⟩)) (k1_pay47 (k1_pay6 (k1_pay4 x0 x1 x2 x7) (k1_pay5 x8)) (k1_pay7 (k1_pay4 x0 x1 x2 x7) (k1_pay5 x8)) (slabF x9 ⟨59, by decide⟩)) (slabF x9 ⟨60, by decide⟩) (slabF x9 ⟨61, by decide⟩)) (ix2 p q)) + (((k1_pay49 (k1_pay6 (k1_pay4 x0 x1 x2 x7) (k1_pay5 x8)) (k1_pay7 (k1_pay4 x0 x1 x2 x7) (k1_pay5 x8)) (slabF x9 ⟨62, by decide⟩)) (ix2 p (0 : Fin 1))) * (if (k1_pay50 (iota .tc S1x64 32 [1] iota_S1x64_d1_w32)) (ix2 (0 : Fin 1) q) = 1#1 then (1 : EReal) else 0))) + ((∑ j1 : Fin 256, ((∑ k2 : Fin 256, ((k1_pay7 (k1_pay4 x0 x1 x2 x7) (k1_pay5 x8)) (ix2 p k2)) * ((slabF x9 ⟨63, by decide⟩) (ix2 k2 j1))) * ((k1_pay6 (k1_pay4 x0 x1 x2 x7) (k1_pay5 x8)) (ix2 p j1)))) * (if IntOp.cmpi .eq ((iota .tc S1x64 32 [1] iota_S1x64_d1_w32) (ix2 (0 : Fin 1) q)) (63#32) = 1#1 then (1 : EReal) else 0))) + (x10 (ix2 (0 : Fin 1) q))
      = Cert.Spec.head2 x0 x1 x2 x7 x8 x9 x10 (ix2 p q) := by
  simp (config := { index := false }) only [pay7_apply, pay8_apply, pay9_apply, pay10_apply, pay11_apply, pay12_apply, pay13_apply, pay14_apply, pay15_apply, pay16_apply, pay17_apply, pay18_apply, pay19_apply, pay20_apply, pay21_apply, pay22_apply, pay23_apply, pay24_apply, pay25_apply, pay26_apply, pay27_apply, pay28_apply, pay29_apply, pay30_apply, pay31_apply, pay32_apply, pay33_apply, pay34_apply, pay35_apply, pay36_apply, pay37_apply, pay38_apply, pay39_apply, pay40_apply, pay41_apply, pay42_apply, pay43_apply, pay44_apply, pay45_apply, pay46_apply, pay47_apply, pay48_apply, pay49_apply, pay50_apply, iota_apply, cmpi_lane, Nat.reduceMod, bit_cast, zero_const, zero_add]
  simp (config := { index := false }) only [pay6_eq, bilin_fold]
  exact congrArg (· + x10 (ix2 (0 : Fin 1) q)) (sum64 (fun r => Cert.Spec.bilin (Cert.Spec.hid3 x0 x1 x2 x7 x8) x9 r p) q)

/-! ### The block the body leaves -/

theorem out_apply (x0 : Vec Ideal S1000x256 .f32) (x1 : Vec Ideal S256x256 .bf16) (x2 : Vec Ideal S1x256 .f32) (x3 : Vec Ideal S256x256 .bf16) (x4 : Vec Ideal S1x256 .f32) (x5 : Vec Ideal S256x1 .bf16) (x6 : Vec Ideal S1x1 .f32) (x7 : Vec Ideal S256x256 .bf16) (x8 : Vec Ideal S1x256 .f32) (x9 : Vec Ideal S256x16384 .bf16) (x10 : Vec Ideal S1x64 .f32) (p : Fin 1000) (q : Fin 128) :
    out1_11 (F := Ideal) x0 x1 x2 x3 x4 x5 x6 x7 x8 x9 x10 (ix2 p q)
      = Cert.Spec.packed x0 x1 x2 x3 x4 x5 x6 x7 x8 x9 x10 (ix2 p q) := by
  have hz : (![0, 0] : Fin 2 → ℕ) = fun _ => 0 := by funext a; fin_cases a <;> rfl
  unfold out1_11
  rw [View.canon_unit_zero hz]
  simp only [View.ld_unit_zero (S := S1000x256) hz, View.ld_unit_zero (S := S256x256) hz, View.ld_unit_zero (S := S1x256) hz, View.ld_unit_zero (S := S256x1) hz, View.ld_unit_zero (S := S1x1) hz, View.ld_unit_zero (S := S1x64) hz]
  rw [ld_slab_0 x9, ld_slab_1 x9, ld_slab_2 x9, ld_slab_3 x9, ld_slab_4 x9, ld_slab_5 x9, ld_slab_6 x9, ld_slab_7 x9, ld_slab_8 x9, ld_slab_9 x9, ld_slab_10 x9, ld_slab_11 x9, ld_slab_12 x9, ld_slab_13 x9, ld_slab_14 x9, ld_slab_15 x9, ld_slab_16 x9, ld_slab_17 x9, ld_slab_18 x9, ld_slab_19 x9, ld_slab_20 x9, ld_slab_21 x9, ld_slab_22 x9, ld_slab_23 x9, ld_slab_24 x9, ld_slab_25 x9, ld_slab_26 x9, ld_slab_27 x9, ld_slab_28 x9, ld_slab_29 x9, ld_slab_30 x9, ld_slab_31 x9, ld_slab_32 x9, ld_slab_33 x9, ld_slab_34 x9, ld_slab_35 x9, ld_slab_36 x9, ld_slab_37 x9, ld_slab_38 x9, ld_slab_39 x9, ld_slab_40 x9, ld_slab_41 x9, ld_slab_42 x9, ld_slab_43 x9, ld_slab_44 x9, ld_slab_45 x9, ld_slab_46 x9, ld_slab_47 x9, ld_slab_48 x9, ld_slab_49 x9, ld_slab_50 x9, ld_slab_51 x9, ld_slab_52 x9, ld_slab_53 x9, ld_slab_54 x9, ld_slab_55 x9, ld_slab_56 x9, ld_slab_57 x9, ld_slab_58 x9, ld_slab_59 x9, ld_slab_60 x9, ld_slab_61 x9, ld_slab_62 x9, ld_slab_63 x9]
  rw [pay1_apply]
  unfold Cert.Spec.packed
  show _ = if q.val = 0 then _ else if h : q.val < 64 then _ else _
  by_cases h0 : q.val = 0
  · rw [dif_pos h0, if_pos h0]
    exact pay3_eq x0 x1 x2 x3 x4 x5 x6 p
  · rw [dif_neg h0, if_neg h0]
    by_cases h1 : q.val < 64
    · rw [dif_pos h1, dif_pos h1]
    · rw [dif_neg h1, dif_neg h1]
      exact tail_eq x0 x1 x2 x7 x8 x9 x10 p ⟨q.val - 64, by have := q.isLt; omega⟩

/-- What the fused dense-layers-and-bilinear-head body leaves in its [1000, 128] output block: the packed array of the
    specification (column 0 the scalar head, columns 1..63 zero, columns 64..127 the bilinear head). -/
theorem out1_11_eq (x0 : Vec Ideal S1000x256 .f32) (x1 : Vec Ideal S256x256 .bf16) (x2 : Vec Ideal S1x256 .f32) (x3 : Vec Ideal S256x256 .bf16) (x4 : Vec Ideal S1x256 .f32) (x5 : Vec Ideal S256x1 .bf16) (x6 : Vec Ideal S1x1 .f32) (x7 : Vec Ideal S256x256 .bf16) (x8 : Vec Ideal S1x256 .f32) (x9 : Vec Ideal S256x16384 .bf16) (x10 : Vec Ideal S1x64 .f32) :
    Cert.KernelIdeal.Gen.out1_11 (F := Ideal) x0 x1 x2 x3 x4 x5 x6 x7 x8 x9 x10
      = Cert.Spec.packed x0 x1 x2 x3 x4 x5 x6 x7 x8 x9 x10 := by
  funext i
  obtain ⟨p, q, rfl⟩ : ∃ (p : Fin 1000) (q : Fin 128), i = ix2 p q := ⟨i 0, i 1, eq_ix2 i⟩
  exact out_apply x0 x1 x2 x3 x4 x5 x6 x7 x8 x9 x10 p q

end Cert.KernelIdeal.Body1
end
-- ==== Proof.lean ====
/-
  Equivalence, over the extended reals, of a two-kernel graph network with its jnp reference.  Both compute
  h0 = relu(GCN(x) + b) + x with GCN the symmetric-normalised aggregation over the edge list, then three dense layers
  and two heads (a scalar head and a bilinear head out[n, r] = h3[n]ᵀ W[r] h3[n] + bb[r]).  The kernel's program does
  the products in two pallas_calls and pre-scales the rows by D^(-1/2) before the gather; the reference scales each
  edge by D^(-1/2)[src] D^(-1/2)[dst].  For finite x and convolution weight the two arrangements are one real sum.
  Spec.lean states the functions, Body1.lean reads the second kernel's body, Reg0 / Reg1 go from blocks to arrays,
  Gcn.lean joins the two graph-convolution arrangements, RefTail.lean reads the reference, Bridge.lean joins the two
  programs and Claims.lean states the five claims.
-/
import proofs.«108546_j24326694764553_2_alg».proof.Defs
import proofs.«108546_j24326694764553_2_alg».proof.Proof.Gen.Kernel
import proofs.«108546_j24326694764553_2_alg».proof.Proof.Gen.Kernel.Skeleton
import proofs.«108546_j24326694764553_2_alg».proof.Proof.Gen.Kernel.Launch
import proofs.«108546_j24326694764553_2_alg».proof.Proof.Gen.Kernel.Points
import proofs.«108546_j24326694764553_2_alg».proof.Proof.Gen.Kernel.Frame
import proofs.«108546_j24326694764553_2_alg».proof.Proof.Gen.KernelIdeal
import proofs.«108546_j24326694764553_2_alg».proof.Proof.Gen.KernelIdeal.Skeleton
import proofs.«108546_j24326694764553_2_alg».proof.Proof.Gen.KernelIdeal.Launch
import proofs.«108546_j24326694764553_2_alg».proof.Proof.Gen.KernelIdeal.Points
import proofs.«108546_j24326694764553_2_alg».proof.Proof.Gen.KernelIdeal.Frame
import proofs.«108546_j24326694764553_2_alg».proof.Proof.Gen.ReferenceIdeal
import proofs.«108546_j24326694764553_2_alg».proof.Proof.Gen.Pre_finite_inputs
import proofs.«108546_j24326694764553_2_alg».proof.Proof.Gen.ReferenceIdeal.Run
import proofs.«108546_j24326694764553_2_alg».proof.Proof.Gen.ReferenceIdeal.Read
import proofs.«108546_j24326694764553_2_alg».proof.Proof.Claims
import proofs.«108546_j24326694764553_2_alg».proof.Proof.Body1
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic Cert.KernelIdeal.Body1.out1_11_eq⟩

end Cert.Proof

end
